-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S1000000 : Shape := ⟨1, ![1000000]⟩
abbrev S2x500000 : Shape := ⟨2, ![2, 500000]⟩
abbrev S500000 : Shape := ⟨1, ![500000]⟩
abbrev S1024x256 : Shape := ⟨2, ![1024, 256]⟩
abbrev S256x64 : Shape := ⟨2, ![256, 64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S500000 : S_.BroadcastsInDim S500000 (![] : Fin 0 → Fin S500000.rank)
  reducesTo_S500000_S_d0 : S500000.ReducesTo [0] S_
  bcast_S_S1024x256 : S_.BroadcastsInDim S1024x256 (![] : Fin 0 → Fin S1024x256.rank)
  reducesTo_S1024x256_S_d0_1 : S1024x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : IVec S2x1000000 32) (main_arg1 : FVec F S1000000 .f32) (main_arg2 : IVec S2x500000 32) (main_arg3 : FVec F S500000 .f32) (main_arg4 : FVec F S1024x256 .f32) (main_arg5 : FVec F S256x64 .f32) : IVec S_ 1 :=
  let main_v0 : FVec F S1000000 .f32 := Host.absf main_arg1
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S500000 .f32 := Host.absf main_arg3
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S1024x256 .f32 := Host.absf main_arg4
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S2x1000000 : Shape := ⟨2, ![2, 1000000]⟩
abbrev S1000000 : Shape := ⟨1, ![1000000]⟩
abbrev S2x500000 : Shape := ⟨2, ![2, 500000]⟩
abbrev S500000 : Shape := ⟨1, ![500000]⟩
abbrev S1024x256 : Shape := ⟨2, ![1024, 256]⟩
abbrev S256x64 : Shape := ⟨2, ![256, 64]⟩
abbrev S1x1000000 : Shape := ⟨2, ![1, 1000000]⟩
abbrev S_ : Shape := ⟨0, ![]⟩
abbrev S50000x1024 : Shape := ⟨2, ![50000, 1024]⟩
abbrev S1000000x1 : Shape := ⟨2, ![1000000, 1]⟩
abbrev S1000000x2 : Shape := ⟨2, ![1000000, 2]⟩
abbrev S50000x64 : Shape := ⟨2, ![50000, 64]⟩
abbrev S1000x1024 : Shape := ⟨2, ![1000, 1024]⟩
abbrev S1000x64 : Shape := ⟨2, ![1000, 64]⟩
abbrev S1000x256 : Shape := ⟨2, ![1000, 256]⟩
abbrev S1x500000 : Shape := ⟨2, ![1, 500000]⟩
abbrev S500000x1 : Shape := ⟨2, ![500000, 1]⟩
abbrev S500000x64 : Shape := ⟨2, ![500000, 64]⟩
abbrev S1000 : Shape := ⟨1, ![1000]⟩
abbrev S1000x1 : Shape := ⟨2, ![1000, 1]⟩

abbrev nBuf : Space → Nat
  | .hbm => 266
  | .vmem => 10
  | .smem => 0
  | _ => 0

abbrev hbmTy0_0 (i : Nat) : BufTy := match i % 128 with
  | 0 => ⟨S2x1000000, .i32⟩
  | 1 => ⟨S1000000, .f32⟩
  | 2 => ⟨S2x500000, .i32⟩
  | 3 => ⟨S500000, .f32⟩
  | 4 => ⟨S1024x256, .f32⟩
  | 5 => ⟨S256x64, .f32⟩
  | 6 => ⟨S1x1000000, .i32⟩
  | 7 => ⟨S1000000, .i32⟩
  | 8 => ⟨S1x1000000, .i32⟩
  | 9 => ⟨S1000000, .i32⟩
  | 10 => ⟨S_, .f32⟩
  | 11 => ⟨S50000x1024, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x1, .i32⟩
  | 28 => ⟨S1000000x2, .i32⟩
  | 29 => ⟨S50000x1024, .f32⟩
  | 30 => ⟨S50000x64, .f32⟩
  | 31 => ⟨S1x500000, .i32⟩
  | 32 => ⟨S500000, .i32⟩
  | 33 => ⟨S1x500000, .i32⟩
  | 34 => ⟨S500000, .i32⟩
  | 35 => ⟨S500000x1, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x64, .f32⟩
  | 45 => ⟨S500000x64, .f32⟩
  | 46 => ⟨S500000x64, .f32⟩
  | 47 => ⟨S_, .f32⟩
  | 48 => ⟨S50000x64, .f32⟩
  | 49 => ⟨S500000x1, .i32⟩
  | 50 => ⟨S50000x64, .f32⟩
  | 51 => ⟨S_, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S500000x1, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x64, .f32⟩
  | 68 => ⟨S500000x64, .f32⟩
  | 69 => ⟨S500000x64, .f32⟩
  | 70 => ⟨S_, .f32⟩
  | 71 => ⟨S50000x64, .f32⟩
  | 72 => ⟨S500000x1, .i32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S500000x1, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x64, .f32⟩
  | 91 => ⟨S500000x64, .f32⟩
  | 92 => ⟨S500000x64, .f32⟩
  | 93 => ⟨S_, .f32⟩
  | 94 => ⟨S50000x64, .f32⟩
  | 95 => ⟨S500000x1, .i32⟩
  | 96 => ⟨S50000x64, .f32⟩
  | 97 => ⟨S_, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S500000x1, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x64, .f32⟩
  | 114 => ⟨S500000x64, .f32⟩
  | 115 => ⟨S500000x64, .f32⟩
  | 116 => ⟨S_, .f32⟩
  | 117 => ⟨S50000x64, .f32⟩
  | 118 => ⟨S500000x1, .i32⟩
  | 119 => ⟨S50000x64, .f32⟩
  | 120 => ⟨S_, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S500000x1, .f32⟩
  | _ => ⟨S2x1000000, .i32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x64, .f32⟩
  | 9 => ⟨S500000x64, .f32⟩
  | 10 => ⟨S500000x64, .f32⟩
  | 11 => ⟨S_, .f32⟩
  | 12 => ⟨S50000x64, .f32⟩
  | 13 => ⟨S500000x1, .i32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S500000x1, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x64, .f32⟩
  | 32 => ⟨S500000x64, .f32⟩
  | 33 => ⟨S500000x64, .f32⟩
  | 34 => ⟨S_, .f32⟩
  | 35 => ⟨S50000x64, .f32⟩
  | 36 => ⟨S500000x1, .i32⟩
  | 37 => ⟨S50000x64, .f32⟩
  | 38 => ⟨S_, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S500000x1, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x64, .f32⟩
  | 55 => ⟨S500000x64, .f32⟩
  | 56 => ⟨S500000x64, .f32⟩
  | 57 => ⟨S_, .f32⟩
  | 58 => ⟨S50000x64, .f32⟩
  | 59 => ⟨S500000x1, .i32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S500000x1, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x64, .f32⟩
  | 78 => ⟨S500000x64, .f32⟩
  | 79 => ⟨S500000x64, .f32⟩
  | 80 => ⟨S_, .f32⟩
  | 81 => ⟨S50000x64, .f32⟩
  | 82 => ⟨S500000x1, .i32⟩
  | 83 => ⟨S50000x64, .f32⟩
  | 84 => ⟨S_, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S500000x1, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x64, .f32⟩
  | 101 => ⟨S500000x64, .f32⟩
  | 102 => ⟨S500000x64, .f32⟩
  | 103 => ⟨S_, .f32⟩
  | 104 => ⟨S50000x64, .f32⟩
  | 105 => ⟨S500000x1, .i32⟩
  | 106 => ⟨S50000x64, .f32⟩
  | 107 => ⟨S_, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S500000x1, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x64, .f32⟩
  | 124 => ⟨S500000x64, .f32⟩
  | 125 => ⟨S500000x64, .f32⟩
  | 126 => ⟨S_, .f32⟩
  | 127 => ⟨S50000x64, .f32⟩
  | _ => ⟨S2x1000000, .i32⟩

abbrev hbmTy0_2 (i : Nat) : BufTy := match i % 128 with
  | 0 => ⟨S500000x1, .i32⟩
  | 1 => ⟨S50000x64, .f32⟩
  | 2 => ⟨S_, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S50000x64, .f32⟩
  | _ => ⟨S2x1000000, .i32⟩

abbrev hbmTy (i : Nat) : BufTy := match i / 128 with
  | 0 => hbmTy0_0 i
  | 1 => hbmTy0_1 i
  | 2 => hbmTy0_2 i
  | _ => ⟨S2x1000000, .i32⟩

abbrev bufTy : (tb : Table) → Fin (tcTables nBuf tb) → BufTy
  | .hbm, ⟨i, _⟩ => hbmTy i
  | .local _ .vmem, ⟨0, _⟩ => ⟨S1000x1024, .f32⟩
  | .local _ .vmem, ⟨1, _⟩ => ⟨S1000x1024, .f32⟩
  | .local _ .vmem, ⟨2, _⟩ => ⟨S1024x256, .f32⟩
  | .local _ .vmem, ⟨3, _⟩ => ⟨S256x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_18 : Ref sig .tc := ⟨.hbm, 105, rfl⟩
abbrev main_v79 : Ref sig .tc := ⟨.hbm, 106, rfl⟩
abbrev main_v80 : Ref sig .tc := ⟨.hbm, 107, rfl⟩
abbrev main_c_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_20 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_cst_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_23 : Ref sig .tc := ⟨.hbm, 128, rfl⟩
abbrev main_v97 : Ref sig .tc := ⟨.hbm, 129, rfl⟩
abbrev main_v98 : Ref sig .tc := ⟨.hbm, 130, rfl⟩
abbrev main_c_24 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_25 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_26 : Ref sig .tc := ⟨.hbm, 143, rfl⟩
abbrev main_v109 : Ref sig .tc := ⟨.hbm, 144, rfl⟩
abbrev main_v110 : Ref sig .tc := ⟨.hbm, 145, rfl⟩
abbrev main_cst_27 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_28 : Ref sig .tc := ⟨.hbm, 151, rfl⟩
abbrev main_v115 : Ref sig .tc := ⟨.hbm, 152, rfl⟩
abbrev main_v116 : Ref sig .tc := ⟨.hbm, 153, rfl⟩
abbrev main_c_29 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_30 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_31 : Ref sig .tc := ⟨.hbm, 166, rfl⟩
abbrev main_v127 : Ref sig .tc := ⟨.hbm, 167, rfl⟩
abbrev main_v128 : Ref sig .tc := ⟨.hbm, 168, rfl⟩
abbrev main_cst_32 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_33 : Ref sig .tc := ⟨.hbm, 174, rfl⟩
abbrev main_v133 : Ref sig .tc := ⟨.hbm, 175, rfl⟩
abbrev main_v134 : Ref sig .tc := ⟨.hbm, 176, rfl⟩
abbrev main_c_34 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_35 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_36 : Ref sig .tc := ⟨.hbm, 189, rfl⟩
abbrev main_v145 : Ref sig .tc := ⟨.hbm, 190, rfl⟩
abbrev main_v146 : Ref sig .tc := ⟨.hbm, 191, rfl⟩
abbrev main_cst_37 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_c_38 : Ref sig .tc := ⟨.hbm, 197, rfl⟩
abbrev main_v151 : Ref sig .tc := ⟨.hbm, 198, rfl⟩
abbrev main_v152 : Ref sig .tc := ⟨.hbm, 199, rfl⟩
abbrev main_c_39 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_40 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_41 : Ref sig .tc := ⟨.hbm, 212, rfl⟩
abbrev main_v163 : Ref sig .tc := ⟨.hbm, 213, rfl⟩
abbrev main_v164 : Ref sig .tc := ⟨.hbm, 214, rfl⟩
abbrev main_cst_42 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_c_43 : Ref sig .tc := ⟨.hbm, 220, rfl⟩
abbrev main_v169 : Ref sig .tc := ⟨.hbm, 221, rfl⟩
abbrev main_v170 : Ref sig .tc := ⟨.hbm, 222, rfl⟩
abbrev main_c_44 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_45 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_46 : Ref sig .tc := ⟨.hbm, 235, rfl⟩
abbrev main_v181 : Ref sig .tc := ⟨.hbm, 236, rfl⟩
abbrev main_v182 : Ref sig .tc := ⟨.hbm, 237, rfl⟩
abbrev main_cst_47 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_c_48 : Ref sig .tc := ⟨.hbm, 243, rfl⟩
abbrev main_v187 : Ref sig .tc := ⟨.hbm, 244, rfl⟩
abbrev main_v188 : Ref sig .tc := ⟨.hbm, 245, rfl⟩
abbrev main_c_49 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_50 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_51 : Ref sig .tc := ⟨.hbm, 258, rfl⟩
abbrev main_v199 : Ref sig .tc := ⟨.hbm, 259, rfl⟩
abbrev main_v200 : Ref sig .tc := ⟨.hbm, 260, rfl⟩
abbrev main_cst_52 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000x1024 : S_.BroadcastsInDim S50000x1024 (![] : Fin 0 → Fin S50000x1024.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x64_S256x64_0_0 : ∀ a, (![0, 0] : Fin 2 → Nat) a + S256x64.size a ≤ S256x64.size a
  h_S256x64 : 0 < S256x64.numel
  inb_S1000x64_S1000x64_0_0 : ∀ a, (![0, 0] : Fin 2 → Nat) a + S1000x64.size a ≤ S1000x64.size a
  h_S1000x64 : 0 < S1000x64.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  shapeCasts_S1000x64_S1000x64 : S1000x64.ShapeCasts S1000x64
  reduces_S1000x64_S1000 : S1000x64.Reduces [1] S1000
  shapeCasts_S1000_S1000x1 : S1000.ShapeCasts S1000x1
  broadcasts_S1000x1_S1000x64 : S1000x1.Broadcasts S1000x64
  scatter_S50000x1024_S1000000x2_S1000000_n_01_01_1_wf : ScatterDims.WF S50000x1024 S1000000x2 S1000000 [] [0, 1] [0, 1] 1
  dot_S1000x1024_S1024x256_S1000x256_1_0_0_1_n_n_wf : DotDims.WF S1000x1024 S1024x256 S1000x256 [1] [0] [0] [1] [] []
  dot_S1000x256_S256x64_S1000x64_1_0_0_1_n_n_wf : DotDims.WF S1000x256 S256x64 S1000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .f32 = 32 ∨ (Rect.block (s := S50000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)

variable [Facts₀]

def scatter_S50000x1024_S1000000x2_S1000000_n_01_01_1 : ScatterDims S50000x1024 S1000000x2 S1000000 where
  updateWindowDims := []
  insertedWindowDims := [0, 1]
  scatterDimsToOperandDims := [0, 1]
  indexVectorDim := 1
  wf := scatter_S50000x1024_S1000000x2_S1000000_n_01_01_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_v18) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v203) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v204) S1000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2x1000000 : Shape := ⟨2, ![2, 1000000]⟩
abbrev S1000000 : Shape := ⟨1, ![1000000]⟩
abbrev S2x500000 : Shape := ⟨2, ![2, 500000]⟩
abbrev S500000 : Shape := ⟨1, ![500000]⟩
abbrev S1024x256 : Shape := ⟨2, ![1024, 256]⟩
abbrev S256x64 : Shape := ⟨2, ![256, 64]⟩
abbrev S1x1000000 : Shape := ⟨2, ![1, 1000000]⟩
abbrev S_ : Shape := ⟨0, ![]⟩
abbrev S50000x1024 : Shape := ⟨2, ![50000, 1024]⟩
abbrev S1000000x1 : Shape := ⟨2, ![1000000, 1]⟩
abbrev S1000000x2 : Shape := ⟨2, ![1000000, 2]⟩
abbrev S50000x256 : Shape := ⟨2, ![50000, 256]⟩
abbrev S50000x64 : Shape := ⟨2, ![50000, 64]⟩
abbrev S1x500000 : Shape := ⟨2, ![1, 500000]⟩
abbrev S500000x1 : Shape := ⟨2, ![500000, 1]⟩
abbrev S500000x64 : Shape := ⟨2, ![500000, 64]⟩
abbrev S50000 : Shape := ⟨1, ![50000]⟩
abbrev S50000x1 : Shape := ⟨2, ![50000, 1]⟩

abbrev nBuf : Space → Nat
  | .hbm => 284
  | .vmem => 0
  | .smem => 0
  | _ => 0

abbrev hbmTy0_0 (i : Nat) : BufTy := match i % 128 with
  | 0 => ⟨S2x1000000, .i32⟩
  | 1 => ⟨S1000000, .f32⟩
  | 2 => ⟨S2x500000, .i32⟩
  | 3 => ⟨S500000, .f32⟩
  | 4 => ⟨S1024x256, .f32⟩
  | 5 => ⟨S256x64, .f32⟩
  | 6 => ⟨S1x1000000, .i32⟩
  | 7 => ⟨S1000000, .i32⟩
  | 8 => ⟨S1x1000000, .i32⟩
  | 9 => ⟨S1000000, .i32⟩
  | 10 => ⟨S_, .f32⟩
  | 11 => ⟨S50000x1024, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x1, .i32⟩
  | 28 => ⟨S1000000x2, .i32⟩
  | 29 => ⟨S50000x1024, .f32⟩
  | 30 => ⟨S50000x256, .f32⟩
  | 31 => ⟨S_, .f32⟩
  | 32 => ⟨S50000x256, .f32⟩
  | 33 => ⟨S50000x256, .f32⟩
  | 34 => ⟨S50000x64, .f32⟩
  | 35 => ⟨S1x500000, .i32⟩
  | 36 => ⟨S500000, .i32⟩
  | 37 => ⟨S1x500000, .i32⟩
  | 38 => ⟨S500000, .i32⟩
  | 39 => ⟨S500000x1, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S500000x64, .f32⟩
  | 50 => ⟨S500000x64, .f32⟩
  | 51 => ⟨S_, .f32⟩
  | 52 => ⟨S50000x64, .f32⟩
  | 53 => ⟨S500000x1, .i32⟩
  | 54 => ⟨S50000x64, .f32⟩
  | 55 => ⟨S_, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S500000x1, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x64, .f32⟩
  | 72 => ⟨S500000x64, .f32⟩
  | 73 => ⟨S500000x64, .f32⟩
  | 74 => ⟨S_, .f32⟩
  | 75 => ⟨S50000x64, .f32⟩
  | 76 => ⟨S500000x1, .i32⟩
  | 77 => ⟨S50000x64, .f32⟩
  | 78 => ⟨S_, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S500000x1, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x64, .f32⟩
  | 95 => ⟨S500000x64, .f32⟩
  | 96 => ⟨S500000x64, .f32⟩
  | 97 => ⟨S_, .f32⟩
  | 98 => ⟨S50000x64, .f32⟩
  | 99 => ⟨S500000x1, .i32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S500000x1, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x64, .f32⟩
  | 118 => ⟨S500000x64, .f32⟩
  | 119 => ⟨S500000x64, .f32⟩
  | 120 => ⟨S_, .f32⟩
  | 121 => ⟨S50000x64, .f32⟩
  | 122 => ⟨S500000x1, .i32⟩
  | 123 => ⟨S50000x64, .f32⟩
  | 124 => ⟨S_, .f32⟩
  | 125 => ⟨S50000x64, .f32⟩
  | 126 => ⟨S50000x64, .f32⟩
  | 127 => ⟨S_, .f32⟩
  | _ => ⟨S2x1000000, .i32⟩

abbrev hbmTy0_1 (i : Nat) : BufTy := match i % 128 with
  | 0 => ⟨S50000x64, .f32⟩
  | 1 => ⟨S50000x64, .f32⟩
  | 2 => ⟨S50000x64, .f32⟩
  | 3 => ⟨S500000x1, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x64, .f32⟩
  | 13 => ⟨S500000x64, .f32⟩
  | 14 => ⟨S500000x64, .f32⟩
  | 15 => ⟨S_, .f32⟩
  | 16 => ⟨S50000x64, .f32⟩
  | 17 => ⟨S500000x1, .i32⟩
  | 18 => ⟨S50000x64, .f32⟩
  | 19 => ⟨S_, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x64, .f32⟩
  | 26 => ⟨S500000x1, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x64, .f32⟩
  | 36 => ⟨S500000x64, .f32⟩
  | 37 => ⟨S500000x64, .f32⟩
  | 38 => ⟨S_, .f32⟩
  | 39 => ⟨S50000x64, .f32⟩
  | 40 => ⟨S500000x1, .i32⟩
  | 41 => ⟨S50000x64, .f32⟩
  | 42 => ⟨S_, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S500000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S500000x64, .f32⟩
  | 60 => ⟨S500000x64, .f32⟩
  | 61 => ⟨S_, .f32⟩
  | 62 => ⟨S50000x64, .f32⟩
  | 63 => ⟨S500000x1, .i32⟩
  | 64 => ⟨S50000x64, .f32⟩
  | 65 => ⟨S_, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S500000x1, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x64, .f32⟩
  | 82 => ⟨S500000x64, .f32⟩
  | 83 => ⟨S500000x64, .f32⟩
  | 84 => ⟨S_, .f32⟩
  | 85 => ⟨S50000x64, .f32⟩
  | 86 => ⟨S500000x1, .i32⟩
  | 87 => ⟨S50000x64, .f32⟩
  | 88 => ⟨S_, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x64, .f32⟩
  | 95 => ⟨S500000x1, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x64, .f32⟩
  | 105 => ⟨S500000x64, .f32⟩
  | 106 => ⟨S500000x64, .f32⟩
  | 107 => ⟨S_, .f32⟩
  | 108 => ⟨S50000x64, .f32⟩
  | 109 => ⟨S500000x1, .i32⟩
  | 110 => ⟨S50000x64, .f32⟩
  | 111 => ⟨S_, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S500000x1, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x64, .f32⟩
  | _ => ⟨S2x1000000, .i32⟩

abbrev hbmTy0_2 (i : Nat) : BufTy := match i % 128 with
  | 0 => ⟨S500000x64, .f32⟩
  | 1 => ⟨S500000x64, .f32⟩
  | 2 => ⟨S_, .f32⟩
  | 3 => ⟨S50000x64, .f32⟩
  | 4 => ⟨S500000x1, .i32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S50000x64, .f32⟩
  | 13 => ⟨S_, .f32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x64, .f32⟩
  | 20 => ⟨S50000x64, .f32⟩
  | 21 => ⟨S50000x64, .f32⟩
  | 22 => ⟨S_, .f32⟩
  | 23 => ⟨S50000, .f32⟩
  | 24 => ⟨S50000x1, .f32⟩
  | 25 => ⟨S50000x1, .f32⟩
  | 26 => ⟨S50000x64, .f32⟩
  | 27 => ⟨S50000x64, .f32⟩
  | _ => ⟨S2x1000000, .i32⟩

abbrev hbmTy (i : Nat) : BufTy := match i / 128 with
  | 0 => hbmTy0_0 i
  | 1 => hbmTy0_1 i
  | 2 => hbmTy0_2 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_20 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_cst_22 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_23 : Ref sig .tc := ⟨.hbm, 132, rfl⟩
abbrev main_v99 : Ref sig .tc := ⟨.hbm, 133, rfl⟩
abbrev main_v100 : Ref sig .tc := ⟨.hbm, 134, rfl⟩
abbrev main_c_24 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_25 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_26 : Ref sig .tc := ⟨.hbm, 147, rfl⟩
abbrev main_v111 : Ref sig .tc := ⟨.hbm, 148, rfl⟩
abbrev main_v112 : Ref sig .tc := ⟨.hbm, 149, rfl⟩
abbrev main_cst_27 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_28 : Ref sig .tc := ⟨.hbm, 155, rfl⟩
abbrev main_v117 : Ref sig .tc := ⟨.hbm, 156, rfl⟩
abbrev main_v118 : Ref sig .tc := ⟨.hbm, 157, rfl⟩
abbrev main_c_29 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_30 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_31 : Ref sig .tc := ⟨.hbm, 170, rfl⟩
abbrev main_v129 : Ref sig .tc := ⟨.hbm, 171, rfl⟩
abbrev main_v130 : Ref sig .tc := ⟨.hbm, 172, rfl⟩
abbrev main_cst_32 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_33 : Ref sig .tc := ⟨.hbm, 178, rfl⟩
abbrev main_v135 : Ref sig .tc := ⟨.hbm, 179, rfl⟩
abbrev main_v136 : Ref sig .tc := ⟨.hbm, 180, rfl⟩
abbrev main_c_34 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_35 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_36 : Ref sig .tc := ⟨.hbm, 193, rfl⟩
abbrev main_v147 : Ref sig .tc := ⟨.hbm, 194, rfl⟩
abbrev main_v148 : Ref sig .tc := ⟨.hbm, 195, rfl⟩
abbrev main_cst_37 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_38 : Ref sig .tc := ⟨.hbm, 201, rfl⟩
abbrev main_v153 : Ref sig .tc := ⟨.hbm, 202, rfl⟩
abbrev main_v154 : Ref sig .tc := ⟨.hbm, 203, rfl⟩
abbrev main_c_39 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_40 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_cst_41 : Ref sig .tc := ⟨.hbm, 216, rfl⟩
abbrev main_v165 : Ref sig .tc := ⟨.hbm, 217, rfl⟩
abbrev main_v166 : Ref sig .tc := ⟨.hbm, 218, rfl⟩
abbrev main_cst_42 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_43 : Ref sig .tc := ⟨.hbm, 224, rfl⟩
abbrev main_v171 : Ref sig .tc := ⟨.hbm, 225, rfl⟩
abbrev main_v172 : Ref sig .tc := ⟨.hbm, 226, rfl⟩
abbrev main_c_44 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_cst_45 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_46 : Ref sig .tc := ⟨.hbm, 239, rfl⟩
abbrev main_v183 : Ref sig .tc := ⟨.hbm, 240, rfl⟩
abbrev main_v184 : Ref sig .tc := ⟨.hbm, 241, rfl⟩
abbrev main_cst_47 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_c_48 : Ref sig .tc := ⟨.hbm, 247, rfl⟩
abbrev main_v189 : Ref sig .tc := ⟨.hbm, 248, rfl⟩
abbrev main_v190 : Ref sig .tc := ⟨.hbm, 249, rfl⟩
abbrev main_c_49 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_50 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_cst_51 : Ref sig .tc := ⟨.hbm, 262, rfl⟩
abbrev main_v201 : Ref sig .tc := ⟨.hbm, 263, rfl⟩
abbrev main_v202 : Ref sig .tc := ⟨.hbm, 264, rfl⟩
abbrev main_cst_52 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_call1_cst : Ref sig .tc := ⟨.hbm, 269, rfl⟩
abbrev main_call1_v0 : Ref sig .tc := ⟨.hbm, 270, rfl⟩
abbrev main_call1_cst_0 : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_cst_1 : Ref sig .tc := ⟨.hbm, 278, rfl⟩
abbrev main_call1_v7 : Ref sig .tc := ⟨.hbm, 279, rfl⟩
abbrev main_call1_v8 : Ref sig .tc := ⟨.hbm, 280, rfl⟩
abbrev main_call1_v9 : Ref sig .tc := ⟨.hbm, 281, rfl⟩
abbrev main_call1_v10 : Ref sig .tc := ⟨.hbm, 282, rfl⟩
abbrev main_v206 : Ref sig .tc := ⟨.hbm, 283, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S50000x1024 : S_.BroadcastsInDim S50000x1024 (![] : Fin 0 → Fin S50000x1024.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S50000x256 : S_.BroadcastsInDim S50000x256 (![] : Fin 0 → Fin S50000x256.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000x1024_S1000000x2_S1000000_n_01_01_1_wf : ScatterDims.WF S50000x1024 S1000000x2 S1000000 [] [0, 1] [0, 1] 1
  dot_S50000x1024_S1024x256_S50000x256_1_0_0_1_n_n_wf : DotDims.WF S50000x1024 S1024x256 S50000x256 [1] [0] [0] [1] [] []
  dot_S50000x256_S256x64_S50000x64_1_0_0_1_n_n_wf : DotDims.WF S50000x256 S256x64 S50000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1

variable [Facts₀]

def scatter_S50000x1024_S1000000x2_S1000000_n_01_01_1 : ScatterDims S50000x1024 S1000000x2 S1000000 where
  updateWindowDims := []
  insertedWindowDims := [0, 1]
  scatterDimsToOperandDims := [0, 1]
  indexVectorDim := 1
  wf := scatter_S50000x1024_S1000000x2_S1000000_n_01_01_1_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.KernelRun.lean ====
/-
  The kernel program's run with its result named.

  The program is four segments — host operations, the first region, host operations, the second region.  The launch
  over the segments ends in a thread state that holds every unscoped buffer at the last boundary's contents; read
  against the final state this gives the argument arrays as launched (the frame claim) and, the same way, the result
  buffer at the last boundary's contents.  What those contents are is the business of `KernelValue`.
-/
import proofs.«153112_j89696097009666_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents of the last segment boundary and the argument arrays as launched. -/
theorem run_result : θ_run defs (onTc (τ := τ) (main (F := F))) ⟨m, fun _ => 0, ρ⟩ (fun r => ∀ c : Dev nD,
      r.2.mem ((c.tc : Thread nD τ).loc main_v204) = W4 m ρ c (Proc.devRef .tc main_v204)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v204 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.ResultRun

end
-- ==== Proof.Stretches.lean ====
/-
  The host arithmetic that the kernel's program and the reference share, written once as functions of arrays.

  A node-by-feature matrix X is assembled from a coordinate list: entry k of the value vector is added at
  (row k, column k) of a zero matrix, a negative coordinate first shifted up by the extent of its axis.
  Ten times a signal p over the nodes is propagated along weighted edges and mixed with the local predictions h:
      p  ↦  c₁ · (Σ over the edges e into a node of  w e · p (source e))  +  c₂ · h,
  c₁ and c₂ the two float constants of the programs (the f32 nearest 0.9 and 0.1).  Nothing here is opened by the
  proof: both programs apply these same functions, and only that is used.  Then the two matrix products with a
  rectified middle, and the row-wise log-softmax, as the reference's host operations spell them.
-/
import proofs.«153112_j89696097009666_1_alg».proof.Proof.Gen.ReferenceIdeal
import Idealize.ShloMosaic.PureOps.Ideal

noncomputable section

namespace Cert.Appnp

open Idealize.ShloMosaic Cert.ReferenceIdeal Cert.ReferenceIdeal.Gen

variable {F : FTy → Type} [FloatOps F]

/-! ## The feature matrix from its coordinate list -/

/-- Row 0 of the [2, 1000000] coordinate list, as a vector: the row coordinates. -/
def featRow (x0 : (⟨S2x1000000, .i32⟩ : BufTy).Contents (Elt F)) : (⟨S1000000, .i32⟩ : BufTy).Contents (Elt F) :=
  shapeCast S1000000 (extractStridedSlice S1x1000000 ![0, 0] x0 slices_S2x1000000_S1x1000000_0_0) shapeCasts_S1x1000000_S1000000

/-- Row 1 of the coordinate list: the column coordinates. -/
def featCol (x0 : (⟨S2x1000000, .i32⟩ : BufTy).Contents (Elt F)) : (⟨S1000000, .i32⟩ : BufTy).Contents (Elt F) :=
  shapeCast S1000000 (extractStridedSlice S1x1000000 ![1, 0] x0 slices_S2x1000000_S1x1000000_1_0) shapeCasts_S1x1000000_S1000000

/-- A signed coordinate below zero is shifted up by `n`; others are kept. -/
def wrapFeat (n : BitVec 32) (v : (⟨S1000000, .i32⟩ : BufTy).Contents (Elt F)) : (⟨S1000000, .i32⟩ : BufTy).Contents (Elt F) :=
  select (cmpi .slt v (broadcastInDim S1000000 ![] bcast_S_S1000000 (constantI S_ 32 0#32)))
    (addi v (broadcastInDim S1000000 ![] bcast_S_S1000000 (constantI S_ 32 n))) v

/-- The [1000000, 2] table of (row, column) pairs the scatter reads. -/
def featPairs (x0 : (⟨S2x1000000, .i32⟩ : BufTy).Contents (Elt F)) : (⟨S1000000x2, .i32⟩ : BufTy).Contents (Elt F) :=
  concatenate S1000000x2 1
    [⟨S1000000x1, broadcastInDim S1000000x1 ![0] bcast_S1000000_S1000000x1_0 (wrapFeat 50000#32 (featRow x0))⟩,
     ⟨S1000000x1, broadcastInDim S1000000x1 ![0] bcast_S1000000_S1000000x1_0 (wrapFeat 1024#32 (featCol x0))⟩]
    concatenates_S1000000x1_S1000000x1_S1000000x2_d1

/-- The node-by-feature matrix: the values added into a zero matrix at their (row, column) pairs. -/
def feat (x0 : (⟨S2x1000000, .i32⟩ : BufTy).Contents (Elt F)) (x1 : (⟨S1000000, .f32⟩ : BufTy).Contents (Elt F)) :
    (⟨S50000x1024, .f32⟩ : BufTy).Contents (Elt F) :=
  Host.scatterAdd scatter_S50000x1024_S1000000x2_S1000000_n_01_01_1
    (broadcastInDim S50000x1024 ![] bcast_S_S50000x1024 (constant S_ .f32 0x00000000#32)) (featPairs x0) x1

/-! ## One propagation step, and ten -/

/-- Row 0 of the [2, 500000] edge list: the node each edge sends into. -/
def edgeDst (x2 : (⟨S2x500000, .i32⟩ : BufTy).Contents (Elt F)) : (⟨S500000, .i32⟩ : BufTy).Contents (Elt F) :=
  shapeCast S500000 (extractStridedSlice S1x500000 ![0, 0] x2 slices_S2x500000_S1x500000_0_0) shapeCasts_S1x500000_S500000

/-- Row 1 of the edge list: the node each edge reads from. -/
def edgeSrc (x2 : (⟨S2x500000, .i32⟩ : BufTy).Contents (Elt F)) : (⟨S500000, .i32⟩ : BufTy).Contents (Elt F) :=
  shapeCast S500000 (extractStridedSlice S1x500000 ![1, 0] x2 slices_S2x500000_S1x500000_1_0) shapeCasts_S1x500000_S500000

/-- The source nodes with a negative one shifted up by the number of nodes, as the [500000, 1] start indices of the gather. -/
def edgeSrcIdx (x2 : (⟨S2x500000, .i32⟩ : BufTy).Contents (Elt F)) : (⟨S500000x1, .i32⟩ : BufTy).Contents (Elt F) :=
  broadcastInDim S500000x1 ![0] bcast_S500000_S500000x1_0
    (select (cmpi .slt (edgeSrc x2) (broadcastInDim S500000 ![] bcast_S_S500000 (constantI S_ 32 0#32)))
      (addi (edgeSrc x2) (broadcastInDim S500000 ![] bcast_S_S500000 (constantI S_ 32 50000#32))) (edgeSrc x2))

/-- One step: gather p at the edges' sources, weigh, add up per destination node, mix with h. -/
def step (h : (⟨S50000x64, .f32⟩ : BufTy).Contents (Elt F)) (x2 : (⟨S2x500000, .i32⟩ : BufTy).Contents (Elt F))
    (x3 : (⟨S500000, .f32⟩ : BufTy).Contents (Elt F)) (p : (⟨S50000x64, .f32⟩ : BufTy).Contents (Elt F)) :
    (⟨S50000x64, .f32⟩ : BufTy).Contents (Elt F) :=
  addf
    (mulf (broadcastInDim S50000x64 ![] bcast_S_S50000x64 (constant S_ .f32 0x3F666666#32))
      (Host.scatterAdd scatter_S50000x64_S500000x1_S500000x64_1_0_0_1
        (broadcastInDim S50000x64 ![] bcast_S_S50000x64 (constant S_ .f32 0x00000000#32))
        (broadcastInDim S500000x1 ![0] bcast_S500000_S500000x1_0 (edgeDst x2))
        (mulf
          (broadcastInDim S500000x64 ![0, 1] bcast_S500000x1_S500000x64_0_1
            (broadcastInDim S500000x1 ![0] bcast_S500000_S500000x1_0 x3))
          (Host.gather gather_S50000x64_S500000x1_S500000x64_1_0_n_n_0_1_164 p (edgeSrcIdx x2)))))
    (mulf (broadcastInDim S50000x64 ![] bcast_S_S50000x64 (constant S_ .f32 0x3DCCCCCD#32)) h)

/-- Ten steps from p = h. -/
def propagate (h : (⟨S50000x64, .f32⟩ : BufTy).Contents (Elt F)) (x2 : (⟨S2x500000, .i32⟩ : BufTy).Contents (Elt F))
    (x3 : (⟨S500000, .f32⟩ : BufTy).Contents (Elt F)) : (⟨S50000x64, .f32⟩ : BufTy).Contents (Elt F) :=
  step h x2 x3 (step h x2 x3 (step h x2 x3 (step h x2 x3 (step h x2 x3
    (step h x2 x3 (step h x2 x3 (step h x2 x3 (step h x2 x3 (step h x2 x3 h)))))))))

/-! ## The dense layers and the row-wise log-softmax, as host operations -/

/-- Two matrix products with a rectified middle: (max (X · W₁) 0) · W₂. -/
def denseHost (X : (⟨S50000x1024, .f32⟩ : BufTy).Contents (Elt F)) (w1 : (⟨S1024x256, .f32⟩ : BufTy).Contents (Elt F))
    (w2 : (⟨S256x64, .f32⟩ : BufTy).Contents (Elt F)) : (⟨S50000x64, .f32⟩ : BufTy).Contents (Elt F) :=
  Host.dotGeneral dot_S50000x256_S256x64_S50000x64_1_0_0_1_n_n none
    (maximumf (Host.dotGeneral dot_S50000x1024_S1024x256_S50000x256_1_0_0_1_n_n none X w1)
      (broadcastInDim S50000x256 ![] bcast_S_S50000x256 (constant S_ .f32 0x00000000#32))) w2

/-- Each row's maximum, taken from -∞ (and once more against -∞, as the host program does). -/
def rowMaxHost (p : (⟨S50000x64, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf p (constant S_ .f32 0xFF800000#32) reducesTo_S50000x64_S50000_d1 h_S_)

/-- Each entry less its row's maximum. -/
def shiftedHost (p : (⟨S50000x64, .f32⟩ : BufTy).Contents (Elt F)) : (⟨S50000x64, .f32⟩ : BufTy).Contents (Elt F) :=
  subf p (broadcastInDim S50000x64 ![0, 1] bcast_S50000x1_S50000x64_0_1
    (broadcastInDim S50000x1 ![0] bcast_S50000_S50000x1_0 (rowMaxHost p)))

/-- The shifted entry less the logarithm of its row's sum of exponentials of shifted entries. -/
def logSoftmaxHost (p : (⟨S50000x64, .f32⟩ : BufTy).Contents (Elt F)) : (⟨S50000x64, .f32⟩ : BufTy).Contents (Elt F) :=
  subf (shiftedHost p) (broadcastInDim S50000x64 ![0, 1] bcast_S50000x1_S50000x64_0_1
    (Host.log (broadcastInDim S50000x1 ![0] bcast_S50000_S50000x1_0
      (Host.reduceAdd (Host.exp (shiftedHost p)) (constant S_ .f32 0x00000000#32) reducesTo_S50000x64_S50000_d1 h_S_))))

end Cert.Appnp

end
-- ==== Proof.KernelHost.lean ====
/-
  The kernel program's two stretches of host operations, read as the shared functions of `Stretches`:
  before the first region the feature matrix is assembled from the coordinate list, and between the regions
  the first region's result h is propagated ten times along the edges.  Each stretch is a fold of its
  operations' results over the buffer contents it starts from; folded, it is the same composition of array
  operations that `feat` and `propagate` name.
-/
import proofs.«153112_j89696097009666_1_alg».proof.Proof.Gen.KernelIdeal.Frame
import proofs.«153112_j89696097009666_1_alg».proof.Proof.Stretches
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxRecDepth 65536 in
/-- When the first region is entered, its first input array holds the feature matrix of the launch arguments. -/
theorem features_at_entry (c : Dev nD) :
    W1 m ρ c (Proc.devRef .tc main_v18)
      = Cert.Appnp.feat (F := F) (m ((c : Thread nD τ).loc main_arg0)) (m ((c : Thread nD τ).loc main_arg1)) := by
  show StableHlo.after hostOps0 (W0 m ρ c) (Proc.devRef .tc main_v18) = _
  after_results_simp
  rfl

set_option maxRecDepth 65536 in
set_option maxHeartbeats 4000000 in
/-- When the second region is entered, its input array holds ten propagation steps of what the first region left,
    along the edge list and weights as they stand at the first region's exit. -/
theorem propagated_at_entry (c : Dev nD) :
    W3 m ρ c (Proc.devRef .tc main_v203)
      = Cert.Appnp.propagate (F := F) (W2 m ρ c (Proc.devRef .tc main_v19)) (W2 m ρ c (Proc.devRef .tc main_arg2))
          (W2 m ρ c (Proc.devRef .tc main_arg3)) := by
  show StableHlo.after hostOps1 (W2 m ρ c) (Proc.devRef .tc main_v203) = _
  after_results_simp
  rfl

/-- No operation before the first region writes an argument: at its entry argument 2 stands as launched. -/
theorem arg2_at_entry (c : Dev nD) :
    W1 m ρ c (Proc.devRef .tc main_arg2) = m ((c : Thread nD τ).loc main_arg2) := by
  show StableHlo.after hostOps0 (W0 m ρ c) (Proc.devRef .tc main_arg2) = _
  after_results_simp <;> rfl

/-- The first region writes only its result array: at its exit argument 2 still stands as launched. -/
theorem arg2_at_exit (c : Dev nD) :
    W2 m ρ c (Proc.devRef .tc main_arg2) = m ((c : Thread nD τ).loc main_arg2) :=
  (W2_of_ne m ρ c main_arg2 (by decide)).trans (arg2_at_entry m ρ c)

/-- No operation before the first region writes an argument: at its entry argument 3 stands as launched. -/
theorem arg3_at_entry (c : Dev nD) :
    W1 m ρ c (Proc.devRef .tc main_arg3) = m ((c : Thread nD τ).loc main_arg3) := by
  show StableHlo.after hostOps0 (W0 m ρ c) (Proc.devRef .tc main_arg3) = _
  after_results_simp <;> rfl

/-- The first region writes only its result array: at its exit argument 3 still stands as launched. -/
theorem arg3_at_exit (c : Dev nD) :
    W2 m ρ c (Proc.devRef .tc main_arg3) = m ((c : Thread nD τ).loc main_arg3) :=
  (W2_of_ne m ρ c main_arg3 (by decide)).trans (arg3_at_entry m ρ c)

/-- No operation before the first region writes an argument: at its entry argument 4 stands as launched. -/
theorem arg4_at_entry (c : Dev nD) :
    W1 m ρ c (Proc.devRef .tc main_arg4) = m ((c : Thread nD τ).loc main_arg4) := by
  show StableHlo.after hostOps0 (W0 m ρ c) (Proc.devRef .tc main_arg4) = _
  after_results_simp <;> rfl

/-- No operation before the first region writes an argument: at its entry argument 5 stands as launched. -/
theorem arg5_at_entry (c : Dev nD) :
    W1 m ρ c (Proc.devRef .tc main_arg5) = m ((c : Thread nD τ).loc main_arg5) := by
  show StableHlo.after hostOps0 (W0 m ρ c) (Proc.devRef .tc main_arg5) = _
  after_results_simp <;> rfl

end Cert.KernelIdeal.HostValue

end
-- ==== Proof.RowMaps.lean ====
/-
  The two row-wise maps of the network, on the extended reals, for any number of rows.

  denseAt X W₁ W₂ r q   =  Σ_k max (Σ_f X(r,f) · W₁(f,k)) 0 · W₂(k,q)
      — entry (r, q) of (max (X·W₁) 0)·W₂: it reads row r of X only;
  logSoftmaxAt P r q    =  (P(r,q) − M) − log Σ_k exp (P(r,k) − M),   M = sup_k P(r,k)
      — entry (r, q) of the row-wise log-softmax: it reads row r of P only.

  Both are stated at a row r and a column q given as plain coordinates, and as array functions
  (`denseRows`, `logSoftmaxRows`) reading an index's two coordinates.  Since an entry depends on its own row alone,
  a block of rows of the result is the same map of that block of rows of the operand (`denseAt_congr`,
  `logSoftmaxAt_congr`): this is all that joins a computation tiled by rows to the whole-array one.
-/
import Idealize.ShloMosaic.PureOps.Ideal.Laws
import Idealize.ShloMosaic.Lib.ValueIdx

noncomputable section

namespace Cert.Appnp

open Idealize.ShloMosaic Idealize.ShloMosaic.ValueIdx
open scoped BigOperators

variable {n n' a b c : ℕ}

/-- Entry (r, q) of (max (X·W₁) 0)·W₂. -/
def denseAt (X : (⟨2, ![n, a]⟩ : Shape).Idx → EReal) (W1 : (⟨2, ![a, b]⟩ : Shape).Idx → EReal)
    (W2 : (⟨2, ![b, c]⟩ : Shape).Idx → EReal) (r : Fin n) (q : Fin c) : EReal :=
  ∑ k : Fin b, max (∑ f : Fin a, X (ix2 r f) * W1 (ix2 f k)) 0 * W2 (ix2 k q)

/-- (max (X·W₁) 0)·W₂ as an array. -/
def denseRows (X : (⟨2, ![n, a]⟩ : Shape).Idx → EReal) (W1 : (⟨2, ![a, b]⟩ : Shape).Idx → EReal)
    (W2 : (⟨2, ![b, c]⟩ : Shape).Idx → EReal) : (⟨2, ![n, c]⟩ : Shape).Idx → EReal :=
  fun i => denseAt X W1 W2 (i 0 : Fin n) (i 1 : Fin c)

/-- Row r of the result reads row r of X: two operands that agree on corresponding rows give the same entry. -/
theorem denseAt_congr (X : (⟨2, ![n, a]⟩ : Shape).Idx → EReal) (X' : (⟨2, ![n', a]⟩ : Shape).Idx → EReal)
    (W1 : (⟨2, ![a, b]⟩ : Shape).Idx → EReal) (W2 : (⟨2, ![b, c]⟩ : Shape).Idx → EReal) (r : Fin n) (r' : Fin n') (q : Fin c)
    (h : ∀ f : Fin a, X (ix2 r f) = X' (ix2 r' f)) : denseAt X W1 W2 r q = denseAt X' W1 W2 r' q := by
  unfold denseAt
  refine Finset.sum_congr rfl fun k _ => ?_
  rw [Finset.sum_congr rfl fun f _ => by rw [h f]]

/-- The supremum of row r. -/
def rowSup (P : (⟨2, ![n, b]⟩ : Shape).Idx → EReal) (r : Fin n) : EReal := Finset.univ.sup fun k : Fin b => P (ix2 r k)

/-- Entry (r, q) of the row-wise log-softmax. -/
def logSoftmaxAt (P : (⟨2, ![n, b]⟩ : Shape).Idx → EReal) (r : Fin n) (q : Fin b) : EReal :=
  (P (ix2 r q) - rowSup P r) - Ideal.log (∑ k : Fin b, Ideal.exp (P (ix2 r k) - rowSup P r))

/-- The row-wise log-softmax as an array. -/
def logSoftmaxRows (P : (⟨2, ![n, b]⟩ : Shape).Idx → EReal) : (⟨2, ![n, b]⟩ : Shape).Idx → EReal :=
  fun i => logSoftmaxAt P (i 0 : Fin n) (i 1 : Fin b)

/-- Row r of the log-softmax reads row r of P. -/
theorem logSoftmaxAt_congr (P : (⟨2, ![n, b]⟩ : Shape).Idx → EReal) (P' : (⟨2, ![n', b]⟩ : Shape).Idx → EReal)
    (r : Fin n) (r' : Fin n') (q : Fin b) (h : ∀ k : Fin b, P (ix2 r k) = P' (ix2 r' k)) :
    logSoftmaxAt P r q = logSoftmaxAt P' r' q := by
  have hs : rowSup P r = rowSup P' r' := by unfold rowSup; exact congrArg _ (funext h)
  unfold logSoftmaxAt
  rw [hs, h q, Finset.sum_congr rfl fun k _ => by rw [h k]]

/-- Column k inserted into row p of a matrix reduced over its last axis. -/
theorem lift_row (h : (⟨2, ![n, b]⟩ : Shape).Reduces [1] ⟨1, ![n]⟩) (p : Fin n) (k : Fin b) :
    h.lift (ix1 p) k = ix2 p k := by
  funext x; apply Fin.ext
  fin_cases x <;> rfl

end Cert.Appnp

end
-- ==== Proof.LibPlainDot.lean ====
/-
  A matrix product read at an entry.

  Under the dimension numbers "contract the left operand's axis 1 with the right operand's axis 0, batch nothing",
  an [n, a] array times an [a, b] array has, at (p, q), the operand indices (p, k) and (k, q) along the one
  contraction coordinate k.  So on the extended reals both the vector unit's matmul into a zero accumulator and the
  host's dot_general are the plain sum  Σ_k l (p, k) · r (k, q).  Stated for any extents and any dimension-number
  record with these six lists, so each hypothesis is `rfl` on a printed record.
-/
import Idealize.ShloMosaic.PureOps.Ideal.Laws
import Idealize.ShloMosaic.Lib.ValueIdx

noncomputable section

namespace Cert.PlainDot

open Idealize.ShloMosaic Idealize.ShloMosaic.ValueIdx
open scoped BigOperators

variable {n a b : ℕ}

variable (d : DotDims ⟨2, ![n, a]⟩ ⟨2, ![a, b]⟩ ⟨2, ![n, b]⟩)
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := by rw [d.rank_contr, hlc]; rfl

include hln hlb in
/-- The left operand's row is the result's row. -/
theorem lhsIdx_row (j : (⟨2, ![n, b]⟩ : Shape).Idx) (k : d.contr.Idx) : (d.lhsIdx j k 0).val = (j 0).val := by
  unfold DotDims.lhsIdx
  rw [dif_neg (show ¬ (0 : Fin (⟨2, ![n, a]⟩ : Shape).rank) ∈ d.lhsBatch by rw [hlb]; exact List.not_mem_nil),
    dif_pos (show (0 : Fin (⟨2, ![n, a]⟩ : Shape).rank) ∈ d.lhsNonContracting by rw [hln]; exact List.mem_singleton.mpr rfl)]
  simp only [Fin.val_cast]
  have key : ∀ (N M : ℕ) (hN : N < 2) (hM : M < 2), N = M → (j ⟨N, hN⟩).val = (j ⟨M, hM⟩).val :=
    fun N M hN hM e => by subst e; rfl
  exact key _ 0 _ (by decide) (by rw [hlb, hln]; rfl)

include hrn hrb hlb hln in
/-- The right operand's column is the result's column. -/
theorem rhsIdx_col (j : (⟨2, ![n, b]⟩ : Shape).Idx) (k : d.contr.Idx) : (d.rhsIdx j k 1).val = (j 1).val := by
  unfold DotDims.rhsIdx
  rw [dif_neg (show ¬ (1 : Fin (⟨2, ![a, b]⟩ : Shape).rank) ∈ d.rhsBatch by rw [hrb]; exact List.not_mem_nil),
    dif_pos (show (1 : Fin (⟨2, ![a, b]⟩ : Shape).rank) ∈ d.rhsNonContracting by rw [hrn]; exact List.mem_singleton.mpr rfl)]
  simp only [Fin.val_cast]
  have key : ∀ (N M : ℕ) (hN : N < 2) (hM : M < 2), N = M → (j ⟨N, hN⟩).val = (j ⟨M, hM⟩).val :=
    fun N M hN hM e => by subst e; rfl
  exact key _ 1 _ (by decide) (by rw [hlb, hln, hrn]; rfl)

include hlc in
/-- The one contraction axis has the inner extent. -/
theorem contr_size : d.contr.size ⟨0, by rw [contr_rank d hlc]; exact Nat.one_pos⟩ = a := by
  have key : ∀ (L : List (Fin 2)) (h : 0 < (Shape.ofList (L.map (⟨2, ![n, a]⟩ : Shape).size)).rank), L = [1] →
      (Shape.ofList (L.map (⟨2, ![n, a]⟩ : Shape).size)).size ⟨0, h⟩ = a := by
    intro L h e; subst e; rfl
  exact key d.lhsContracting _ hlc

include hlc hrc hln hrn hlb hrb in
/-- The contraction sum at (p, q) runs over the inner coordinate k, through (p, k) on the left and (k, q) on the right. -/
theorem sum_contr (l r : _ → EReal) (p : Fin n) (q : Fin b) :
    ∑ k : d.contr.Idx, l (d.lhsIdx (ix2 p q) k) * r (d.rhsIdx (ix2 p q) k) = ∑ k : Fin a, l (ix2 p k) * r (ix2 k q) := by
  have hr := contr_rank d hlc
  have hs := contr_size d hlc
  rw [← Equiv.sum_comp (contrEquiv1 d a hr hs).symm]
  refine Finset.sum_congr rfl fun k _ => ?_
  have hk := contrEquiv1_symm_val d a hr hs k
  have el : d.lhsIdx (ix2 p q) ((contrEquiv1 d a hr hs).symm k) = ix2 p k := funext fun ax => Fin.ext (by
    match ax with
    | ⟨0, _⟩ => exact lhsIdx_row d hln hlb _ _
    | ⟨1, _⟩ => exact (d.lhsIdx_val_of_single hlc _ _).trans hk)
  have er : d.rhsIdx (ix2 p q) ((contrEquiv1 d a hr hs).symm k) = ix2 k q := funext fun ax => Fin.ext (by
    match ax with
    | ⟨0, _⟩ => exact (d.rhsIdx_val_of_single hrc _ _).trans hk
    | ⟨1, _⟩ => exact rhsIdx_col d hln hrn hlb hrb _ _)
  rw [el, er]

include hlc hrc hln hrn hlb hrb in
/-- The vector unit's matmul into a zero accumulator, on the extended reals, at (p, q). -/
theorem matmul_zero_apply {φ₁ φ₂ : FTy} (prec : Option ContractPrecision) (l : FVec Ideal ⟨2, ![n, a]⟩ φ₁)
    (r : FVec Ideal ⟨2, ![a, b]⟩ φ₂) (p : Fin n) (q : Fin b) :
    FloatOps.matmul d prec l r (constant ⟨2, ![n, b]⟩ .f32 0x00000000#32) (ix2 p q) = ∑ k : Fin a, l (ix2 p k) * r (ix2 k q) :=
  (Ideal.matmul_constant_zero_apply d prec l r (ix2 p q)).trans (sum_contr d hlc hrc hln hrn hlb hrb l r p q)

include hlc hrc hln hrn hlb hrb in
/-- The host's dot_general, on the extended reals, at (p, q). -/
theorem dotGeneral_apply {φ₁ φ₂ : FTy} (prec : Option ContractPrecision) (sched : HostSchedule) (l : FVec Ideal ⟨2, ![n, a]⟩ φ₁)
    (r : FVec Ideal ⟨2, ![a, b]⟩ φ₂) (p : Fin n) (q : Fin b) :
    FloatOps.dotGeneral d prec sched l r (ix2 p q) = ∑ k : Fin a, l (ix2 p k) * r (ix2 k q) :=
  (Ideal.dotGeneral_apply d prec sched l r (ix2 p q)).trans (sum_contr d hlc hrc hln hrn hlb hrb l r p q)

end Cert.PlainDot

end
-- ==== Proof.LibFoldExtrema.lean ====
/-
  Maxima and minima of finitely many extended reals, read off the reductions that compute them.

  On the extended reals `maximumf` is `max` and the f32 pattern of -∞ is the bottom element, so a reduction with
  `maximumf` started from that pattern is the SUPREMUM of the entries it reduces: the fold of `max` from `⊥` over the
  finite set of source indices that drop to the result index, in any order. Dually a reduction with `minimumf` started
  from the pattern of +∞ is the INFIMUM of those entries. This holds for a vector reduction over any list of axes and
  for a one-operand host reduction alike; both are stated here over the set of indices `drop` sends to the result index.
-/
import Idealize.ShloMosaic.PureOps.Ideal.Laws

namespace Cert.FoldExtrema

open Idealize.ShloMosaic

/-- The f32 pattern of -∞ is the least extended real. -/
theorem ofBits_neg_inf : Ideal.ofBits .f32 0xFF800000#32 = (⊥ : EReal) := by simp [Ideal.ofBits, Ideal.ieee]

/-- The f32 pattern of +∞ is the greatest extended real. -/
theorem ofBits_pos_inf : Ideal.ofBits .f32 0x7F800000#32 = (⊤ : EReal) := by simp [Ideal.ofBits, Ideal.ieee]

/-- Folding `max` from the least element over a finite set is taking the supremum over it. -/
theorem fold_max_bot {ι : Type} (s : Finset ι) (f : ι → EReal) : s.fold max ⊥ f = s.sup f := rfl

/-- Folding `min` from the greatest element over a finite set is taking the infimum over it. -/
theorem fold_min_top {ι : Type} (s : Finset ι) (f : ι → EReal) : s.fold min ⊤ f = s.inf f := rfl

variable {s t : Shape} {axes : List (Fin s.rank)}

/-- A vector `maximumf` reduction from -∞, on the extended reals: at `j` the supremum of the source over the indices
    that drop to `j`. -/
theorem multiReduction_max_eq_sup (src : FVec Ideal s .f32) (h : s.Reduces axes t) (hφ : FKind.Formats .f32)
    (hacc : (0xFF800000#32 : BitVec 32) = FKind.maximumf.neutral .f32 hφ) (j : t.Idx) :
    multiReduction .maximumf axes t src 0xFF800000#32 h hφ hacc j
      = (Finset.univ.filter fun i => h.drop i = j).sup src := by
  rw [multiReduction_maximumf_eq_fold]
  show Finset.fold max (Ideal.ofBits .f32 0xFF800000#32) src _ = _
  rw [ofBits_neg_inf, fold_max_bot]

/-- A vector `minimumf` reduction from +∞, on the extended reals: at `j` the infimum of the source over the indices
    that drop to `j`. -/
theorem multiReduction_min_eq_inf (src : FVec Ideal s .f32) (h : s.Reduces axes t) (hφ : FKind.Formats .f32)
    (hacc : (0x7F800000#32 : BitVec 32) = FKind.minimumf.neutral .f32 hφ) (j : t.Idx) :
    multiReduction .minimumf axes t src 0x7F800000#32 h hφ hacc j
      = (Finset.univ.filter fun i => h.drop i = j).inf src := by
  rw [multiReduction_minimumf_eq_fold]
  show Finset.fold min (Ideal.ofBits .f32 0x7F800000#32) src _ = _
  rw [ofBits_pos_inf, fold_min_top]

/-- A host reduction with `maximumf` whose initial value is the constant -∞, on the extended reals: at `j` the
    supremum of the operand over the indices that drop to `j`. -/
theorem hostReduce_max_eq_sup {u : Shape} (x : s.Idx → Ideal .f32) (h : s.ReducesTo axes t) (hu : 0 < u.numel)
    (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold max (Ideal.ofBits .f32 0xFF800000#32) x _ = _
  rw [ofBits_neg_inf, fold_max_bot]

/-- A host reduction with `minimumf` whose initial value is the constant +∞, on the extended reals: at `j` the
    infimum of the operand over the indices that drop to `j`. -/
theorem hostReduce_min_eq_inf {u : Shape} (x : s.Idx → Ideal .f32) (h : s.ReducesTo axes t) (hu : 0 < u.numel)
    (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold min (Ideal.ofBits .f32 0x7F800000#32) x _ = _
  rw [ofBits_pos_inf, fold_min_top]

end Cert.FoldExtrema
-- ==== Proof.LibOneAxisExtrema.lean ====
/-
  Extrema over the entries a ONE-AXIS reduction sends to a result index.

  A reduction of an array of shape s over the single axis a produces an array of the shape t with that axis dropped.
  The source indices that drop to a result index j are exactly j with a coordinate k of axis a inserted, k ranging over
  the axis; so the supremum (or infimum) of a function over those source indices is the supremum (infimum) over k of
  the function at j-with-k-inserted. Stated for a vector reduction's index map and for a host reduction's, which agree.
  Together with "a maximum-reduction started from -∞ is the supremum over the indices dropping to j" this reads a row
  maximum as the supremum over the row's coordinates, whatever the shape and the axis.
-/
import Idealize.ShloMosaic.PureOps.Ideal.Laws

namespace Cert.OneAxisExtrema

open Idealize.ShloMosaic

variable {s t : Shape} {a : Fin s.rank}

/-- Vector form: the supremum of x over the source indices that drop to j is the supremum, over the coordinates k of
    the reduced axis, of x at j with k inserted on that axis. -/
theorem sup_filter_drop_single (h : s.Reduces [a] t) (x : s.Idx → EReal) (j : t.Idx) :
    (Finset.univ.filter fun i => h.drop i = j).sup x
      = (Finset.univ : Finset (Fin (s.size a))).sup (fun k => x (h.lift j k)) := by
  rw [h.filter_drop_eq_image_lift j, Finset.sup_image]
  rfl

/-- Vector form, dually: the infimum over the source indices that drop to j is the infimum over the reduced axis. -/
theorem inf_filter_drop_single (h : s.Reduces [a] t) (x : s.Idx → EReal) (j : t.Idx) :
    (Finset.univ.filter fun i => h.drop i = j).inf x
      = (Finset.univ : Finset (Fin (s.size a))).inf (fun k => x (h.lift j k)) := by
  rw [h.filter_drop_eq_image_lift j, Finset.inf_image]
  rfl

/-- Host form: a host reduction's index map is the vector reduction's, so the same supremum. -/
theorem sup_filter_dropTo_single (h' : s.ReducesTo [a] t) (h : s.Reduces [a] t) (x : s.Idx → EReal) (j : t.Idx) :
    (Finset.univ.filter fun i => h'.drop i = j).sup x = Finset.univ.sup fun k : Fin (s.size a) => x (h.lift j k) := by
  classical
  rw [Shape.ReducesTo.drop_eq_drop h' h, h.filter_drop_eq_image_lift j, Finset.sup_image]
  rfl

/-- Host form, dually. -/
theorem inf_filter_dropTo_single (h' : s.ReducesTo [a] t) (h : s.Reduces [a] t) (x : s.Idx → EReal) (j : t.Idx) :
    (Finset.univ.filter fun i => h'.drop i = j).inf x = Finset.univ.inf fun k : Fin (s.size a) => x (h.lift j k) := by
  classical
  rw [Shape.ReducesTo.drop_eq_drop h' h, h.filter_drop_eq_image_lift j, Finset.inf_image]
  rfl

end Cert.OneAxisExtrema
-- ==== Proof.LibKeepdims.lean ====
/-
  A kept reduced axis, read at an index.

  A row reduction that keeps its axis as a unit axis is spelt as a cast of the reduced vector [a] to a column [a, 1]
  followed by a spread of that column over b columns, [a, 1] → [a, b]. At (p, c) the spread reads the column at row p,
  and the column at (p, 0) reads the vector at p: both pairs of indices have the same row-major position, and a
  broadcast keeps every coordinate of an axis whose extent it does not change. Stated at any extents and any element type.
-/
import Idealize.ShloMosaic.Lib.Pipeline.Value
import Idealize.ShloMosaic.Lib.ValueIdx
import Idealize.ShloMosaic.Lib.ValueLayout

namespace Cert.Keepdims

open Idealize.ShloMosaic Idealize.ShloMosaic.ValueIdx

variable {α : Type}

/-- An `[a]` array cast to `[a, 1]` reads, at `(i, u)`, the operand at `i`, whatever the unit coordinate `u`: both
    indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelPayloads.lean ====
/-
  The two kernel bodies' arithmetic read at one entry of the tile, on the extended reals.

  The first body multiplies its [1000, 1024] tile by W₁ on the matrix unit into a zero accumulator, rectifies,
  and multiplies by W₂ the same way (the narrowing of operands to bf16 is the identity on the extended reals): at
  (p, q) that is `denseAt` of the tile.  The second body takes each row's maximum from -∞, subtracts it, and
  subtracts the logarithm of the row's sum of exponentials: at (p, q) that is `logSoftmaxAt` of the tile.
-/
import proofs.«153112_j89696097009666_1_alg».proof.Proof.Gen.KernelIdeal.Skeleton
import proofs.«153112_j89696097009666_1_alg».proof.Proof.RowMaps
import proofs.«153112_j89696097009666_1_alg».proof.Proof.LibPlainDot
import proofs.«153112_j89696097009666_1_alg».proof.Proof.LibFoldExtrema
import proofs.«153112_j89696097009666_1_alg».proof.Proof.LibOneAxisExtrema
import proofs.«153112_j89696097009666_1_alg».proof.Proof.LibKeepdims
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx
open scoped BigOperators

/-- The first body at (p, q): the rectified two-layer map of the tile's row p. -/
theorem dense_payload_apply (x0 : Vec Ideal S1000x1024 .f32) (x1 : Vec Ideal S1024x256 .f32) (x2 : Vec Ideal S256x64 .f32)
    (p : Fin 1000) (q : Fin 64) :
    k0_pay1 x0 x1 x2 (ix2 p q) = Cert.Appnp.denseAt x0 x1 x2 p q := by
  unfold k0_pay1 Cert.Appnp.denseAt
  refine (Cert.PlainDot.matmul_zero_apply dot_S1000x256_S256x64_S1000x64_1_0_0_1_n_n rfl rfl rfl rfl rfl rfl none _ _ p q).trans ?_
  refine Finset.sum_congr rfl fun k _ => ?_
  -- narrowing to bf16 is the identity, the rectifier is `max · 0`
  show max (FloatOps.matmul dot_S1000x1024_S1024x256_S1000x256_1_0_0_1_n_n none
        (truncf FTy.bf16 (shapeCast S1000x1024 x0 shapeCasts_S1000x1024_S1000x1024) bitsLt_bf16_f32)
        (truncf FTy.bf16 x1 bitsLt_bf16_f32) (constant S1000x256 FTy.f32 0x00000000#32) (ix2 p k))
      (Ideal.ofBits .f32 0x00000000#32) * x2 (ix2 k q) = _
  rw [Ideal.ofBits_zero_f32,
    Cert.PlainDot.matmul_zero_apply dot_S1000x1024_S1024x256_S1000x256_1_0_0_1_n_n rfl rfl rfl rfl rfl rfl none _ _ p k,
    shapeCast_self]
  rfl

/-- A row's maximum taken from -∞ is the supremum of the row. -/
theorem rowMax_apply (x : FVec Ideal S1000x64 .f32) (hφ : FKind.Formats .f32)
    (hacc : (0xFF800000#32 : BitVec 32) = FKind.maximumf.neutral .f32 hφ) (p : Fin 1000) :
    multiReduction .maximumf [1] S1000 x 0xFF800000#32 reduces_S1000x64_S1000 hφ hacc (ix1 p) = Cert.Appnp.rowSup x p := by
  refine (Cert.FoldExtrema.multiReduction_max_eq_sup x reduces_S1000x64_S1000 hφ hacc (ix1 p)).trans ?_
  refine (Cert.OneAxisExtrema.sup_filter_drop_single reduces_S1000x64_S1000 x (ix1 p)).trans ?_
  unfold Cert.Appnp.rowSup
  exact congrArg _ (funext fun k => congrArg x (Cert.Appnp.lift_row _ p k))

/-- An entry less its row's maximum (the maximum kept as a column and spread back over the row). -/
theorem shifted_apply (x : FVec Ideal S1000x64 .f32) (hφ : FKind.Formats .f32)
    (hacc : (0xFF800000#32 : BitVec 32) = FKind.maximumf.neutral .f32 hφ) (p : Fin 1000) (k : Fin 64) :
    subf x (broadcastTo S1000x64 (shapeCast S1000x1
        (multiReduction .maximumf [1] S1000 x 0xFF800000#32 reduces_S1000x64_S1000 hφ hacc) shapeCasts_S1000_S1000x1)
        broadcasts_S1000x1_S1000x64) (ix2 p k)
      = x (ix2 p k) - Cert.Appnp.rowSup x p := by
  show x (ix2 p k) - broadcastTo S1000x64 _ broadcasts_S1000x1_S1000x64 (ix2 p k) = _
  refine congrArg (x (ix2 p k) - ·) ?_
  refine (Cert.Keepdims.broadcastTo_a1_ab_apply _ broadcasts_S1000x1_S1000x64 p k).trans ?_
  refine (Cert.Keepdims.shapeCast_a_a1_apply _ shapeCasts_S1000_S1000x1 p 0).trans ?_
  exact rowMax_apply x hφ hacc p

/-- A row's sum taken from 0 is the sum over the row. -/
theorem rowSum_apply (v : FVec Ideal S1000x64 .f32) (hφ : FKind.Formats .f32)
    (hacc : (0x00000000#32 : BitVec 32) = FKind.add.neutral .f32 hφ) (p : Fin 1000) :
    multiReduction .add [1] S1000 v 0x00000000#32 reduces_S1000x64_S1000 hφ hacc (ix1 p) = ∑ k : Fin 64, v (ix2 p k) := by
  refine (Ideal.multiReduction_add_single v 0x00000000#32 reduces_S1000x64_S1000 hφ hacc (ix1 p)).trans ?_
  exact Finset.sum_congr rfl fun k _ => congrArg v (Cert.Appnp.lift_row _ p k)

/-- The second body at (p, q): the log-softmax of the tile's row p. -/
theorem logSoftmax_payload_apply (x : Vec Ideal S1000x64 .f32) (p : Fin 1000) (q : Fin 64) :
    k1_pay1 x (ix2 p q) = Cert.Appnp.logSoftmaxAt x p q := by
  unfold k1_pay1 Cert.Appnp.logSoftmaxAt
  rw [shapeCast_self]
  refine congrArg₂ (· - ·) (shifted_apply x _ _ p q) ?_
  refine (Cert.Keepdims.broadcastTo_a1_ab_apply _ broadcasts_S1000x1_S1000x64 p q).trans ?_
  refine congrArg Ideal.log ?_
  refine (Cert.Keepdims.shapeCast_a_a1_apply _ shapeCasts_S1000_S1000x1 p 0).trans ?_
  refine (rowSum_apply _ _ _ p).trans ?_
  refine Finset.sum_congr rfl fun k _ => ?_
  exact congrArg Ideal.exp (shifted_apply x _ _ p k)

end Cert.KernelIdeal.Payloads

end
-- ==== Proof.Blocks.lean ====
/-
  From row tiles to whole arrays.

  Each region walks fifty grid points; point t reads rows 1000·t … 1000·t + 999 of its row-tiled operand and writes back
  the same rows of its result (the two weight matrices of the first region are one block each, the whole array).
  What point t writes back is therefore block t of ONE array function of the region's operands as it finds them —
  `denseRows` for the first region, `logSoftmaxRows` for the second — because an entry of either map depends only
  on its own row.  The fifty blocks tile the result, so after the region the result array holds that function.
-/
import proofs.«153112_j89696097009666_1_alg».proof.Proof.Gen.KernelIdeal.Frame
import proofs.«153112_j89696097009666_1_alg».proof.Proof.KernelPayloads
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first region -/

/-- The printed index maps over the grid: the row-tiled windows are at block (t, 0), the weight windows at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t of the first region writes back is block t of the two rectified layers of the operands as the region finds them. -/
theorem flushed0_eq (c : Dev nD) (t : Fin cfg0.N) :
    (dat0 V c).flushed 3 t = ((cfg0.win 3).blk t).view.read (Elt Ideal)
      (Cert.Appnp.denseRows (V c main_v18) (V c main_arg4) (V c main_arg5)) := by
  show (cfg0.win 3).cut (grid0.coords t) ((dat0 V c).after 3 t) = _
  rw [after0_3]
  unfold out0_3
  rw [View.canon_unit_zero zero_offsets]
  simp only [View.ld_unit_zero (S := S1000x1024) zero_offsets, View.ld_unit_zero (S := S1024x256) zero_offsets,
    View.ld_unit_zero (S := S256x64) zero_offsets]
  obtain ⟨e0, e1, e2, e3, e4, e5, e6, e7⟩ := index_facts0 t
  funext j
  obtain ⟨p, q, rfl⟩ : ∃ (p : Fin 1000) (q : Fin 64), j = ix2 p q := ⟨j 0, j 1, eq_ix2 j⟩
  show k0_pay1 (iblk0 V c 0 t) (iblk0 V c 1 t) (iblk0 V c 2 t) (ix2 p q)
      = Cert.Appnp.denseRows (V c main_v18) (V c main_arg4) (V c main_arg5) (((cfg0.win 3).blk t).view.emb (ix2 p q))
  refine (Payloads.dense_payload_apply _ _ _ p q).trans ?_
  -- the weight windows' one block is the whole array
  have hW1 : (iblk0 V c 1 t : S1024x256.Idx → EReal) = V c main_arg4 := funext fun y => by
    unfold iblk0; rw [View.read_apply]
    refine congrArg (V c main_arg4) (funext fun a => Fin.ext ?_)
    match a with
    | ⟨0, _⟩ => show win0_1.index t (0 : Fin 2) * 1024 + 1 * (y 0).val = (y 0).val; rw [e2]; omega
    | ⟨1, _⟩ => show win0_1.index t (1 : Fin 2) * 256 + 1 * (y 1).val = (y 1).val; rw [e3]; omega
  have hW2 : (iblk0 V c 2 t : S256x64.Idx → EReal) = V c main_arg5 := funext fun y => by
    unfold iblk0; rw [View.read_apply]
    refine congrArg (V c main_arg5) (funext fun a => Fin.ext ?_)
    match a with
    | ⟨0, _⟩ => show win0_2.index t (0 : Fin 2) * 256 + 1 * (y 0).val = (y 0).val; rw [e4]; omega
    | ⟨1, _⟩ => show win0_2.index t (1 : Fin 2) * 64 + 1 * (y 1).val = (y 1).val; rw [e5]; omega
  -- the result's column inside the block is its column in the array
  have hq : ((((cfg0.win 3).blk t).view.emb (ix2 p q)) 1 : Fin 64) = q :=
    Fin.ext (by show win0_3.index t (1 : Fin 2) * 64 + 1 * q.val = q.val; rw [e7]; omega)
  show Cert.Appnp.denseAt (iblk0 V c 0 t) (iblk0 V c 1 t) (iblk0 V c 2 t) p q
      = Cert.Appnp.denseAt (V c main_v18) (V c main_arg4) (V c main_arg5)
          ((((cfg0.win 3).blk t).view.emb (ix2 p q)) 0 : Fin 50000) ((((cfg0.win 3).blk t).view.emb (ix2 p q)) 1 : Fin 64)
  rw [hq, hW1, hW2]
  -- row p of the operand's block is the operand's row under row p of the result's block
  refine Cert.Appnp.denseAt_congr _ _ _ _ p _ q fun f => ?_
  unfold iblk0; rw [View.read_apply]
  refine congrArg (V c main_v18) (funext fun a => Fin.ext ?_)
  match a with
  | ⟨0, _⟩ => show win0_0.index t (0 : Fin 2) * 1000 + 1 * p.val = win0_3.index t (0 : Fin 2) * 1000 + 1 * p.val; rw [e0, e6]
  | ⟨1, _⟩ => show win0_0.index t (1 : Fin 2) * 1024 + 1 * f.val = f.val; rw [e1]; omega

/-- An index of the result array is in point t's block iff each coordinate is in the block's range on its axis. -/
theorem mem_blk0 (t : Fin cfg0.N) (i : S50000x64.Idx) :
    i ∈ ((cfg0.win 3).blk t).view.set ↔ ∀ a : Fin 2, win0_3.index t a * S1000x64.size a ≤ (i a).val
      ∧ (i a).val < win0_3.index t a * S1000x64.size a + S1000x64.size a := by
  show i ∈ ((View.whole main_v19).slice (win0_3.rect t)).set ↔ _
  rw [View.set_slice_whole, Rect.mem_set_unit]
  exact Iff.rfl

/-- After the first region its result array holds the two rectified layers of its operands: row r is covered by point r / 1000. -/
theorem final0 (c : Dev nD) :
    (dat0 V c).arrAt 3 cfg0.N = Cert.Appnp.denseRows (V c main_v18) (V c main_arg4) (V c main_arg5) :=
  (dat0 V c).arrAt_eq_of_cover 3 _ (fun t _ => flushed0_eq V c t) fun i => by
    have hi0 : (i 0).val < 50000 := (i 0).isLt
    have hi1 : (i 1).val < 64 := (i 1).isLt
    have hN : cfg0.N = 50 := N_0
    let t : Fin cfg0.N := ⟨(i 0).val / 1000, by rw [hN]; omega⟩
    have ht : t.val = (i 0).val / 1000 := rfl
    obtain ⟨-, -, -, -, -, -, e6, e7⟩ := index_facts0 t
    refine ⟨t, flush0_3 t, ?_⟩
    rw [mem_blk0]
    intro a
    match a with
    | ⟨0, _⟩ =>
      show win0_3.index t (0 : Fin 2) * 1000 ≤ (i 0).val ∧ (i 0).val < win0_3.index t (0 : Fin 2) * 1000 + 1000
      rw [e6, ht]; omega
    | ⟨1, _⟩ =>
      show win0_3.index t (1 : Fin 2) * 64 ≤ (i 1).val ∧ (i 1).val < win0_3.index t (1 : Fin 2) * 64 + 64
      rw [e7]; omega

/-! ## The second region -/

theorem index_facts1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t of the second region writes back is block t of the row-wise log-softmax of its operand as the region finds it. -/
theorem flushed1_eq (c : Dev nD) (t : Fin cfg1.N) :
    (dat1 V c).flushed 1 t = ((cfg1.win 1).blk t).view.read (Elt Ideal) (Cert.Appnp.logSoftmaxRows (V c main_v203)) := by
  show (cfg1.win 1).cut (grid1.coords t) ((dat1 V c).after 1 t) = _
  rw [after1_1]
  unfold out1_1
  rw [View.canon_unit_zero zero_offsets]
  simp only [View.ld_unit_zero (S := S1000x64) zero_offsets]
  obtain ⟨e0, e1, e2, e3⟩ := index_facts1 t
  funext j
  obtain ⟨p, q, rfl⟩ : ∃ (p : Fin 1000) (q : Fin 64), j = ix2 p q := ⟨j 0, j 1, eq_ix2 j⟩
  show k1_pay1 (iblk1 V c 0 t) (ix2 p q)
      = Cert.Appnp.logSoftmaxRows (V c main_v203) (((cfg1.win 1).blk t).view.emb (ix2 p q))
  refine (Payloads.logSoftmax_payload_apply _ p q).trans ?_
  have hq : ((((cfg1.win 1).blk t).view.emb (ix2 p q)) 1 : Fin 64) = q :=
    Fin.ext (by show win1_1.index t (1 : Fin 2) * 64 + 1 * q.val = q.val; rw [e3]; omega)
  show Cert.Appnp.logSoftmaxAt (iblk1 V c 0 t) p q
      = Cert.Appnp.logSoftmaxAt (V c main_v203)
          ((((cfg1.win 1).blk t).view.emb (ix2 p q)) 0 : Fin 50000) ((((cfg1.win 1).blk t).view.emb (ix2 p q)) 1 : Fin 64)
  rw [hq]
  refine Cert.Appnp.logSoftmaxAt_congr _ _ p _ q fun k => ?_
  unfold iblk1; rw [View.read_apply]
  refine congrArg (V c main_v203) (funext fun a => Fin.ext ?_)
  match a with
  | ⟨0, _⟩ => show win1_0.index t (0 : Fin 2) * 1000 + 1 * p.val = win1_1.index t (0 : Fin 2) * 1000 + 1 * p.val; rw [e0, e2]
  | ⟨1, _⟩ => show win1_0.index t (1 : Fin 2) * 64 + 1 * k.val = k.val; rw [e1]; omega

theorem mem_blk1 (t : Fin cfg1.N) (i : S50000x64.Idx) :
    i ∈ ((cfg1.win 1).blk t).view.set ↔ ∀ a : Fin 2, win1_1.index t a * S1000x64.size a ≤ (i a).val
      ∧ (i a).val < win1_1.index t a * S1000x64.size a + S1000x64.size a := by
  show i ∈ ((View.whole main_v204).slice (win1_1.rect t)).set ↔ _
  rw [View.set_slice_whole, Rect.mem_set_unit]
  exact Iff.rfl

/-- After the second region its result array holds the row-wise log-softmax of its operand. -/
theorem final1 (c : Dev nD) : (dat1 V c).arrAt 1 cfg1.N = Cert.Appnp.logSoftmaxRows (V c main_v203) :=
  (dat1 V c).arrAt_eq_of_cover 1 _ (fun t _ => flushed1_eq V c t) fun i => by
    have hi0 : (i 0).val < 50000 := (i 0).isLt
    have hi1 : (i 1).val < 64 := (i 1).isLt
    have hN : cfg1.N = 50 := N_1
    let t : Fin cfg1.N := ⟨(i 0).val / 1000, by rw [hN]; omega⟩
    have ht : t.val = (i 0).val / 1000 := rfl
    obtain ⟨-, -, e2, e3⟩ := index_facts1 t
    refine ⟨t, flush1_1 t, ?_⟩
    rw [mem_blk1]
    intro a
    match a with
    | ⟨0, _⟩ =>
      show win1_1.index t (0 : Fin 2) * 1000 ≤ (i 0).val ∧ (i 0).val < win1_1.index t (0 : Fin 2) * 1000 + 1000
      rw [e2, ht]; omega
    | ⟨1, _⟩ =>
      show win1_1.index t (1 : Fin 2) * 64 ≤ (i 1).val ∧ (i 1).val < win1_1.index t (1 : Fin 2) * 64 + 64
      rw [e3]; omega

end Cert.KernelIdeal.Blocks

end
-- ==== Proof.KernelValue.lean ====
/-
  What the kernel program leaves in its result buffer, on the extended reals.

  Walking the segment boundaries back from the end: the result array of the second region holds the row-wise
  log-softmax of that region's operand (its fifty row blocks cover the array); the operand is ten propagation steps of
  the first region's result, along the edge list and weights, which no segment before has written; the first region's
  result holds the two rectified layers of the feature matrix and the two weight matrices as it finds them (again fifty
  row blocks); and the feature matrix is assembled from the launch arguments.  So the result is

      logSoftmaxRows ( propagate ( denseRows (feat a₀ a₁) a₄ a₅ ) a₂ a₃ ).
-/
import proofs.«153112_j89696097009666_1_alg».proof.Proof.Gen.KernelIdeal.Frame
import proofs.«153112_j89696097009666_1_alg».proof.Proof.KernelHost
import proofs.«153112_j89696097009666_1_alg».proof.Proof.Blocks

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- At the first region's exit its result array holds the two rectified layers of the feature matrix. -/
theorem dense_at_exit (c : Dev nD) :
    W2 m ρ c (Proc.devRef .tc main_v19)
      = Cert.Appnp.denseRows (Cert.Appnp.feat (F := Ideal) (m ((c : Thread nD τ).loc main_arg0)) (m ((c : Thread nD τ).loc main_arg1))) (m ((c : Thread nD τ).loc main_arg4)) (m ((c : Thread nD τ).loc main_arg5)) := by
  refine (W2_arr m ρ c 3).trans ?_
  rw [Blocks.final0 (V1 m ρ) c]
  show Cert.Appnp.denseRows (W1 m ρ c (Proc.devRef .tc main_v18)) (W1 m ρ c (Proc.devRef .tc main_arg4))
      (W1 m ρ c (Proc.devRef .tc main_arg5)) = _
  rw [HostValue.features_at_entry, HostValue.arg4_at_entry, HostValue.arg5_at_entry]

/-- At the end the result buffer holds the log-softmax of the propagated dense layers of the feature matrix. -/
theorem result_eq (c : Dev nD) :
    W4 m ρ c (Proc.devRef .tc main_v204)
      = Cert.Appnp.logSoftmaxRows (Cert.Appnp.propagate (F := Ideal)
          (Cert.Appnp.denseRows (Cert.Appnp.feat (F := Ideal) (m ((c : Thread nD τ).loc main_arg0)) (m ((c : Thread nD τ).loc main_arg1))) (m ((c : Thread nD τ).loc main_arg4)) (m ((c : Thread nD τ).loc main_arg5))) (m ((c : Thread nD τ).loc main_arg2)) (m ((c : Thread nD τ).loc main_arg3))) := by
  refine (W4_arr m ρ c 1).trans ?_
  rw [Blocks.final1 (V3 m ρ) c]
  show Cert.Appnp.logSoftmaxRows (W3 m ρ c (Proc.devRef .tc main_v203)) = _
  rw [HostValue.propagated_at_entry, dense_at_exit, HostValue.arg2_at_exit, HostValue.arg3_at_exit]

end Cert.KernelIdeal.Result

end
-- ==== Proof.RefRun.lean ====
/-
  The reference program's run.

  The reference's @main is a straight line of host operations (its two called functions, the rectifier and the
  log-softmax, standing in their calls' places).  Every weakly fair execution of a straight line terminates with
  each buffer at the fold of the operations' results over the launch contents.  The line is four stretches —
  the feature matrix X from its coordinate list; h = (max (X · W₁) 0) · W₂; ten propagation steps of h along the
  edges; the row-wise log-softmax — and the fold over a concatenation is the fold over the second part of the fold
  over the first.  Each stretch, folded from any contents, leaves at its last buffer the named stage of `Stretches`
  of the buffers it reads, and keeps the buffers later stretches read; chained, the result buffer holds

      log-softmax ( propagate ( dense (features) ) ),

  and each argument buffer holds the argument as launched.
-/
import proofs.«153112_j89696097009666_1_alg».proof.Proof.Gen.ReferenceIdeal
import proofs.«153112_j89696097009666_1_alg».proof.Proof.Stretches
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- The feature matrix from the coordinate list and the values. -/
abbrev opsFeat : List (HloOp τ sig (Elt F)) :=
  [ StableHlo.unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x00000000#32),
    StableHlo.unary main_cst main_v4 (broadcastInDim S50000x1024 ![] bcast_S_S50000x1024 : (⟨S_, .f32⟩ : BufTy).Contents (Elt F) → (⟨S50000x1024, .f32⟩ : BufTy).Contents (Elt F)),
    StableHlo.nullary main_c (constantI S_ 32 0#32),
    StableHlo.unary main_c main_v5 (broadcastInDim S1000000 ![] bcast_S_S1000000 : (⟨S_, .i32⟩ : BufTy).Contents (Elt F) → (⟨S1000000, .i32⟩ : BufTy).Contents (Elt F)),
    StableHlo.binary main_v1 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v7 (broadcastInDim S1000000 ![] bcast_S_S1000000 : (⟨S_, .i32⟩ : BufTy).Contents (Elt F) → (⟨S1000000, .i32⟩ : BufTy).Contents (Elt F)),
    StableHlo.binary main_v1 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_v1 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_1 (constantI S_ 32 0#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_v3 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 1024#32),
    StableHlo.unary main_c_2 main_v12 (broadcastInDim S1000000 ![] bcast_S_S1000000 : (⟨S_, .i32⟩ : BufTy).Contents (Elt F) → (⟨S1000000, .i32⟩ : BufTy).Contents (Elt F)),
    StableHlo.binary main_v3 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_v3 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v15 (broadcastInDim S1000000x1 ![0] bcast_S1000000_S1000000x1_0 : (⟨S1000000, .i32⟩ : BufTy).Contents (Elt F) → (⟨S1000000x1, .i32⟩ : BufTy).Contents (Elt F)),
    StableHlo.unary main_v14 main_v16 (broadcastInDim S1000000x1 ![0] bcast_S1000000_S1000000x1_0 : (⟨S1000000, .i32⟩ : BufTy).Contents (Elt F) → (⟨S1000000x1, .i32⟩ : BufTy).Contents (Elt F)),
    StableHlo.binary main_v15 main_v16 main_v17 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.ternary main_v4 main_v17 main_arg1 main_v18 ((fun x i u => Host.scatterAdd scatter_S50000x1024_S1000000x2_S1000000_n_01_01_1 x i u) : (⟨S50000x1024, .f32⟩ : BufTy).Contents (Elt F) → (⟨S1000000x2, .i32⟩ : BufTy).Contents (Elt F) → (⟨S1000000, .f32⟩ : BufTy).Contents (Elt F) → (⟨S50000x1024, .f32⟩ : BufTy).Contents (Elt F)) ]

/-- The two matrix products and the rectifier between them. -/
abbrev opsDense : List (HloOp τ sig (Elt F)) :=
  [ StableHlo.binary main_v18 main_arg4 main_v19 ((fun l r => Host.dotGeneral dot_S50000x1024_S1024x256_S50000x256_1_0_0_1_n_n none l r) : (⟨S50000x1024, .f32⟩ : BufTy).Contents (Elt F) → (⟨S1024x256, .f32⟩ : BufTy).Contents (Elt F) → (⟨S50000x256, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S50000x256, .f32⟩) main_call0_v0) (broadcastInDim S50000x256 ![] bcast_S_S50000x256),
    StableHlo.TRef.binary (StableHlo.TRef.of (T := ⟨S50000x256, .f32⟩) main_v19) (StableHlo.TRef.of (T := ⟨S50000x256, .f32⟩) main_call0_v0) (StableHlo.TRef.of (T := ⟨S50000x256, .f32⟩) main_v20) maximumf,
    StableHlo.binary main_v20 main_arg5 main_v21 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- Ten propagation steps along the edges. -/
abbrev opsProp : List (HloOp τ sig (Elt F)) :=
  [ StableHlo.unary main_arg2 main_v22 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v22 main_v23 rfl shapeCasts_S1x500000_S500000,
    StableHlo.unary main_arg2 main_v24 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v24 main_v25 rfl shapeCasts_S1x500000_S500000,
    StableHlo.unary main_arg3 main_v26 (broadcastInDim S500000x1 ![0] bcast_S500000_S500000x1_0 : (⟨S500000, .f32⟩ : BufTy).Contents (Elt F) → (⟨S500000x1, .f32⟩ : BufTy).Contents (Elt F)),
    StableHlo.nullary main_c_3 (constantI S_ 32 0#32),
    StableHlo.unary main_c_3 main_v27 (broadcastInDim S500000 ![] bcast_S_S500000 : (⟨S_, .i32⟩ : BufTy).Contents (Elt F) → (⟨S500000, .i32⟩ : BufTy).Contents (Elt F)),
    StableHlo.binary main_v25 main_v27 main_v28 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 50000#32),
    StableHlo.unary main_c_4 main_v29 (broadcastInDim S500000 ![] bcast_S_S500000 : (⟨S_, .i32⟩ : BufTy).Contents (Elt F) → (⟨S500000, .i32⟩ : BufTy).Contents (Elt F)),
    StableHlo.binary main_v25 main_v29 main_v30 (addi : (⟨S500000, .i32⟩ : BufTy).Contents (Elt F) → (⟨S500000, .i32⟩ : BufTy).Contents (Elt F) → (⟨S500000, .i32⟩ : BufTy).Contents (Elt F)),
    StableHlo.ternary main_v28 main_v30 main_v25 main_v31 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v31 main_v32 (broadcastInDim S500000x1 ![0] bcast_S500000_S500000x1_0 : (⟨S500000, .i32⟩ : BufTy).Contents (Elt F) → (⟨S500000x1, .i32⟩ : BufTy).Contents (Elt F)),
    StableHlo.binary main_v21 main_v32 main_v33 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v26 main_v34 (broadcastInDim S500000x64 ![0, 1] bcast_S500000x1_S500000x64_0_1 : (⟨S500000x1, .f32⟩ : BufTy).Contents (Elt F) → (⟨S500000x64, .f32⟩ : BufTy).Contents (Elt F)),
    StableHlo.binary main_v34 main_v33 main_v35 (mulf : (⟨S500000x64, .f32⟩ : BufTy).Contents (Elt F) → (⟨S500000x64, .f32⟩ : BufTy).Contents (Elt F) → (⟨S500000x64, .f32⟩ : BufTy).Contents (Elt F)),
    StableHlo.nullary main_cst_5 (constant S_ .f32 0x00000000#32),
    StableHlo.unary main_cst_5 main_v36 (broadcastInDim S50000x64 ![] bcast_S_S50000x64 : (⟨S_, .f32⟩ : BufTy).Contents (Elt F) → (⟨S50000x64, .f32⟩ : BufTy).Contents (Elt F)),
    StableHlo.unary main_v23 main_v37 (broadcastInDim S500000x1 ![0] bcast_S500000_S500000x1_0 : (⟨S500000, .i32⟩ : BufTy).Contents (Elt F) → (⟨S500000x1, .i32⟩ : BufTy).Contents (Elt F)),
    StableHlo.ternary main_v36 main_v37 main_v35 main_v38 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_6 (constant S_ .f32 0x3F666666#32),
    StableHlo.unary main_cst_6 main_v39 (broadcastInDim S50000x64 ![] bcast_S_S50000x64 : (⟨S_, .f32⟩ : BufTy).Contents (Elt F) → (⟨S50000x64, .f32⟩ : BufTy).Contents (Elt F)),
    StableHlo.binary main_v39 main_v38 main_v40 (mulf : (⟨S50000x64, .f32⟩ : BufTy).Contents (Elt F) → (⟨S50000x64, .f32⟩ : BufTy).Contents (Elt F) → (⟨S50000x64, .f32⟩ : BufTy).Contents (Elt F)),
    StableHlo.nullary main_cst_7 (constant S_ .f32 0x3DCCCCCD#32),
    StableHlo.unary main_cst_7 main_v41 (broadcastInDim S50000x64 ![] bcast_S_S50000x64 : (⟨S_, .f32⟩ : BufTy).Contents (Elt F) → (⟨S50000x64, .f32⟩ : BufTy).Contents (Elt F)),
    StableHlo.binary main_v41 main_v21 main_v42 (mulf : (⟨S50000x64, .f32⟩ : BufTy).Contents (Elt F) → (⟨S50000x64, .f32⟩ : BufTy).Contents (Elt F) → (⟨S50000x64, .f32⟩ : BufTy).Contents (Elt F)),
    StableHlo.binary main_v40 main_v42 main_v43 (addf : (⟨S50000x64, .f32⟩ : BufTy).Contents (Elt F) → (⟨S50000x64, .f32⟩ : BufTy).Contents (Elt F) → (⟨S50000x64, .f32⟩ : BufTy).Contents (Elt F)),
    StableHlo.unary main_arg3 main_v44 (broadcastInDim S500000x1 ![0] bcast_S500000_S500000x1_0 : (⟨S500000, .f32⟩ : BufTy).Contents (Elt F) → (⟨S500000x1, .f32⟩ : BufTy).Contents (Elt F)),
    StableHlo.nullary main_c_8 (constantI S_ 32 0#32),
    StableHlo.unary main_c_8 main_v45 (broadcastInDim S500000 ![] bcast_S_S500000 : (⟨S_, .i32⟩ : BufTy).Contents (Elt F) → (⟨S500000, .i32⟩ : BufTy).Contents (Elt F)),
    StableHlo.binary main_v25 main_v45 main_v46 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 50000#32),
    StableHlo.unary main_c_9 main_v47 (broadcastInDim S500000 ![] bcast_S_S500000 : (⟨S_, .i32⟩ : BufTy).Contents (Elt F) → (⟨S500000, .i32⟩ : BufTy).Contents (Elt F)),
    StableHlo.binary main_v25 main_v47 main_v48 (addi : (⟨S500000, .i32⟩ : BufTy).Contents (Elt F) → (⟨S500000, .i32⟩ : BufTy).Contents (Elt F) → (⟨S500000, .i32⟩ : BufTy).Contents (Elt F)),
    StableHlo.ternary main_v46 main_v48 main_v25 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v49 main_v50 (broadcastInDim S500000x1 ![0] bcast_S500000_S500000x1_0 : (⟨S500000, .i32⟩ : BufTy).Contents (Elt F) → (⟨S500000x1, .i32⟩ : BufTy).Contents (Elt F)),
    StableHlo.binary main_v43 main_v50 main_v51 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v44 main_v52 (broadcastInDim S500000x64 ![0, 1] bcast_S500000x1_S500000x64_0_1 : (⟨S500000x1, .f32⟩ : BufTy).Contents (Elt F) → (⟨S500000x64, .f32⟩ : BufTy).Contents (Elt F)),
    StableHlo.binary main_v52 main_v51 main_v53 (mulf : (⟨S500000x64, .f32⟩ : BufTy).Contents (Elt F) → (⟨S500000x64, .f32⟩ : BufTy).Contents (Elt F) → (⟨S500000x64, .f32⟩ : BufTy).Contents (Elt F)),
    StableHlo.nullary main_cst_10 (constant S_ .f32 0x00000000#32),
    StableHlo.unary main_cst_10 main_v54 (broadcastInDim S50000x64 ![] bcast_S_S50000x64 : (⟨S_, .f32⟩ : BufTy).Contents (Elt F) → (⟨S50000x64, .f32⟩ : BufTy).Contents (Elt F)),
    StableHlo.unary main_v23 main_v55 (broadcastInDim S500000x1 ![0] bcast_S500000_S500000x1_0 : (⟨S500000, .i32⟩ : BufTy).Contents (Elt F) → (⟨S500000x1, .i32⟩ : BufTy).Contents (Elt F)),
    StableHlo.ternary main_v54 main_v55 main_v53 main_v56 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_11 (constant S_ .f32 0x3F666666#32),
    StableHlo.unary main_cst_11 main_v57 (broadcastInDim S50000x64 ![] bcast_S_S50000x64 : (⟨S_, .f32⟩ : BufTy).Contents (Elt F) → (⟨S50000x64, .f32⟩ : BufTy).Contents (Elt F)),
    StableHlo.binary main_v57 main_v56 main_v58 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3DCCCCCD#32),
    StableHlo.unary main_cst_12 main_v59 (broadcastInDim S50000x64 ![] bcast_S_S50000x64 : (⟨S_, .f32⟩ : BufTy).Contents (Elt F) → (⟨S50000x64, .f32⟩ : BufTy).Contents (Elt F)),
    StableHlo.binary main_v59 main_v21 main_v60 (mulf : (⟨S50000x64, .f32⟩ : BufTy).Contents (Elt F) → (⟨S50000x64, .f32⟩ : BufTy).Contents (Elt F) → (⟨S50000x64, .f32⟩ : BufTy).Contents (Elt F)),
    StableHlo.binary main_v58 main_v60 main_v61 (addf : (⟨S50000x64, .f32⟩ : BufTy).Contents (Elt F) → (⟨S50000x64, .f32⟩ : BufTy).Contents (Elt F) → (⟨S50000x64, .f32⟩ : BufTy).Contents (Elt F)),
    StableHlo.unary main_arg3 main_v62 (broadcastInDim S500000x1 ![0] bcast_S500000_S500000x1_0 : (⟨S500000, .f32⟩ : BufTy).Contents (Elt F) → (⟨S500000x1, .f32⟩ : BufTy).Contents (Elt F)),
    StableHlo.nullary main_c_13 (constantI S_ 32 0#32),
    StableHlo.unary main_c_13 main_v63 (broadcastInDim S500000 ![] bcast_S_S500000 : (⟨S_, .i32⟩ : BufTy).Contents (Elt F) → (⟨S500000, .i32⟩ : BufTy).Contents (Elt F)),
    StableHlo.binary main_v25 main_v63 main_v64 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 50000#32),
    StableHlo.unary main_c_14 main_v65 (broadcastInDim S500000 ![] bcast_S_S500000 : (⟨S_, .i32⟩ : BufTy).Contents (Elt F) → (⟨S500000, .i32⟩ : BufTy).Contents (Elt F)),
    StableHlo.binary main_v25 main_v65 main_v66 (addi : (⟨S500000, .i32⟩ : BufTy).Contents (Elt F) → (⟨S500000, .i32⟩ : BufTy).Contents (Elt F) → (⟨S500000, .i32⟩ : BufTy).Contents (Elt F)),
    StableHlo.ternary main_v64 main_v66 main_v25 main_v67 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v67 main_v68 (broadcastInDim S500000x1 ![0] bcast_S500000_S500000x1_0 : (⟨S500000, .i32⟩ : BufTy).Contents (Elt F) → (⟨S500000x1, .i32⟩ : BufTy).Contents (Elt F)),
    StableHlo.binary main_v61 main_v68 main_v69 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v62 main_v70 (broadcastInDim S500000x64 ![0, 1] bcast_S500000x1_S500000x64_0_1 : (⟨S500000x1, .f32⟩ : BufTy).Contents (Elt F) → (⟨S500000x64, .f32⟩ : BufTy).Contents (Elt F)),
    StableHlo.binary main_v70 main_v69 main_v71 (mulf : (⟨S500000x64, .f32⟩ : BufTy).Contents (Elt F) → (⟨S500000x64, .f32⟩ : BufTy).Contents (Elt F) → (⟨S500000x64, .f32⟩ : BufTy).Contents (Elt F)),
    StableHlo.nullary main_cst_15 (constant S_ .f32 0x00000000#32),
    StableHlo.unary main_cst_15 main_v72 (broadcastInDim S50000x64 ![] bcast_S_S50000x64 : (⟨S_, .f32⟩ : BufTy).Contents (Elt F) → (⟨S50000x64, .f32⟩ : BufTy).Contents (Elt F)),
    StableHlo.unary main_v23 main_v73 (broadcastInDim S500000x1 ![0] bcast_S500000_S500000x1_0 : (⟨S500000, .i32⟩ : BufTy).Contents (Elt F) → (⟨S500000x1, .i32⟩ : BufTy).Contents (Elt F)),
    StableHlo.ternary main_v72 main_v73 main_v71 main_v74 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_16 (constant S_ .f32 0x3F666666#32),
    StableHlo.unary main_cst_16 main_v75 (broadcastInDim S50000x64 ![] bcast_S_S50000x64 : (⟨S_, .f32⟩ : BufTy).Contents (Elt F) → (⟨S50000x64, .f32⟩ : BufTy).Contents (Elt F)),
    StableHlo.binary main_v75 main_v74 main_v76 (mulf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3DCCCCCD#32),
    StableHlo.unary main_cst_17 main_v77 (broadcastInDim S50000x64 ![] bcast_S_S50000x64 : (⟨S_, .f32⟩ : BufTy).Contents (Elt F) → (⟨S50000x64, .f32⟩ : BufTy).Contents (Elt F)),
    StableHlo.binary main_v77 main_v21 main_v78 (mulf : (⟨S50000x64, .f32⟩ : BufTy).Contents (Elt F) → (⟨S50000x64, .f32⟩ : BufTy).Contents (Elt F) → (⟨S50000x64, .f32⟩ : BufTy).Contents (Elt F)),
    StableHlo.binary main_v76 main_v78 main_v79 (addf : (⟨S50000x64, .f32⟩ : BufTy).Contents (Elt F) → (⟨S50000x64, .f32⟩ : BufTy).Contents (Elt F) → (⟨S50000x64, .f32⟩ : BufTy).Contents (Elt F)),
    StableHlo.unary main_arg3 main_v80 (broadcastInDim S500000x1 ![0] bcast_S500000_S500000x1_0 : (⟨S500000, .f32⟩ : BufTy).Contents (Elt F) → (⟨S500000x1, .f32⟩ : BufTy).Contents (Elt F)),
    StableHlo.nullary main_c_18 (constantI S_ 32 0#32),
    StableHlo.unary main_c_18 main_v81 (broadcastInDim S500000 ![] bcast_S_S500000 : (⟨S_, .i32⟩ : BufTy).Contents (Elt F) → (⟨S500000, .i32⟩ : BufTy).Contents (Elt F)),
    StableHlo.binary main_v25 main_v81 main_v82 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 50000#32),
    StableHlo.unary main_c_19 main_v83 (broadcastInDim S500000 ![] bcast_S_S500000 : (⟨S_, .i32⟩ : BufTy).Contents (Elt F) → (⟨S500000, .i32⟩ : BufTy).Contents (Elt F)),
    StableHlo.binary main_v25 main_v83 main_v84 (addi : (⟨S500000, .i32⟩ : BufTy).Contents (Elt F) → (⟨S500000, .i32⟩ : BufTy).Contents (Elt F) → (⟨S500000, .i32⟩ : BufTy).Contents (Elt F)),
    StableHlo.ternary main_v82 main_v84 main_v25 main_v85 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v85 main_v86 (broadcastInDim S500000x1 ![0] bcast_S500000_S500000x1_0 : (⟨S500000, .i32⟩ : BufTy).Contents (Elt F) → (⟨S500000x1, .i32⟩ : BufTy).Contents (Elt F)),
    StableHlo.binary main_v79 main_v86 main_v87 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v80 main_v88 (broadcastInDim S500000x64 ![0, 1] bcast_S500000x1_S500000x64_0_1 : (⟨S500000x1, .f32⟩ : BufTy).Contents (Elt F) → (⟨S500000x64, .f32⟩ : BufTy).Contents (Elt F)),
    StableHlo.binary main_v88 main_v87 main_v89 (mulf : (⟨S500000x64, .f32⟩ : BufTy).Contents (Elt F) → (⟨S500000x64, .f32⟩ : BufTy).Contents (Elt F) → (⟨S500000x64, .f32⟩ : BufTy).Contents (Elt F)),
    StableHlo.nullary main_cst_20 (constant S_ .f32 0x00000000#32),
    StableHlo.unary main_cst_20 main_v90 (broadcastInDim S50000x64 ![] bcast_S_S50000x64 : (⟨S_, .f32⟩ : BufTy).Contents (Elt F) → (⟨S50000x64, .f32⟩ : BufTy).Contents (Elt F)),
    StableHlo.unary main_v23 main_v91 (broadcastInDim S500000x1 ![0] bcast_S500000_S500000x1_0 : (⟨S500000, .i32⟩ : BufTy).Contents (Elt F) → (⟨S500000x1, .i32⟩ : BufTy).Contents (Elt F)),
    StableHlo.ternary main_v90 main_v91 main_v89 main_v92 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_21 (constant S_ .f32 0x3F666666#32),
    StableHlo.unary main_cst_21 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (mulf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x3DCCCCCD#32),
    StableHlo.unary main_cst_22 main_v95 (broadcastInDim S50000x64 ![] bcast_S_S50000x64 : (⟨S_, .f32⟩ : BufTy).Contents (Elt F) → (⟨S50000x64, .f32⟩ : BufTy).Contents (Elt F)),
    StableHlo.binary main_v95 main_v21 main_v96 (mulf : (⟨S50000x64, .f32⟩ : BufTy).Contents (Elt F) → (⟨S50000x64, .f32⟩ : BufTy).Contents (Elt F) → (⟨S50000x64, .f32⟩ : BufTy).Contents (Elt F)),
    StableHlo.binary main_v94 main_v96 main_v97 (addf : (⟨S50000x64, .f32⟩ : BufTy).Contents (Elt F) → (⟨S50000x64, .f32⟩ : BufTy).Contents (Elt F) → (⟨S50000x64, .f32⟩ : BufTy).Contents (Elt F)),
    StableHlo.unary main_arg3 main_v98 (broadcastInDim S500000x1 ![0] bcast_S500000_S500000x1_0 : (⟨S500000, .f32⟩ : BufTy).Contents (Elt F) → (⟨S500000x1, .f32⟩ : BufTy).Contents (Elt F)),
    StableHlo.nullary main_c_23 (constantI S_ 32 0#32),
    StableHlo.unary main_c_23 main_v99 (broadcastInDim S500000 ![] bcast_S_S500000 : (⟨S_, .i32⟩ : BufTy).Contents (Elt F) → (⟨S500000, .i32⟩ : BufTy).Contents (Elt F)),
    StableHlo.binary main_v25 main_v99 main_v100 (cmpi .slt : (⟨S500000, .i32⟩ : BufTy).Contents (Elt F) → (⟨S500000, .i32⟩ : BufTy).Contents (Elt F) → (⟨S500000, .i1⟩ : BufTy).Contents (Elt F)),
    StableHlo.nullary main_c_24 (constantI S_ 32 50000#32),
    StableHlo.unary main_c_24 main_v101 (broadcastInDim S500000 ![] bcast_S_S500000 : (⟨S_, .i32⟩ : BufTy).Contents (Elt F) → (⟨S500000, .i32⟩ : BufTy).Contents (Elt F)),
    StableHlo.binary main_v25 main_v101 main_v102 (addi : (⟨S500000, .i32⟩ : BufTy).Contents (Elt F) → (⟨S500000, .i32⟩ : BufTy).Contents (Elt F) → (⟨S500000, .i32⟩ : BufTy).Contents (Elt F)),
    StableHlo.ternary main_v100 main_v102 main_v25 main_v103 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v103 main_v104 (broadcastInDim S500000x1 ![0] bcast_S500000_S500000x1_0 : (⟨S500000, .i32⟩ : BufTy).Contents (Elt F) → (⟨S500000x1, .i32⟩ : BufTy).Contents (Elt F)),
    StableHlo.binary main_v97 main_v104 main_v105 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v98 main_v106 (broadcastInDim S500000x64 ![0, 1] bcast_S500000x1_S500000x64_0_1 : (⟨S500000x1, .f32⟩ : BufTy).Contents (Elt F) → (⟨S500000x64, .f32⟩ : BufTy).Contents (Elt F)),
    StableHlo.binary main_v106 main_v105 main_v107 (mulf : (⟨S500000x64, .f32⟩ : BufTy).Contents (Elt F) → (⟨S500000x64, .f32⟩ : BufTy).Contents (Elt F) → (⟨S500000x64, .f32⟩ : BufTy).Contents (Elt F)),
    StableHlo.nullary main_cst_25 (constant S_ .f32 0x00000000#32),
    StableHlo.unary main_cst_25 main_v108 (broadcastInDim S50000x64 ![] bcast_S_S50000x64 : (⟨S_, .f32⟩ : BufTy).Contents (Elt F) → (⟨S50000x64, .f32⟩ : BufTy).Contents (Elt F)),
    StableHlo.unary main_v23 main_v109 (broadcastInDim S500000x1 ![0] bcast_S500000_S500000x1_0 : (⟨S500000, .i32⟩ : BufTy).Contents (Elt F) → (⟨S500000x1, .i32⟩ : BufTy).Contents (Elt F)),
    StableHlo.ternary main_v108 main_v109 main_v107 main_v110 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_26 (constant S_ .f32 0x3F666666#32),
    StableHlo.unary main_cst_26 main_v111 (broadcastInDim S50000x64 ![] bcast_S_S50000x64 : (⟨S_, .f32⟩ : BufTy).Contents (Elt F) → (⟨S50000x64, .f32⟩ : BufTy).Contents (Elt F)),
    StableHlo.binary main_v111 main_v110 main_v112 (mulf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3DCCCCCD#32),
    StableHlo.unary main_cst_27 main_v113 (broadcastInDim S50000x64 ![] bcast_S_S50000x64 : (⟨S_, .f32⟩ : BufTy).Contents (Elt F) → (⟨S50000x64, .f32⟩ : BufTy).Contents (Elt F)),
    StableHlo.binary main_v113 main_v21 main_v114 (mulf : (⟨S50000x64, .f32⟩ : BufTy).Contents (Elt F) → (⟨S50000x64, .f32⟩ : BufTy).Contents (Elt F) → (⟨S50000x64, .f32⟩ : BufTy).Contents (Elt F)),
    StableHlo.binary main_v112 main_v114 main_v115 (addf : (⟨S50000x64, .f32⟩ : BufTy).Contents (Elt F) → (⟨S50000x64, .f32⟩ : BufTy).Contents (Elt F) → (⟨S50000x64, .f32⟩ : BufTy).Contents (Elt F)),
    StableHlo.unary main_arg3 main_v116 (broadcastInDim S500000x1 ![0] bcast_S500000_S500000x1_0 : (⟨S500000, .f32⟩ : BufTy).Contents (Elt F) → (⟨S500000x1, .f32⟩ : BufTy).Contents (Elt F)),
    StableHlo.nullary main_c_28 (constantI S_ 32 0#32),
    StableHlo.unary main_c_28 main_v117 (broadcastInDim S500000 ![] bcast_S_S500000 : (⟨S_, .i32⟩ : BufTy).Contents (Elt F) → (⟨S500000, .i32⟩ : BufTy).Contents (Elt F)),
    StableHlo.binary main_v25 main_v117 main_v118 (cmpi .slt : (⟨S500000, .i32⟩ : BufTy).Contents (Elt F) → (⟨S500000, .i32⟩ : BufTy).Contents (Elt F) → (⟨S500000, .i1⟩ : BufTy).Contents (Elt F)),
    StableHlo.nullary main_c_29 (constantI S_ 32 50000#32),
    StableHlo.unary main_c_29 main_v119 (broadcastInDim S500000 ![] bcast_S_S500000 : (⟨S_, .i32⟩ : BufTy).Contents (Elt F) → (⟨S500000, .i32⟩ : BufTy).Contents (Elt F)),
    StableHlo.binary main_v25 main_v119 main_v120 (addi : (⟨S500000, .i32⟩ : BufTy).Contents (Elt F) → (⟨S500000, .i32⟩ : BufTy).Contents (Elt F) → (⟨S500000, .i32⟩ : BufTy).Contents (Elt F)),
    StableHlo.ternary main_v118 main_v120 main_v25 main_v121 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v121 main_v122 (broadcastInDim S500000x1 ![0] bcast_S500000_S500000x1_0 : (⟨S500000, .i32⟩ : BufTy).Contents (Elt F) → (⟨S500000x1, .i32⟩ : BufTy).Contents (Elt F)),
    StableHlo.binary main_v115 main_v122 main_v123 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v116 main_v124 (broadcastInDim S500000x64 ![0, 1] bcast_S500000x1_S500000x64_0_1 : (⟨S500000x1, .f32⟩ : BufTy).Contents (Elt F) → (⟨S500000x64, .f32⟩ : BufTy).Contents (Elt F)),
    StableHlo.binary main_v124 main_v123 main_v125 (mulf : (⟨S500000x64, .f32⟩ : BufTy).Contents (Elt F) → (⟨S500000x64, .f32⟩ : BufTy).Contents (Elt F) → (⟨S500000x64, .f32⟩ : BufTy).Contents (Elt F)),
    StableHlo.nullary main_cst_30 (constant S_ .f32 0x00000000#32),
    StableHlo.unary main_cst_30 main_v126 (broadcastInDim S50000x64 ![] bcast_S_S50000x64 : (⟨S_, .f32⟩ : BufTy).Contents (Elt F) → (⟨S50000x64, .f32⟩ : BufTy).Contents (Elt F)),
    StableHlo.unary main_v23 main_v127 (broadcastInDim S500000x1 ![0] bcast_S500000_S500000x1_0 : (⟨S500000, .i32⟩ : BufTy).Contents (Elt F) → (⟨S500000x1, .i32⟩ : BufTy).Contents (Elt F)),
    StableHlo.ternary main_v126 main_v127 main_v125 main_v128 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_31 (constant S_ .f32 0x3F666666#32),
    StableHlo.unary main_cst_31 main_v129 (broadcastInDim S50000x64 ![] bcast_S_S50000x64 : (⟨S_, .f32⟩ : BufTy).Contents (Elt F) → (⟨S50000x64, .f32⟩ : BufTy).Contents (Elt F)),
    StableHlo.binary main_v129 main_v128 main_v130 (mulf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3DCCCCCD#32),
    StableHlo.unary main_cst_32 main_v131 (broadcastInDim S50000x64 ![] bcast_S_S50000x64 : (⟨S_, .f32⟩ : BufTy).Contents (Elt F) → (⟨S50000x64, .f32⟩ : BufTy).Contents (Elt F)),
    StableHlo.binary main_v131 main_v21 main_v132 (mulf : (⟨S50000x64, .f32⟩ : BufTy).Contents (Elt F) → (⟨S50000x64, .f32⟩ : BufTy).Contents (Elt F) → (⟨S50000x64, .f32⟩ : BufTy).Contents (Elt F)),
    StableHlo.binary main_v130 main_v132 main_v133 (addf : (⟨S50000x64, .f32⟩ : BufTy).Contents (Elt F) → (⟨S50000x64, .f32⟩ : BufTy).Contents (Elt F) → (⟨S50000x64, .f32⟩ : BufTy).Contents (Elt F)),
    StableHlo.unary main_arg3 main_v134 (broadcastInDim S500000x1 ![0] bcast_S500000_S500000x1_0 : (⟨S500000, .f32⟩ : BufTy).Contents (Elt F) → (⟨S500000x1, .f32⟩ : BufTy).Contents (Elt F)),
    StableHlo.nullary main_c_33 (constantI S_ 32 0#32),
    StableHlo.unary main_c_33 main_v135 (broadcastInDim S500000 ![] bcast_S_S500000 : (⟨S_, .i32⟩ : BufTy).Contents (Elt F) → (⟨S500000, .i32⟩ : BufTy).Contents (Elt F)),
    StableHlo.binary main_v25 main_v135 main_v136 (cmpi .slt : (⟨S500000, .i32⟩ : BufTy).Contents (Elt F) → (⟨S500000, .i32⟩ : BufTy).Contents (Elt F) → (⟨S500000, .i1⟩ : BufTy).Contents (Elt F)),
    StableHlo.nullary main_c_34 (constantI S_ 32 50000#32),
    StableHlo.unary main_c_34 main_v137 (broadcastInDim S500000 ![] bcast_S_S500000 : (⟨S_, .i32⟩ : BufTy).Contents (Elt F) → (⟨S500000, .i32⟩ : BufTy).Contents (Elt F)),
    StableHlo.binary main_v25 main_v137 main_v138 (addi : (⟨S500000, .i32⟩ : BufTy).Contents (Elt F) → (⟨S500000, .i32⟩ : BufTy).Contents (Elt F) → (⟨S500000, .i32⟩ : BufTy).Contents (Elt F)),
    StableHlo.ternary main_v136 main_v138 main_v25 main_v139 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v139 main_v140 (broadcastInDim S500000x1 ![0] bcast_S500000_S500000x1_0 : (⟨S500000, .i32⟩ : BufTy).Contents (Elt F) → (⟨S500000x1, .i32⟩ : BufTy).Contents (Elt F)),
    StableHlo.binary main_v133 main_v140 main_v141 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v134 main_v142 (broadcastInDim S500000x64 ![0, 1] bcast_S500000x1_S500000x64_0_1 : (⟨S500000x1, .f32⟩ : BufTy).Contents (Elt F) → (⟨S500000x64, .f32⟩ : BufTy).Contents (Elt F)),
    StableHlo.binary main_v142 main_v141 main_v143 (mulf : (⟨S500000x64, .f32⟩ : BufTy).Contents (Elt F) → (⟨S500000x64, .f32⟩ : BufTy).Contents (Elt F) → (⟨S500000x64, .f32⟩ : BufTy).Contents (Elt F)),
    StableHlo.nullary main_cst_35 (constant S_ .f32 0x00000000#32),
    StableHlo.unary main_cst_35 main_v144 (broadcastInDim S50000x64 ![] bcast_S_S50000x64 : (⟨S_, .f32⟩ : BufTy).Contents (Elt F) → (⟨S50000x64, .f32⟩ : BufTy).Contents (Elt F)),
    StableHlo.unary main_v23 main_v145 (broadcastInDim S500000x1 ![0] bcast_S500000_S500000x1_0 : (⟨S500000, .i32⟩ : BufTy).Contents (Elt F) → (⟨S500000x1, .i32⟩ : BufTy).Contents (Elt F)),
    StableHlo.ternary main_v144 main_v145 main_v143 main_v146 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_36 (constant S_ .f32 0x3F666666#32),
    StableHlo.unary main_cst_36 main_v147 (broadcastInDim S50000x64 ![] bcast_S_S50000x64 : (⟨S_, .f32⟩ : BufTy).Contents (Elt F) → (⟨S50000x64, .f32⟩ : BufTy).Contents (Elt F)),
    StableHlo.binary main_v147 main_v146 main_v148 (mulf : (⟨S50000x64, .f32⟩ : BufTy).Contents (Elt F) → (⟨S50000x64, .f32⟩ : BufTy).Contents (Elt F) → (⟨S50000x64, .f32⟩ : BufTy).Contents (Elt F)),
    StableHlo.nullary main_cst_37 (constant S_ .f32 0x3DCCCCCD#32),
    StableHlo.unary main_cst_37 main_v149 (broadcastInDim S50000x64 ![] bcast_S_S50000x64 : (⟨S_, .f32⟩ : BufTy).Contents (Elt F) → (⟨S50000x64, .f32⟩ : BufTy).Contents (Elt F)),
    StableHlo.binary main_v149 main_v21 main_v150 (mulf : (⟨S50000x64, .f32⟩ : BufTy).Contents (Elt F) → (⟨S50000x64, .f32⟩ : BufTy).Contents (Elt F) → (⟨S50000x64, .f32⟩ : BufTy).Contents (Elt F)),
    StableHlo.binary main_v148 main_v150 main_v151 (addf : (⟨S50000x64, .f32⟩ : BufTy).Contents (Elt F) → (⟨S50000x64, .f32⟩ : BufTy).Contents (Elt F) → (⟨S50000x64, .f32⟩ : BufTy).Contents (Elt F)),
    StableHlo.unary main_arg3 main_v152 (broadcastInDim S500000x1 ![0] bcast_S500000_S500000x1_0 : (⟨S500000, .f32⟩ : BufTy).Contents (Elt F) → (⟨S500000x1, .f32⟩ : BufTy).Contents (Elt F)),
    StableHlo.nullary main_c_38 (constantI S_ 32 0#32),
    StableHlo.unary main_c_38 main_v153 (broadcastInDim S500000 ![] bcast_S_S500000 : (⟨S_, .i32⟩ : BufTy).Contents (Elt F) → (⟨S500000, .i32⟩ : BufTy).Contents (Elt F)),
    StableHlo.binary main_v25 main_v153 main_v154 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 50000#32),
    StableHlo.unary main_c_39 main_v155 (broadcastInDim S500000 ![] bcast_S_S500000 : (⟨S_, .i32⟩ : BufTy).Contents (Elt F) → (⟨S500000, .i32⟩ : BufTy).Contents (Elt F)),
    StableHlo.binary main_v25 main_v155 main_v156 (addi : (⟨S500000, .i32⟩ : BufTy).Contents (Elt F) → (⟨S500000, .i32⟩ : BufTy).Contents (Elt F) → (⟨S500000, .i32⟩ : BufTy).Contents (Elt F)),
    StableHlo.ternary main_v154 main_v156 main_v25 main_v157 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v157 main_v158 (broadcastInDim S500000x1 ![0] bcast_S500000_S500000x1_0 : (⟨S500000, .i32⟩ : BufTy).Contents (Elt F) → (⟨S500000x1, .i32⟩ : BufTy).Contents (Elt F)),
    StableHlo.binary main_v151 main_v158 main_v159 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v152 main_v160 (broadcastInDim S500000x64 ![0, 1] bcast_S500000x1_S500000x64_0_1 : (⟨S500000x1, .f32⟩ : BufTy).Contents (Elt F) → (⟨S500000x64, .f32⟩ : BufTy).Contents (Elt F)),
    StableHlo.binary main_v160 main_v159 main_v161 (mulf : (⟨S500000x64, .f32⟩ : BufTy).Contents (Elt F) → (⟨S500000x64, .f32⟩ : BufTy).Contents (Elt F) → (⟨S500000x64, .f32⟩ : BufTy).Contents (Elt F)),
    StableHlo.nullary main_cst_40 (constant S_ .f32 0x00000000#32),
    StableHlo.unary main_cst_40 main_v162 (broadcastInDim S50000x64 ![] bcast_S_S50000x64 : (⟨S_, .f32⟩ : BufTy).Contents (Elt F) → (⟨S50000x64, .f32⟩ : BufTy).Contents (Elt F)),
    StableHlo.unary main_v23 main_v163 (broadcastInDim S500000x1 ![0] bcast_S500000_S500000x1_0 : (⟨S500000, .i32⟩ : BufTy).Contents (Elt F) → (⟨S500000x1, .i32⟩ : BufTy).Contents (Elt F)),
    StableHlo.ternary main_v162 main_v163 main_v161 main_v164 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_41 (constant S_ .f32 0x3F666666#32),
    StableHlo.unary main_cst_41 main_v165 (broadcastInDim S50000x64 ![] bcast_S_S50000x64 : (⟨S_, .f32⟩ : BufTy).Contents (Elt F) → (⟨S50000x64, .f32⟩ : BufTy).Contents (Elt F)),
    StableHlo.binary main_v165 main_v164 main_v166 (mulf : (⟨S50000x64, .f32⟩ : BufTy).Contents (Elt F) → (⟨S50000x64, .f32⟩ : BufTy).Contents (Elt F) → (⟨S50000x64, .f32⟩ : BufTy).Contents (Elt F)),
    StableHlo.nullary main_cst_42 (constant S_ .f32 0x3DCCCCCD#32),
    StableHlo.unary main_cst_42 main_v167 (broadcastInDim S50000x64 ![] bcast_S_S50000x64 : (⟨S_, .f32⟩ : BufTy).Contents (Elt F) → (⟨S50000x64, .f32⟩ : BufTy).Contents (Elt F)),
    StableHlo.binary main_v167 main_v21 main_v168 (mulf : (⟨S50000x64, .f32⟩ : BufTy).Contents (Elt F) → (⟨S50000x64, .f32⟩ : BufTy).Contents (Elt F) → (⟨S50000x64, .f32⟩ : BufTy).Contents (Elt F)),
    StableHlo.binary main_v166 main_v168 main_v169 (addf : (⟨S50000x64, .f32⟩ : BufTy).Contents (Elt F) → (⟨S50000x64, .f32⟩ : BufTy).Contents (Elt F) → (⟨S50000x64, .f32⟩ : BufTy).Contents (Elt F)),
    StableHlo.unary main_arg3 main_v170 (broadcastInDim S500000x1 ![0] bcast_S500000_S500000x1_0 : (⟨S500000, .f32⟩ : BufTy).Contents (Elt F) → (⟨S500000x1, .f32⟩ : BufTy).Contents (Elt F)),
    StableHlo.nullary main_c_43 (constantI S_ 32 0#32),
    StableHlo.unary main_c_43 main_v171 (broadcastInDim S500000 ![] bcast_S_S500000 : (⟨S_, .i32⟩ : BufTy).Contents (Elt F) → (⟨S500000, .i32⟩ : BufTy).Contents (Elt F)),
    StableHlo.binary main_v25 main_v171 main_v172 (cmpi .slt : (⟨S500000, .i32⟩ : BufTy).Contents (Elt F) → (⟨S500000, .i32⟩ : BufTy).Contents (Elt F) → (⟨S500000, .i1⟩ : BufTy).Contents (Elt F)),
    StableHlo.nullary main_c_44 (constantI S_ 32 50000#32),
    StableHlo.unary main_c_44 main_v173 (broadcastInDim S500000 ![] bcast_S_S500000 : (⟨S_, .i32⟩ : BufTy).Contents (Elt F) → (⟨S500000, .i32⟩ : BufTy).Contents (Elt F)),
    StableHlo.binary main_v25 main_v173 main_v174 (addi : (⟨S500000, .i32⟩ : BufTy).Contents (Elt F) → (⟨S500000, .i32⟩ : BufTy).Contents (Elt F) → (⟨S500000, .i32⟩ : BufTy).Contents (Elt F)),
    StableHlo.ternary main_v172 main_v174 main_v25 main_v175 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v175 main_v176 (broadcastInDim S500000x1 ![0] bcast_S500000_S500000x1_0 : (⟨S500000, .i32⟩ : BufTy).Contents (Elt F) → (⟨S500000x1, .i32⟩ : BufTy).Contents (Elt F)),
    StableHlo.binary main_v169 main_v176 main_v177 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v170 main_v178 (broadcastInDim S500000x64 ![0, 1] bcast_S500000x1_S500000x64_0_1 : (⟨S500000x1, .f32⟩ : BufTy).Contents (Elt F) → (⟨S500000x64, .f32⟩ : BufTy).Contents (Elt F)),
    StableHlo.binary main_v178 main_v177 main_v179 (mulf : (⟨S500000x64, .f32⟩ : BufTy).Contents (Elt F) → (⟨S500000x64, .f32⟩ : BufTy).Contents (Elt F) → (⟨S500000x64, .f32⟩ : BufTy).Contents (Elt F)),
    StableHlo.nullary main_cst_45 (constant S_ .f32 0x00000000#32),
    StableHlo.unary main_cst_45 main_v180 (broadcastInDim S50000x64 ![] bcast_S_S50000x64 : (⟨S_, .f32⟩ : BufTy).Contents (Elt F) → (⟨S50000x64, .f32⟩ : BufTy).Contents (Elt F)),
    StableHlo.unary main_v23 main_v181 (broadcastInDim S500000x1 ![0] bcast_S500000_S500000x1_0 : (⟨S500000, .i32⟩ : BufTy).Contents (Elt F) → (⟨S500000x1, .i32⟩ : BufTy).Contents (Elt F)),
    StableHlo.ternary main_v180 main_v181 main_v179 main_v182 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_46 (constant S_ .f32 0x3F666666#32),
    StableHlo.unary main_cst_46 main_v183 (broadcastInDim S50000x64 ![] bcast_S_S50000x64 : (⟨S_, .f32⟩ : BufTy).Contents (Elt F) → (⟨S50000x64, .f32⟩ : BufTy).Contents (Elt F)),
    StableHlo.binary main_v183 main_v182 main_v184 (mulf : (⟨S50000x64, .f32⟩ : BufTy).Contents (Elt F) → (⟨S50000x64, .f32⟩ : BufTy).Contents (Elt F) → (⟨S50000x64, .f32⟩ : BufTy).Contents (Elt F)),
    StableHlo.nullary main_cst_47 (constant S_ .f32 0x3DCCCCCD#32),
    StableHlo.unary main_cst_47 main_v185 (broadcastInDim S50000x64 ![] bcast_S_S50000x64 : (⟨S_, .f32⟩ : BufTy).Contents (Elt F) → (⟨S50000x64, .f32⟩ : BufTy).Contents (Elt F)),
    StableHlo.binary main_v185 main_v21 main_v186 (mulf : (⟨S50000x64, .f32⟩ : BufTy).Contents (Elt F) → (⟨S50000x64, .f32⟩ : BufTy).Contents (Elt F) → (⟨S50000x64, .f32⟩ : BufTy).Contents (Elt F)),
    StableHlo.binary main_v184 main_v186 main_v187 (addf : (⟨S50000x64, .f32⟩ : BufTy).Contents (Elt F) → (⟨S50000x64, .f32⟩ : BufTy).Contents (Elt F) → (⟨S50000x64, .f32⟩ : BufTy).Contents (Elt F)),
    StableHlo.unary main_arg3 main_v188 (broadcastInDim S500000x1 ![0] bcast_S500000_S500000x1_0 : (⟨S500000, .f32⟩ : BufTy).Contents (Elt F) → (⟨S500000x1, .f32⟩ : BufTy).Contents (Elt F)),
    StableHlo.nullary main_c_48 (constantI S_ 32 0#32),
    StableHlo.unary main_c_48 main_v189 (broadcastInDim S500000 ![] bcast_S_S500000 : (⟨S_, .i32⟩ : BufTy).Contents (Elt F) → (⟨S500000, .i32⟩ : BufTy).Contents (Elt F)),
    StableHlo.binary main_v25 main_v189 main_v190 (cmpi .slt : (⟨S500000, .i32⟩ : BufTy).Contents (Elt F) → (⟨S500000, .i32⟩ : BufTy).Contents (Elt F) → (⟨S500000, .i1⟩ : BufTy).Contents (Elt F)),
    StableHlo.nullary main_c_49 (constantI S_ 32 50000#32),
    StableHlo.unary main_c_49 main_v191 (broadcastInDim S500000 ![] bcast_S_S500000 : (⟨S_, .i32⟩ : BufTy).Contents (Elt F) → (⟨S500000, .i32⟩ : BufTy).Contents (Elt F)),
    StableHlo.binary main_v25 main_v191 main_v192 (addi : (⟨S500000, .i32⟩ : BufTy).Contents (Elt F) → (⟨S500000, .i32⟩ : BufTy).Contents (Elt F) → (⟨S500000, .i32⟩ : BufTy).Contents (Elt F)),
    StableHlo.ternary main_v190 main_v192 main_v25 main_v193 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v193 main_v194 (broadcastInDim S500000x1 ![0] bcast_S500000_S500000x1_0 : (⟨S500000, .i32⟩ : BufTy).Contents (Elt F) → (⟨S500000x1, .i32⟩ : BufTy).Contents (Elt F)),
    StableHlo.binary main_v187 main_v194 main_v195 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v188 main_v196 (broadcastInDim S500000x64 ![0, 1] bcast_S500000x1_S500000x64_0_1 : (⟨S500000x1, .f32⟩ : BufTy).Contents (Elt F) → (⟨S500000x64, .f32⟩ : BufTy).Contents (Elt F)),
    StableHlo.binary main_v196 main_v195 main_v197 (mulf : (⟨S500000x64, .f32⟩ : BufTy).Contents (Elt F) → (⟨S500000x64, .f32⟩ : BufTy).Contents (Elt F) → (⟨S500000x64, .f32⟩ : BufTy).Contents (Elt F)),
    StableHlo.nullary main_cst_50 (constant S_ .f32 0x00000000#32),
    StableHlo.unary main_cst_50 main_v198 (broadcastInDim S50000x64 ![] bcast_S_S50000x64 : (⟨S_, .f32⟩ : BufTy).Contents (Elt F) → (⟨S50000x64, .f32⟩ : BufTy).Contents (Elt F)),
    StableHlo.unary main_v23 main_v199 (broadcastInDim S500000x1 ![0] bcast_S500000_S500000x1_0 : (⟨S500000, .i32⟩ : BufTy).Contents (Elt F) → (⟨S500000x1, .i32⟩ : BufTy).Contents (Elt F)),
    StableHlo.ternary main_v198 main_v199 main_v197 main_v200 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_51 (constant S_ .f32 0x3F666666#32),
    StableHlo.unary main_cst_51 main_v201 (broadcastInDim S50000x64 ![] bcast_S_S50000x64 : (⟨S_, .f32⟩ : BufTy).Contents (Elt F) → (⟨S50000x64, .f32⟩ : BufTy).Contents (Elt F)),
    StableHlo.binary main_v201 main_v200 main_v202 (mulf : (⟨S50000x64, .f32⟩ : BufTy).Contents (Elt F) → (⟨S50000x64, .f32⟩ : BufTy).Contents (Elt F) → (⟨S50000x64, .f32⟩ : BufTy).Contents (Elt F)),
    StableHlo.nullary main_cst_52 (constant S_ .f32 0x3DCCCCCD#32),
    StableHlo.unary main_cst_52 main_v203 (broadcastInDim S50000x64 ![] bcast_S_S50000x64 : (⟨S_, .f32⟩ : BufTy).Contents (Elt F) → (⟨S50000x64, .f32⟩ : BufTy).Contents (Elt F)),
    StableHlo.binary main_v203 main_v21 main_v204 (mulf : (⟨S50000x64, .f32⟩ : BufTy).Contents (Elt F) → (⟨S50000x64, .f32⟩ : BufTy).Contents (Elt F) → (⟨S50000x64, .f32⟩ : BufTy).Contents (Elt F)),
    StableHlo.binary main_v202 main_v204 main_v205 (addf : (⟨S50000x64, .f32⟩ : BufTy).Contents (Elt F) → (⟨S50000x64, .f32⟩ : BufTy).Contents (Elt F) → (⟨S50000x64, .f32⟩ : BufTy).Contents (Elt F)) ]

/-- The row-wise log-softmax. -/
abbrev opsLsm : List (HloOp τ sig (Elt F)) :=
  [ StableHlo.TRef.nullary (StableHlo.TRef.of (T := ⟨S_, .f32⟩) main_call1_cst) (constant S_ .f32 0xFF800000#32),
    StableHlo.TRef.binary (StableHlo.TRef.of (T := ⟨S50000x64, .f32⟩) main_v205) (StableHlo.TRef.of (T := ⟨S_, .f32⟩) main_call1_cst) (StableHlo.TRef.of (T := ⟨S50000, .f32⟩) main_call1_v0) (fun x v => Host.reduce FloatOps.maximumf x v reducesTo_S50000x64_S50000_d1 h_S_),
    StableHlo.TRef.nullary (StableHlo.TRef.of (T := ⟨S_, .f32⟩) main_call1_cst_0) (constant S_ .f32 0xFF800000#32),
    StableHlo.TRef.unary (StableHlo.TRef.of (T := ⟨S_, .f32⟩) main_call1_cst_0) (StableHlo.TRef.of (T := ⟨S50000, .f32⟩) main_call1_v1) (broadcastInDim S50000 ![] bcast_S_S50000),
    StableHlo.TRef.binary (StableHlo.TRef.of (T := ⟨S50000, .f32⟩) main_call1_v1) (StableHlo.TRef.of (T := ⟨S50000, .f32⟩) main_call1_v0) (StableHlo.TRef.of (T := ⟨S50000, .f32⟩) main_call1_v2) maximumf,
    StableHlo.TRef.unary (StableHlo.TRef.of (T := ⟨S50000, .f32⟩) main_call1_v2) (StableHlo.TRef.of (T := ⟨S50000x1, .f32⟩) main_call1_v3) (broadcastInDim S50000x1 ![0] bcast_S50000_S50000x1_0),
    StableHlo.TRef.unary (StableHlo.TRef.of (T := ⟨S50000x1, .f32⟩) main_call1_v3) (StableHlo.TRef.of (T := ⟨S50000x64, .f32⟩) main_call1_v4) (broadcastInDim S50000x64 ![0, 1] bcast_S50000x1_S50000x64_0_1),
    StableHlo.TRef.binary (StableHlo.TRef.of (T := ⟨S50000x64, .f32⟩) main_v205) (StableHlo.TRef.of (T := ⟨S50000x64, .f32⟩) main_call1_v4) (StableHlo.TRef.of (T := ⟨S50000x64, .f32⟩) main_call1_v5) subf,
    StableHlo.TRef.unary (StableHlo.TRef.of (T := ⟨S50000x64, .f32⟩) main_call1_v5) (StableHlo.TRef.of (T := ⟨S50000x64, .f32⟩) main_call1_v6) Host.exp,
    StableHlo.TRef.nullary (StableHlo.TRef.of (T := ⟨S_, .f32⟩) main_call1_cst_1) (constant S_ .f32 0x00000000#32),
    StableHlo.TRef.binary (StableHlo.TRef.of (T := ⟨S50000x64, .f32⟩) main_call1_v6) (StableHlo.TRef.of (T := ⟨S_, .f32⟩) main_call1_cst_1) (StableHlo.TRef.of (T := ⟨S50000, .f32⟩) main_call1_v7) (fun x v => Host.reduceAdd x v reducesTo_S50000x64_S50000_d1 h_S_),
    StableHlo.TRef.unary (StableHlo.TRef.of (T := ⟨S50000, .f32⟩) main_call1_v7) (StableHlo.TRef.of (T := ⟨S50000x1, .f32⟩) main_call1_v8) (broadcastInDim S50000x1 ![0] bcast_S50000_S50000x1_0),
    StableHlo.TRef.unary (StableHlo.TRef.of (T := ⟨S50000x1, .f32⟩) main_call1_v8) (StableHlo.TRef.of (T := ⟨S50000x1, .f32⟩) main_call1_v9) Host.log,
    StableHlo.TRef.unary (StableHlo.TRef.of (T := ⟨S50000x1, .f32⟩) main_call1_v9) (StableHlo.TRef.of (T := ⟨S50000x64, .f32⟩) main_call1_v10) (broadcastInDim S50000x64 ![0, 1] bcast_S50000x1_S50000x64_0_1),
    StableHlo.TRef.binary (StableHlo.TRef.of (T := ⟨S50000x64, .f32⟩) main_call1_v5) (StableHlo.TRef.of (T := ⟨S50000x64, .f32⟩) main_call1_v10) (StableHlo.TRef.of (T := ⟨S50000x64, .f32⟩) main_v206) subf ]

/-- @main's operations in program order, a called function's operations in its call's place over the call's buffers. -/
abbrev ops : List (HloOp τ sig (Elt F)) :=
  [ StableHlo.unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x00000000#32),
    StableHlo.unary main_cst main_v4 (broadcastInDim S50000x1024 ![] bcast_S_S50000x1024 : (⟨S_, .f32⟩ : BufTy).Contents (Elt F) → (⟨S50000x1024, .f32⟩ : BufTy).Contents (Elt F)),
    StableHlo.nullary main_c (constantI S_ 32 0#32),
    StableHlo.unary main_c main_v5 (broadcastInDim S1000000 ![] bcast_S_S1000000 : (⟨S_, .i32⟩ : BufTy).Contents (Elt F) → (⟨S1000000, .i32⟩ : BufTy).Contents (Elt F)),
    StableHlo.binary main_v1 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v7 (broadcastInDim S1000000 ![] bcast_S_S1000000 : (⟨S_, .i32⟩ : BufTy).Contents (Elt F) → (⟨S1000000, .i32⟩ : BufTy).Contents (Elt F)),
    StableHlo.binary main_v1 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_v1 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_1 (constantI S_ 32 0#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_v3 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 1024#32),
    StableHlo.unary main_c_2 main_v12 (broadcastInDim S1000000 ![] bcast_S_S1000000 : (⟨S_, .i32⟩ : BufTy).Contents (Elt F) → (⟨S1000000, .i32⟩ : BufTy).Contents (Elt F)),
    StableHlo.binary main_v3 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_v3 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v15 (broadcastInDim S1000000x1 ![0] bcast_S1000000_S1000000x1_0 : (⟨S1000000, .i32⟩ : BufTy).Contents (Elt F) → (⟨S1000000x1, .i32⟩ : BufTy).Contents (Elt F)),
    StableHlo.unary main_v14 main_v16 (broadcastInDim S1000000x1 ![0] bcast_S1000000_S1000000x1_0 : (⟨S1000000, .i32⟩ : BufTy).Contents (Elt F) → (⟨S1000000x1, .i32⟩ : BufTy).Contents (Elt F)),
    StableHlo.binary main_v15 main_v16 main_v17 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.ternary main_v4 main_v17 main_arg1 main_v18 ((fun x i u => Host.scatterAdd scatter_S50000x1024_S1000000x2_S1000000_n_01_01_1 x i u) : (⟨S50000x1024, .f32⟩ : BufTy).Contents (Elt F) → (⟨S1000000x2, .i32⟩ : BufTy).Contents (Elt F) → (⟨S1000000, .f32⟩ : BufTy).Contents (Elt F) → (⟨S50000x1024, .f32⟩ : BufTy).Contents (Elt F)),
    StableHlo.binary main_v18 main_arg4 main_v19 ((fun l r => Host.dotGeneral dot_S50000x1024_S1024x256_S50000x256_1_0_0_1_n_n none l r) : (⟨S50000x1024, .f32⟩ : BufTy).Contents (Elt F) → (⟨S1024x256, .f32⟩ : BufTy).Contents (Elt F) → (⟨S50000x256, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S50000x256, .f32⟩) main_call0_v0) (broadcastInDim S50000x256 ![] bcast_S_S50000x256),
    StableHlo.TRef.binary (StableHlo.TRef.of (T := ⟨S50000x256, .f32⟩) main_v19) (StableHlo.TRef.of (T := ⟨S50000x256, .f32⟩) main_call0_v0) (StableHlo.TRef.of (T := ⟨S50000x256, .f32⟩) main_v20) maximumf,
    StableHlo.binary main_v20 main_arg5 main_v21 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.unary main_arg2 main_v22 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v22 main_v23 rfl shapeCasts_S1x500000_S500000,
    StableHlo.unary main_arg2 main_v24 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v24 main_v25 rfl shapeCasts_S1x500000_S500000,
    StableHlo.unary main_arg3 main_v26 (broadcastInDim S500000x1 ![0] bcast_S500000_S500000x1_0 : (⟨S500000, .f32⟩ : BufTy).Contents (Elt F) → (⟨S500000x1, .f32⟩ : BufTy).Contents (Elt F)),
    StableHlo.nullary main_c_3 (constantI S_ 32 0#32),
    StableHlo.unary main_c_3 main_v27 (broadcastInDim S500000 ![] bcast_S_S500000 : (⟨S_, .i32⟩ : BufTy).Contents (Elt F) → (⟨S500000, .i32⟩ : BufTy).Contents (Elt F)),
    StableHlo.binary main_v25 main_v27 main_v28 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 50000#32),
    StableHlo.unary main_c_4 main_v29 (broadcastInDim S500000 ![] bcast_S_S500000 : (⟨S_, .i32⟩ : BufTy).Contents (Elt F) → (⟨S500000, .i32⟩ : BufTy).Contents (Elt F)),
    StableHlo.binary main_v25 main_v29 main_v30 (addi : (⟨S500000, .i32⟩ : BufTy).Contents (Elt F) → (⟨S500000, .i32⟩ : BufTy).Contents (Elt F) → (⟨S500000, .i32⟩ : BufTy).Contents (Elt F)),
    StableHlo.ternary main_v28 main_v30 main_v25 main_v31 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v31 main_v32 (broadcastInDim S500000x1 ![0] bcast_S500000_S500000x1_0 : (⟨S500000, .i32⟩ : BufTy).Contents (Elt F) → (⟨S500000x1, .i32⟩ : BufTy).Contents (Elt F)),
    StableHlo.binary main_v21 main_v32 main_v33 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v26 main_v34 (broadcastInDim S500000x64 ![0, 1] bcast_S500000x1_S500000x64_0_1 : (⟨S500000x1, .f32⟩ : BufTy).Contents (Elt F) → (⟨S500000x64, .f32⟩ : BufTy).Contents (Elt F)),
    StableHlo.binary main_v34 main_v33 main_v35 (mulf : (⟨S500000x64, .f32⟩ : BufTy).Contents (Elt F) → (⟨S500000x64, .f32⟩ : BufTy).Contents (Elt F) → (⟨S500000x64, .f32⟩ : BufTy).Contents (Elt F)),
    StableHlo.nullary main_cst_5 (constant S_ .f32 0x00000000#32),
    StableHlo.unary main_cst_5 main_v36 (broadcastInDim S50000x64 ![] bcast_S_S50000x64 : (⟨S_, .f32⟩ : BufTy).Contents (Elt F) → (⟨S50000x64, .f32⟩ : BufTy).Contents (Elt F)),
    StableHlo.unary main_v23 main_v37 (broadcastInDim S500000x1 ![0] bcast_S500000_S500000x1_0 : (⟨S500000, .i32⟩ : BufTy).Contents (Elt F) → (⟨S500000x1, .i32⟩ : BufTy).Contents (Elt F)),
    StableHlo.ternary main_v36 main_v37 main_v35 main_v38 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_6 (constant S_ .f32 0x3F666666#32),
    StableHlo.unary main_cst_6 main_v39 (broadcastInDim S50000x64 ![] bcast_S_S50000x64 : (⟨S_, .f32⟩ : BufTy).Contents (Elt F) → (⟨S50000x64, .f32⟩ : BufTy).Contents (Elt F)),
    StableHlo.binary main_v39 main_v38 main_v40 (mulf : (⟨S50000x64, .f32⟩ : BufTy).Contents (Elt F) → (⟨S50000x64, .f32⟩ : BufTy).Contents (Elt F) → (⟨S50000x64, .f32⟩ : BufTy).Contents (Elt F)),
    StableHlo.nullary main_cst_7 (constant S_ .f32 0x3DCCCCCD#32),
    StableHlo.unary main_cst_7 main_v41 (broadcastInDim S50000x64 ![] bcast_S_S50000x64 : (⟨S_, .f32⟩ : BufTy).Contents (Elt F) → (⟨S50000x64, .f32⟩ : BufTy).Contents (Elt F)),
    StableHlo.binary main_v41 main_v21 main_v42 (mulf : (⟨S50000x64, .f32⟩ : BufTy).Contents (Elt F) → (⟨S50000x64, .f32⟩ : BufTy).Contents (Elt F) → (⟨S50000x64, .f32⟩ : BufTy).Contents (Elt F)),
    StableHlo.binary main_v40 main_v42 main_v43 (addf : (⟨S50000x64, .f32⟩ : BufTy).Contents (Elt F) → (⟨S50000x64, .f32⟩ : BufTy).Contents (Elt F) → (⟨S50000x64, .f32⟩ : BufTy).Contents (Elt F)),
    StableHlo.unary main_arg3 main_v44 (broadcastInDim S500000x1 ![0] bcast_S500000_S500000x1_0 : (⟨S500000, .f32⟩ : BufTy).Contents (Elt F) → (⟨S500000x1, .f32⟩ : BufTy).Contents (Elt F)),
    StableHlo.nullary main_c_8 (constantI S_ 32 0#32),
    StableHlo.unary main_c_8 main_v45 (broadcastInDim S500000 ![] bcast_S_S500000 : (⟨S_, .i32⟩ : BufTy).Contents (Elt F) → (⟨S500000, .i32⟩ : BufTy).Contents (Elt F)),
    StableHlo.binary main_v25 main_v45 main_v46 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 50000#32),
    StableHlo.unary main_c_9 main_v47 (broadcastInDim S500000 ![] bcast_S_S500000 : (⟨S_, .i32⟩ : BufTy).Contents (Elt F) → (⟨S500000, .i32⟩ : BufTy).Contents (Elt F)),
    StableHlo.binary main_v25 main_v47 main_v48 (addi : (⟨S500000, .i32⟩ : BufTy).Contents (Elt F) → (⟨S500000, .i32⟩ : BufTy).Contents (Elt F) → (⟨S500000, .i32⟩ : BufTy).Contents (Elt F)),
    StableHlo.ternary main_v46 main_v48 main_v25 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v49 main_v50 (broadcastInDim S500000x1 ![0] bcast_S500000_S500000x1_0 : (⟨S500000, .i32⟩ : BufTy).Contents (Elt F) → (⟨S500000x1, .i32⟩ : BufTy).Contents (Elt F)),
    StableHlo.binary main_v43 main_v50 main_v51 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v44 main_v52 (broadcastInDim S500000x64 ![0, 1] bcast_S500000x1_S500000x64_0_1 : (⟨S500000x1, .f32⟩ : BufTy).Contents (Elt F) → (⟨S500000x64, .f32⟩ : BufTy).Contents (Elt F)),
    StableHlo.binary main_v52 main_v51 main_v53 (mulf : (⟨S500000x64, .f32⟩ : BufTy).Contents (Elt F) → (⟨S500000x64, .f32⟩ : BufTy).Contents (Elt F) → (⟨S500000x64, .f32⟩ : BufTy).Contents (Elt F)),
    StableHlo.nullary main_cst_10 (constant S_ .f32 0x00000000#32),
    StableHlo.unary main_cst_10 main_v54 (broadcastInDim S50000x64 ![] bcast_S_S50000x64 : (⟨S_, .f32⟩ : BufTy).Contents (Elt F) → (⟨S50000x64, .f32⟩ : BufTy).Contents (Elt F)),
    StableHlo.unary main_v23 main_v55 (broadcastInDim S500000x1 ![0] bcast_S500000_S500000x1_0 : (⟨S500000, .i32⟩ : BufTy).Contents (Elt F) → (⟨S500000x1, .i32⟩ : BufTy).Contents (Elt F)),
    StableHlo.ternary main_v54 main_v55 main_v53 main_v56 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_11 (constant S_ .f32 0x3F666666#32),
    StableHlo.unary main_cst_11 main_v57 (broadcastInDim S50000x64 ![] bcast_S_S50000x64 : (⟨S_, .f32⟩ : BufTy).Contents (Elt F) → (⟨S50000x64, .f32⟩ : BufTy).Contents (Elt F)),
    StableHlo.binary main_v57 main_v56 main_v58 (mulf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3DCCCCCD#32),
    StableHlo.unary main_cst_12 main_v59 (broadcastInDim S50000x64 ![] bcast_S_S50000x64 : (⟨S_, .f32⟩ : BufTy).Contents (Elt F) → (⟨S50000x64, .f32⟩ : BufTy).Contents (Elt F)),
    StableHlo.binary main_v59 main_v21 main_v60 (mulf : (⟨S50000x64, .f32⟩ : BufTy).Contents (Elt F) → (⟨S50000x64, .f32⟩ : BufTy).Contents (Elt F) → (⟨S50000x64, .f32⟩ : BufTy).Contents (Elt F)),
    StableHlo.binary main_v58 main_v60 main_v61 (addf : (⟨S50000x64, .f32⟩ : BufTy).Contents (Elt F) → (⟨S50000x64, .f32⟩ : BufTy).Contents (Elt F) → (⟨S50000x64, .f32⟩ : BufTy).Contents (Elt F)),
    StableHlo.unary main_arg3 main_v62 (broadcastInDim S500000x1 ![0] bcast_S500000_S500000x1_0 : (⟨S500000, .f32⟩ : BufTy).Contents (Elt F) → (⟨S500000x1, .f32⟩ : BufTy).Contents (Elt F)),
    StableHlo.nullary main_c_13 (constantI S_ 32 0#32),
    StableHlo.unary main_c_13 main_v63 (broadcastInDim S500000 ![] bcast_S_S500000 : (⟨S_, .i32⟩ : BufTy).Contents (Elt F) → (⟨S500000, .i32⟩ : BufTy).Contents (Elt F)),
    StableHlo.binary main_v25 main_v63 main_v64 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 50000#32),
    StableHlo.unary main_c_14 main_v65 (broadcastInDim S500000 ![] bcast_S_S500000 : (⟨S_, .i32⟩ : BufTy).Contents (Elt F) → (⟨S500000, .i32⟩ : BufTy).Contents (Elt F)),
    StableHlo.binary main_v25 main_v65 main_v66 (addi : (⟨S500000, .i32⟩ : BufTy).Contents (Elt F) → (⟨S500000, .i32⟩ : BufTy).Contents (Elt F) → (⟨S500000, .i32⟩ : BufTy).Contents (Elt F)),
    StableHlo.ternary main_v64 main_v66 main_v25 main_v67 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v67 main_v68 (broadcastInDim S500000x1 ![0] bcast_S500000_S500000x1_0 : (⟨S500000, .i32⟩ : BufTy).Contents (Elt F) → (⟨S500000x1, .i32⟩ : BufTy).Contents (Elt F)),
    StableHlo.binary main_v61 main_v68 main_v69 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v62 main_v70 (broadcastInDim S500000x64 ![0, 1] bcast_S500000x1_S500000x64_0_1 : (⟨S500000x1, .f32⟩ : BufTy).Contents (Elt F) → (⟨S500000x64, .f32⟩ : BufTy).Contents (Elt F)),
    StableHlo.binary main_v70 main_v69 main_v71 (mulf : (⟨S500000x64, .f32⟩ : BufTy).Contents (Elt F) → (⟨S500000x64, .f32⟩ : BufTy).Contents (Elt F) → (⟨S500000x64, .f32⟩ : BufTy).Contents (Elt F)),
    StableHlo.nullary main_cst_15 (constant S_ .f32 0x00000000#32),
    StableHlo.unary main_cst_15 main_v72 (broadcastInDim S50000x64 ![] bcast_S_S50000x64 : (⟨S_, .f32⟩ : BufTy).Contents (Elt F) → (⟨S50000x64, .f32⟩ : BufTy).Contents (Elt F)),
    StableHlo.unary main_v23 main_v73 (broadcastInDim S500000x1 ![0] bcast_S500000_S500000x1_0 : (⟨S500000, .i32⟩ : BufTy).Contents (Elt F) → (⟨S500000x1, .i32⟩ : BufTy).Contents (Elt F)),
    StableHlo.ternary main_v72 main_v73 main_v71 main_v74 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_16 (constant S_ .f32 0x3F666666#32),
    StableHlo.unary main_cst_16 main_v75 (broadcastInDim S50000x64 ![] bcast_S_S50000x64 : (⟨S_, .f32⟩ : BufTy).Contents (Elt F) → (⟨S50000x64, .f32⟩ : BufTy).Contents (Elt F)),
    StableHlo.binary main_v75 main_v74 main_v76 (mulf : (⟨S50000x64, .f32⟩ : BufTy).Contents (Elt F) → (⟨S50000x64, .f32⟩ : BufTy).Contents (Elt F) → (⟨S50000x64, .f32⟩ : BufTy).Contents (Elt F)),
    StableHlo.nullary main_cst_17 (constant S_ .f32 0x3DCCCCCD#32),
    StableHlo.unary main_cst_17 main_v77 (broadcastInDim S50000x64 ![] bcast_S_S50000x64 : (⟨S_, .f32⟩ : BufTy).Contents (Elt F) → (⟨S50000x64, .f32⟩ : BufTy).Contents (Elt F)),
    StableHlo.binary main_v77 main_v21 main_v78 (mulf : (⟨S50000x64, .f32⟩ : BufTy).Contents (Elt F) → (⟨S50000x64, .f32⟩ : BufTy).Contents (Elt F) → (⟨S50000x64, .f32⟩ : BufTy).Contents (Elt F)),
    StableHlo.binary main_v76 main_v78 main_v79 (addf : (⟨S50000x64, .f32⟩ : BufTy).Contents (Elt F) → (⟨S50000x64, .f32⟩ : BufTy).Contents (Elt F) → (⟨S50000x64, .f32⟩ : BufTy).Contents (Elt F)),
    StableHlo.unary main_arg3 main_v80 (broadcastInDim S500000x1 ![0] bcast_S500000_S500000x1_0 : (⟨S500000, .f32⟩ : BufTy).Contents (Elt F) → (⟨S500000x1, .f32⟩ : BufTy).Contents (Elt F)),
    StableHlo.nullary main_c_18 (constantI S_ 32 0#32),
    StableHlo.unary main_c_18 main_v81 (broadcastInDim S500000 ![] bcast_S_S500000 : (⟨S_, .i32⟩ : BufTy).Contents (Elt F) → (⟨S500000, .i32⟩ : BufTy).Contents (Elt F)),
    StableHlo.binary main_v25 main_v81 main_v82 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 50000#32),
    StableHlo.unary main_c_19 main_v83 (broadcastInDim S500000 ![] bcast_S_S500000 : (⟨S_, .i32⟩ : BufTy).Contents (Elt F) → (⟨S500000, .i32⟩ : BufTy).Contents (Elt F)),
    StableHlo.binary main_v25 main_v83 main_v84 (addi : (⟨S500000, .i32⟩ : BufTy).Contents (Elt F) → (⟨S500000, .i32⟩ : BufTy).Contents (Elt F) → (⟨S500000, .i32⟩ : BufTy).Contents (Elt F)),
    StableHlo.ternary main_v82 main_v84 main_v25 main_v85 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v85 main_v86 (broadcastInDim S500000x1 ![0] bcast_S500000_S500000x1_0 : (⟨S500000, .i32⟩ : BufTy).Contents (Elt F) → (⟨S500000x1, .i32⟩ : BufTy).Contents (Elt F)),
    StableHlo.binary main_v79 main_v86 main_v87 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v80 main_v88 (broadcastInDim S500000x64 ![0, 1] bcast_S500000x1_S500000x64_0_1 : (⟨S500000x1, .f32⟩ : BufTy).Contents (Elt F) → (⟨S500000x64, .f32⟩ : BufTy).Contents (Elt F)),
    StableHlo.binary main_v88 main_v87 main_v89 (mulf : (⟨S500000x64, .f32⟩ : BufTy).Contents (Elt F) → (⟨S500000x64, .f32⟩ : BufTy).Contents (Elt F) → (⟨S500000x64, .f32⟩ : BufTy).Contents (Elt F)),
    StableHlo.nullary main_cst_20 (constant S_ .f32 0x00000000#32),
    StableHlo.unary main_cst_20 main_v90 (broadcastInDim S50000x64 ![] bcast_S_S50000x64 : (⟨S_, .f32⟩ : BufTy).Contents (Elt F) → (⟨S50000x64, .f32⟩ : BufTy).Contents (Elt F)),
    StableHlo.unary main_v23 main_v91 (broadcastInDim S500000x1 ![0] bcast_S500000_S500000x1_0 : (⟨S500000, .i32⟩ : BufTy).Contents (Elt F) → (⟨S500000x1, .i32⟩ : BufTy).Contents (Elt F)),
    StableHlo.ternary main_v90 main_v91 main_v89 main_v92 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_21 (constant S_ .f32 0x3F666666#32),
    StableHlo.unary main_cst_21 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (mulf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x3DCCCCCD#32),
    StableHlo.unary main_cst_22 main_v95 (broadcastInDim S50000x64 ![] bcast_S_S50000x64 : (⟨S_, .f32⟩ : BufTy).Contents (Elt F) → (⟨S50000x64, .f32⟩ : BufTy).Contents (Elt F)),
    StableHlo.binary main_v95 main_v21 main_v96 (mulf : (⟨S50000x64, .f32⟩ : BufTy).Contents (Elt F) → (⟨S50000x64, .f32⟩ : BufTy).Contents (Elt F) → (⟨S50000x64, .f32⟩ : BufTy).Contents (Elt F)),
    StableHlo.binary main_v94 main_v96 main_v97 (addf : (⟨S50000x64, .f32⟩ : BufTy).Contents (Elt F) → (⟨S50000x64, .f32⟩ : BufTy).Contents (Elt F) → (⟨S50000x64, .f32⟩ : BufTy).Contents (Elt F)),
    StableHlo.unary main_arg3 main_v98 (broadcastInDim S500000x1 ![0] bcast_S500000_S500000x1_0 : (⟨S500000, .f32⟩ : BufTy).Contents (Elt F) → (⟨S500000x1, .f32⟩ : BufTy).Contents (Elt F)),
    StableHlo.nullary main_c_23 (constantI S_ 32 0#32),
    StableHlo.unary main_c_23 main_v99 (broadcastInDim S500000 ![] bcast_S_S500000 : (⟨S_, .i32⟩ : BufTy).Contents (Elt F) → (⟨S500000, .i32⟩ : BufTy).Contents (Elt F)),
    StableHlo.binary main_v25 main_v99 main_v100 (cmpi .slt : (⟨S500000, .i32⟩ : BufTy).Contents (Elt F) → (⟨S500000, .i32⟩ : BufTy).Contents (Elt F) → (⟨S500000, .i1⟩ : BufTy).Contents (Elt F)),
    StableHlo.nullary main_c_24 (constantI S_ 32 50000#32),
    StableHlo.unary main_c_24 main_v101 (broadcastInDim S500000 ![] bcast_S_S500000 : (⟨S_, .i32⟩ : BufTy).Contents (Elt F) → (⟨S500000, .i32⟩ : BufTy).Contents (Elt F)),
    StableHlo.binary main_v25 main_v101 main_v102 (addi : (⟨S500000, .i32⟩ : BufTy).Contents (Elt F) → (⟨S500000, .i32⟩ : BufTy).Contents (Elt F) → (⟨S500000, .i32⟩ : BufTy).Contents (Elt F)),
    StableHlo.ternary main_v100 main_v102 main_v25 main_v103 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v103 main_v104 (broadcastInDim S500000x1 ![0] bcast_S500000_S500000x1_0 : (⟨S500000, .i32⟩ : BufTy).Contents (Elt F) → (⟨S500000x1, .i32⟩ : BufTy).Contents (Elt F)),
    StableHlo.binary main_v97 main_v104 main_v105 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v98 main_v106 (broadcastInDim S500000x64 ![0, 1] bcast_S500000x1_S500000x64_0_1 : (⟨S500000x1, .f32⟩ : BufTy).Contents (Elt F) → (⟨S500000x64, .f32⟩ : BufTy).Contents (Elt F)),
    StableHlo.binary main_v106 main_v105 main_v107 (mulf : (⟨S500000x64, .f32⟩ : BufTy).Contents (Elt F) → (⟨S500000x64, .f32⟩ : BufTy).Contents (Elt F) → (⟨S500000x64, .f32⟩ : BufTy).Contents (Elt F)),
    StableHlo.nullary main_cst_25 (constant S_ .f32 0x00000000#32),
    StableHlo.unary main_cst_25 main_v108 (broadcastInDim S50000x64 ![] bcast_S_S50000x64 : (⟨S_, .f32⟩ : BufTy).Contents (Elt F) → (⟨S50000x64, .f32⟩ : BufTy).Contents (Elt F)),
    StableHlo.unary main_v23 main_v109 (broadcastInDim S500000x1 ![0] bcast_S500000_S500000x1_0 : (⟨S500000, .i32⟩ : BufTy).Contents (Elt F) → (⟨S500000x1, .i32⟩ : BufTy).Contents (Elt F)),
    StableHlo.ternary main_v108 main_v109 main_v107 main_v110 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_26 (constant S_ .f32 0x3F666666#32),
    StableHlo.unary main_cst_26 main_v111 (broadcastInDim S50000x64 ![] bcast_S_S50000x64 : (⟨S_, .f32⟩ : BufTy).Contents (Elt F) → (⟨S50000x64, .f32⟩ : BufTy).Contents (Elt F)),
    StableHlo.binary main_v111 main_v110 main_v112 (mulf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3DCCCCCD#32),
    StableHlo.unary main_cst_27 main_v113 (broadcastInDim S50000x64 ![] bcast_S_S50000x64 : (⟨S_, .f32⟩ : BufTy).Contents (Elt F) → (⟨S50000x64, .f32⟩ : BufTy).Contents (Elt F)),
    StableHlo.binary main_v113 main_v21 main_v114 (mulf : (⟨S50000x64, .f32⟩ : BufTy).Contents (Elt F) → (⟨S50000x64, .f32⟩ : BufTy).Contents (Elt F) → (⟨S50000x64, .f32⟩ : BufTy).Contents (Elt F)),
    StableHlo.binary main_v112 main_v114 main_v115 (addf : (⟨S50000x64, .f32⟩ : BufTy).Contents (Elt F) → (⟨S50000x64, .f32⟩ : BufTy).Contents (Elt F) → (⟨S50000x64, .f32⟩ : BufTy).Contents (Elt F)),
    StableHlo.unary main_arg3 main_v116 (broadcastInDim S500000x1 ![0] bcast_S500000_S500000x1_0 : (⟨S500000, .f32⟩ : BufTy).Contents (Elt F) → (⟨S500000x1, .f32⟩ : BufTy).Contents (Elt F)),
    StableHlo.nullary main_c_28 (constantI S_ 32 0#32),
    StableHlo.unary main_c_28 main_v117 (broadcastInDim S500000 ![] bcast_S_S500000 : (⟨S_, .i32⟩ : BufTy).Contents (Elt F) → (⟨S500000, .i32⟩ : BufTy).Contents (Elt F)),
    StableHlo.binary main_v25 main_v117 main_v118 (cmpi .slt : (⟨S500000, .i32⟩ : BufTy).Contents (Elt F) → (⟨S500000, .i32⟩ : BufTy).Contents (Elt F) → (⟨S500000, .i1⟩ : BufTy).Contents (Elt F)),
    StableHlo.nullary main_c_29 (constantI S_ 32 50000#32),
    StableHlo.unary main_c_29 main_v119 (broadcastInDim S500000 ![] bcast_S_S500000 : (⟨S_, .i32⟩ : BufTy).Contents (Elt F) → (⟨S500000, .i32⟩ : BufTy).Contents (Elt F)),
    StableHlo.binary main_v25 main_v119 main_v120 (addi : (⟨S500000, .i32⟩ : BufTy).Contents (Elt F) → (⟨S500000, .i32⟩ : BufTy).Contents (Elt F) → (⟨S500000, .i32⟩ : BufTy).Contents (Elt F)),
    StableHlo.ternary main_v118 main_v120 main_v25 main_v121 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v121 main_v122 (broadcastInDim S500000x1 ![0] bcast_S500000_S500000x1_0 : (⟨S500000, .i32⟩ : BufTy).Contents (Elt F) → (⟨S500000x1, .i32⟩ : BufTy).Contents (Elt F)),
    StableHlo.binary main_v115 main_v122 main_v123 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v116 main_v124 (broadcastInDim S500000x64 ![0, 1] bcast_S500000x1_S500000x64_0_1 : (⟨S500000x1, .f32⟩ : BufTy).Contents (Elt F) → (⟨S500000x64, .f32⟩ : BufTy).Contents (Elt F)),
    StableHlo.binary main_v124 main_v123 main_v125 (mulf : (⟨S500000x64, .f32⟩ : BufTy).Contents (Elt F) → (⟨S500000x64, .f32⟩ : BufTy).Contents (Elt F) → (⟨S500000x64, .f32⟩ : BufTy).Contents (Elt F)),
    StableHlo.nullary main_cst_30 (constant S_ .f32 0x00000000#32),
    StableHlo.unary main_cst_30 main_v126 (broadcastInDim S50000x64 ![] bcast_S_S50000x64 : (⟨S_, .f32⟩ : BufTy).Contents (Elt F) → (⟨S50000x64, .f32⟩ : BufTy).Contents (Elt F)),
    StableHlo.unary main_v23 main_v127 (broadcastInDim S500000x1 ![0] bcast_S500000_S500000x1_0 : (⟨S500000, .i32⟩ : BufTy).Contents (Elt F) → (⟨S500000x1, .i32⟩ : BufTy).Contents (Elt F)),
    StableHlo.ternary main_v126 main_v127 main_v125 main_v128 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_31 (constant S_ .f32 0x3F666666#32),
    StableHlo.unary main_cst_31 main_v129 (broadcastInDim S50000x64 ![] bcast_S_S50000x64 : (⟨S_, .f32⟩ : BufTy).Contents (Elt F) → (⟨S50000x64, .f32⟩ : BufTy).Contents (Elt F)),
    StableHlo.binary main_v129 main_v128 main_v130 (mulf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3DCCCCCD#32),
    StableHlo.unary main_cst_32 main_v131 (broadcastInDim S50000x64 ![] bcast_S_S50000x64 : (⟨S_, .f32⟩ : BufTy).Contents (Elt F) → (⟨S50000x64, .f32⟩ : BufTy).Contents (Elt F)),
    StableHlo.binary main_v131 main_v21 main_v132 (mulf : (⟨S50000x64, .f32⟩ : BufTy).Contents (Elt F) → (⟨S50000x64, .f32⟩ : BufTy).Contents (Elt F) → (⟨S50000x64, .f32⟩ : BufTy).Contents (Elt F)),
    StableHlo.binary main_v130 main_v132 main_v133 (addf : (⟨S50000x64, .f32⟩ : BufTy).Contents (Elt F) → (⟨S50000x64, .f32⟩ : BufTy).Contents (Elt F) → (⟨S50000x64, .f32⟩ : BufTy).Contents (Elt F)),
    StableHlo.unary main_arg3 main_v134 (broadcastInDim S500000x1 ![0] bcast_S500000_S500000x1_0 : (⟨S500000, .f32⟩ : BufTy).Contents (Elt F) → (⟨S500000x1, .f32⟩ : BufTy).Contents (Elt F)),
    StableHlo.nullary main_c_33 (constantI S_ 32 0#32),
    StableHlo.unary main_c_33 main_v135 (broadcastInDim S500000 ![] bcast_S_S500000 : (⟨S_, .i32⟩ : BufTy).Contents (Elt F) → (⟨S500000, .i32⟩ : BufTy).Contents (Elt F)),
    StableHlo.binary main_v25 main_v135 main_v136 (cmpi .slt : (⟨S500000, .i32⟩ : BufTy).Contents (Elt F) → (⟨S500000, .i32⟩ : BufTy).Contents (Elt F) → (⟨S500000, .i1⟩ : BufTy).Contents (Elt F)),
    StableHlo.nullary main_c_34 (constantI S_ 32 50000#32),
    StableHlo.unary main_c_34 main_v137 (broadcastInDim S500000 ![] bcast_S_S500000 : (⟨S_, .i32⟩ : BufTy).Contents (Elt F) → (⟨S500000, .i32⟩ : BufTy).Contents (Elt F)),
    StableHlo.binary main_v25 main_v137 main_v138 (addi : (⟨S500000, .i32⟩ : BufTy).Contents (Elt F) → (⟨S500000, .i32⟩ : BufTy).Contents (Elt F) → (⟨S500000, .i32⟩ : BufTy).Contents (Elt F)),
    StableHlo.ternary main_v136 main_v138 main_v25 main_v139 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v139 main_v140 (broadcastInDim S500000x1 ![0] bcast_S500000_S500000x1_0 : (⟨S500000, .i32⟩ : BufTy).Contents (Elt F) → (⟨S500000x1, .i32⟩ : BufTy).Contents (Elt F)),
    StableHlo.binary main_v133 main_v140 main_v141 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v134 main_v142 (broadcastInDim S500000x64 ![0, 1] bcast_S500000x1_S500000x64_0_1 : (⟨S500000x1, .f32⟩ : BufTy).Contents (Elt F) → (⟨S500000x64, .f32⟩ : BufTy).Contents (Elt F)),
    StableHlo.binary main_v142 main_v141 main_v143 (mulf : (⟨S500000x64, .f32⟩ : BufTy).Contents (Elt F) → (⟨S500000x64, .f32⟩ : BufTy).Contents (Elt F) → (⟨S500000x64, .f32⟩ : BufTy).Contents (Elt F)),
    StableHlo.nullary main_cst_35 (constant S_ .f32 0x00000000#32),
    StableHlo.unary main_cst_35 main_v144 (broadcastInDim S50000x64 ![] bcast_S_S50000x64 : (⟨S_, .f32⟩ : BufTy).Contents (Elt F) → (⟨S50000x64, .f32⟩ : BufTy).Contents (Elt F)),
    StableHlo.unary main_v23 main_v145 (broadcastInDim S500000x1 ![0] bcast_S500000_S500000x1_0 : (⟨S500000, .i32⟩ : BufTy).Contents (Elt F) → (⟨S500000x1, .i32⟩ : BufTy).Contents (Elt F)),
    StableHlo.ternary main_v144 main_v145 main_v143 main_v146 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_36 (constant S_ .f32 0x3F666666#32),
    StableHlo.unary main_cst_36 main_v147 (broadcastInDim S50000x64 ![] bcast_S_S50000x64 : (⟨S_, .f32⟩ : BufTy).Contents (Elt F) → (⟨S50000x64, .f32⟩ : BufTy).Contents (Elt F)),
    StableHlo.binary main_v147 main_v146 main_v148 (mulf : (⟨S50000x64, .f32⟩ : BufTy).Contents (Elt F) → (⟨S50000x64, .f32⟩ : BufTy).Contents (Elt F) → (⟨S50000x64, .f32⟩ : BufTy).Contents (Elt F)),
    StableHlo.nullary main_cst_37 (constant S_ .f32 0x3DCCCCCD#32),
    StableHlo.unary main_cst_37 main_v149 (broadcastInDim S50000x64 ![] bcast_S_S50000x64 : (⟨S_, .f32⟩ : BufTy).Contents (Elt F) → (⟨S50000x64, .f32⟩ : BufTy).Contents (Elt F)),
    StableHlo.binary main_v149 main_v21 main_v150 (mulf : (⟨S50000x64, .f32⟩ : BufTy).Contents (Elt F) → (⟨S50000x64, .f32⟩ : BufTy).Contents (Elt F) → (⟨S50000x64, .f32⟩ : BufTy).Contents (Elt F)),
    StableHlo.binary main_v148 main_v150 main_v151 (addf : (⟨S50000x64, .f32⟩ : BufTy).Contents (Elt F) → (⟨S50000x64, .f32⟩ : BufTy).Contents (Elt F) → (⟨S50000x64, .f32⟩ : BufTy).Contents (Elt F)),
    StableHlo.unary main_arg3 main_v152 (broadcastInDim S500000x1 ![0] bcast_S500000_S500000x1_0 : (⟨S500000, .f32⟩ : BufTy).Contents (Elt F) → (⟨S500000x1, .f32⟩ : BufTy).Contents (Elt F)),
    StableHlo.nullary main_c_38 (constantI S_ 32 0#32),
    StableHlo.unary main_c_38 main_v153 (broadcastInDim S500000 ![] bcast_S_S500000 : (⟨S_, .i32⟩ : BufTy).Contents (Elt F) → (⟨S500000, .i32⟩ : BufTy).Contents (Elt F)),
    StableHlo.binary main_v25 main_v153 main_v154 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 50000#32),
    StableHlo.unary main_c_39 main_v155 (broadcastInDim S500000 ![] bcast_S_S500000 : (⟨S_, .i32⟩ : BufTy).Contents (Elt F) → (⟨S500000, .i32⟩ : BufTy).Contents (Elt F)),
    StableHlo.binary main_v25 main_v155 main_v156 (addi : (⟨S500000, .i32⟩ : BufTy).Contents (Elt F) → (⟨S500000, .i32⟩ : BufTy).Contents (Elt F) → (⟨S500000, .i32⟩ : BufTy).Contents (Elt F)),
    StableHlo.ternary main_v154 main_v156 main_v25 main_v157 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v157 main_v158 (broadcastInDim S500000x1 ![0] bcast_S500000_S500000x1_0 : (⟨S500000, .i32⟩ : BufTy).Contents (Elt F) → (⟨S500000x1, .i32⟩ : BufTy).Contents (Elt F)),
    StableHlo.binary main_v151 main_v158 main_v159 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v152 main_v160 (broadcastInDim S500000x64 ![0, 1] bcast_S500000x1_S500000x64_0_1 : (⟨S500000x1, .f32⟩ : BufTy).Contents (Elt F) → (⟨S500000x64, .f32⟩ : BufTy).Contents (Elt F)),
    StableHlo.binary main_v160 main_v159 main_v161 (mulf : (⟨S500000x64, .f32⟩ : BufTy).Contents (Elt F) → (⟨S500000x64, .f32⟩ : BufTy).Contents (Elt F) → (⟨S500000x64, .f32⟩ : BufTy).Contents (Elt F)),
    StableHlo.nullary main_cst_40 (constant S_ .f32 0x00000000#32),
    StableHlo.unary main_cst_40 main_v162 (broadcastInDim S50000x64 ![] bcast_S_S50000x64 : (⟨S_, .f32⟩ : BufTy).Contents (Elt F) → (⟨S50000x64, .f32⟩ : BufTy).Contents (Elt F)),
    StableHlo.unary main_v23 main_v163 (broadcastInDim S500000x1 ![0] bcast_S500000_S500000x1_0 : (⟨S500000, .i32⟩ : BufTy).Contents (Elt F) → (⟨S500000x1, .i32⟩ : BufTy).Contents (Elt F)),
    StableHlo.ternary main_v162 main_v163 main_v161 main_v164 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_41 (constant S_ .f32 0x3F666666#32),
    StableHlo.unary main_cst_41 main_v165 (broadcastInDim S50000x64 ![] bcast_S_S50000x64 : (⟨S_, .f32⟩ : BufTy).Contents (Elt F) → (⟨S50000x64, .f32⟩ : BufTy).Contents (Elt F)),
    StableHlo.binary main_v165 main_v164 main_v166 (mulf : (⟨S50000x64, .f32⟩ : BufTy).Contents (Elt F) → (⟨S50000x64, .f32⟩ : BufTy).Contents (Elt F) → (⟨S50000x64, .f32⟩ : BufTy).Contents (Elt F)),
    StableHlo.nullary main_cst_42 (constant S_ .f32 0x3DCCCCCD#32),
    StableHlo.unary main_cst_42 main_v167 (broadcastInDim S50000x64 ![] bcast_S_S50000x64 : (⟨S_, .f32⟩ : BufTy).Contents (Elt F) → (⟨S50000x64, .f32⟩ : BufTy).Contents (Elt F)),
    StableHlo.binary main_v167 main_v21 main_v168 (mulf : (⟨S50000x64, .f32⟩ : BufTy).Contents (Elt F) → (⟨S50000x64, .f32⟩ : BufTy).Contents (Elt F) → (⟨S50000x64, .f32⟩ : BufTy).Contents (Elt F)),
    StableHlo.binary main_v166 main_v168 main_v169 (addf : (⟨S50000x64, .f32⟩ : BufTy).Contents (Elt F) → (⟨S50000x64, .f32⟩ : BufTy).Contents (Elt F) → (⟨S50000x64, .f32⟩ : BufTy).Contents (Elt F)),
    StableHlo.unary main_arg3 main_v170 (broadcastInDim S500000x1 ![0] bcast_S500000_S500000x1_0 : (⟨S500000, .f32⟩ : BufTy).Contents (Elt F) → (⟨S500000x1, .f32⟩ : BufTy).Contents (Elt F)),
    StableHlo.nullary main_c_43 (constantI S_ 32 0#32),
    StableHlo.unary main_c_43 main_v171 (broadcastInDim S500000 ![] bcast_S_S500000 : (⟨S_, .i32⟩ : BufTy).Contents (Elt F) → (⟨S500000, .i32⟩ : BufTy).Contents (Elt F)),
    StableHlo.binary main_v25 main_v171 main_v172 (cmpi .slt : (⟨S500000, .i32⟩ : BufTy).Contents (Elt F) → (⟨S500000, .i32⟩ : BufTy).Contents (Elt F) → (⟨S500000, .i1⟩ : BufTy).Contents (Elt F)),
    StableHlo.nullary main_c_44 (constantI S_ 32 50000#32),
    StableHlo.unary main_c_44 main_v173 (broadcastInDim S500000 ![] bcast_S_S500000 : (⟨S_, .i32⟩ : BufTy).Contents (Elt F) → (⟨S500000, .i32⟩ : BufTy).Contents (Elt F)),
    StableHlo.binary main_v25 main_v173 main_v174 (addi : (⟨S500000, .i32⟩ : BufTy).Contents (Elt F) → (⟨S500000, .i32⟩ : BufTy).Contents (Elt F) → (⟨S500000, .i32⟩ : BufTy).Contents (Elt F)),
    StableHlo.ternary main_v172 main_v174 main_v25 main_v175 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v175 main_v176 (broadcastInDim S500000x1 ![0] bcast_S500000_S500000x1_0 : (⟨S500000, .i32⟩ : BufTy).Contents (Elt F) → (⟨S500000x1, .i32⟩ : BufTy).Contents (Elt F)),
    StableHlo.binary main_v169 main_v176 main_v177 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v170 main_v178 (broadcastInDim S500000x64 ![0, 1] bcast_S500000x1_S500000x64_0_1 : (⟨S500000x1, .f32⟩ : BufTy).Contents (Elt F) → (⟨S500000x64, .f32⟩ : BufTy).Contents (Elt F)),
    StableHlo.binary main_v178 main_v177 main_v179 (mulf : (⟨S500000x64, .f32⟩ : BufTy).Contents (Elt F) → (⟨S500000x64, .f32⟩ : BufTy).Contents (Elt F) → (⟨S500000x64, .f32⟩ : BufTy).Contents (Elt F)),
    StableHlo.nullary main_cst_45 (constant S_ .f32 0x00000000#32),
    StableHlo.unary main_cst_45 main_v180 (broadcastInDim S50000x64 ![] bcast_S_S50000x64 : (⟨S_, .f32⟩ : BufTy).Contents (Elt F) → (⟨S50000x64, .f32⟩ : BufTy).Contents (Elt F)),
    StableHlo.unary main_v23 main_v181 (broadcastInDim S500000x1 ![0] bcast_S500000_S500000x1_0 : (⟨S500000, .i32⟩ : BufTy).Contents (Elt F) → (⟨S500000x1, .i32⟩ : BufTy).Contents (Elt F)),
    StableHlo.ternary main_v180 main_v181 main_v179 main_v182 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_46 (constant S_ .f32 0x3F666666#32),
    StableHlo.unary main_cst_46 main_v183 (broadcastInDim S50000x64 ![] bcast_S_S50000x64 : (⟨S_, .f32⟩ : BufTy).Contents (Elt F) → (⟨S50000x64, .f32⟩ : BufTy).Contents (Elt F)),
    StableHlo.binary main_v183 main_v182 main_v184 (mulf : (⟨S50000x64, .f32⟩ : BufTy).Contents (Elt F) → (⟨S50000x64, .f32⟩ : BufTy).Contents (Elt F) → (⟨S50000x64, .f32⟩ : BufTy).Contents (Elt F)),
    StableHlo.nullary main_cst_47 (constant S_ .f32 0x3DCCCCCD#32),
    StableHlo.unary main_cst_47 main_v185 (broadcastInDim S50000x64 ![] bcast_S_S50000x64 : (⟨S_, .f32⟩ : BufTy).Contents (Elt F) → (⟨S50000x64, .f32⟩ : BufTy).Contents (Elt F)),
    StableHlo.binary main_v185 main_v21 main_v186 (mulf : (⟨S50000x64, .f32⟩ : BufTy).Contents (Elt F) → (⟨S50000x64, .f32⟩ : BufTy).Contents (Elt F) → (⟨S50000x64, .f32⟩ : BufTy).Contents (Elt F)),
    StableHlo.binary main_v184 main_v186 main_v187 (addf : (⟨S50000x64, .f32⟩ : BufTy).Contents (Elt F) → (⟨S50000x64, .f32⟩ : BufTy).Contents (Elt F) → (⟨S50000x64, .f32⟩ : BufTy).Contents (Elt F)),
    StableHlo.unary main_arg3 main_v188 (broadcastInDim S500000x1 ![0] bcast_S500000_S500000x1_0 : (⟨S500000, .f32⟩ : BufTy).Contents (Elt F) → (⟨S500000x1, .f32⟩ : BufTy).Contents (Elt F)),
    StableHlo.nullary main_c_48 (constantI S_ 32 0#32),
    StableHlo.unary main_c_48 main_v189 (broadcastInDim S500000 ![] bcast_S_S500000 : (⟨S_, .i32⟩ : BufTy).Contents (Elt F) → (⟨S500000, .i32⟩ : BufTy).Contents (Elt F)),
    StableHlo.binary main_v25 main_v189 main_v190 (cmpi .slt : (⟨S500000, .i32⟩ : BufTy).Contents (Elt F) → (⟨S500000, .i32⟩ : BufTy).Contents (Elt F) → (⟨S500000, .i1⟩ : BufTy).Contents (Elt F)),
    StableHlo.nullary main_c_49 (constantI S_ 32 50000#32),
    StableHlo.unary main_c_49 main_v191 (broadcastInDim S500000 ![] bcast_S_S500000 : (⟨S_, .i32⟩ : BufTy).Contents (Elt F) → (⟨S500000, .i32⟩ : BufTy).Contents (Elt F)),
    StableHlo.binary main_v25 main_v191 main_v192 (addi : (⟨S500000, .i32⟩ : BufTy).Contents (Elt F) → (⟨S500000, .i32⟩ : BufTy).Contents (Elt F) → (⟨S500000, .i32⟩ : BufTy).Contents (Elt F)),
    StableHlo.ternary main_v190 main_v192 main_v25 main_v193 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v193 main_v194 (broadcastInDim S500000x1 ![0] bcast_S500000_S500000x1_0 : (⟨S500000, .i32⟩ : BufTy).Contents (Elt F) → (⟨S500000x1, .i32⟩ : BufTy).Contents (Elt F)),
    StableHlo.binary main_v187 main_v194 main_v195 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    StableHlo.unary main_v188 main_v196 (broadcastInDim S500000x64 ![0, 1] bcast_S500000x1_S500000x64_0_1 : (⟨S500000x1, .f32⟩ : BufTy).Contents (Elt F) → (⟨S500000x64, .f32⟩ : BufTy).Contents (Elt F)),
    StableHlo.binary main_v196 main_v195 main_v197 (mulf : (⟨S500000x64, .f32⟩ : BufTy).Contents (Elt F) → (⟨S500000x64, .f32⟩ : BufTy).Contents (Elt F) → (⟨S500000x64, .f32⟩ : BufTy).Contents (Elt F)),
    StableHlo.nullary main_cst_50 (constant S_ .f32 0x00000000#32),
    StableHlo.unary main_cst_50 main_v198 (broadcastInDim S50000x64 ![] bcast_S_S50000x64 : (⟨S_, .f32⟩ : BufTy).Contents (Elt F) → (⟨S50000x64, .f32⟩ : BufTy).Contents (Elt F)),
    StableHlo.unary main_v23 main_v199 (broadcastInDim S500000x1 ![0] bcast_S500000_S500000x1_0 : (⟨S500000, .i32⟩ : BufTy).Contents (Elt F) → (⟨S500000x1, .i32⟩ : BufTy).Contents (Elt F)),
    StableHlo.ternary main_v198 main_v199 main_v197 main_v200 ((fun x i u => Host.scatterAdd scatter_S50000x64_S500000x1_S500000x64_1_0_0_1 x i u) : (⟨S50000x64, .f32⟩ : BufTy).Contents (Elt F) → (⟨S500000x1, .i32⟩ : BufTy).Contents (Elt F) → (⟨S500000x64, .f32⟩ : BufTy).Contents (Elt F) → (⟨S50000x64, .f32⟩ : BufTy).Contents (Elt F)),
    StableHlo.nullary main_cst_51 (constant S_ .f32 0x3F666666#32),
    StableHlo.unary main_cst_51 main_v201 (broadcastInDim S50000x64 ![] bcast_S_S50000x64 : (⟨S_, .f32⟩ : BufTy).Contents (Elt F) → (⟨S50000x64, .f32⟩ : BufTy).Contents (Elt F)),
    StableHlo.binary main_v201 main_v200 main_v202 (mulf : (⟨S50000x64, .f32⟩ : BufTy).Contents (Elt F) → (⟨S50000x64, .f32⟩ : BufTy).Contents (Elt F) → (⟨S50000x64, .f32⟩ : BufTy).Contents (Elt F)),
    StableHlo.nullary main_cst_52 (constant S_ .f32 0x3DCCCCCD#32),
    StableHlo.unary main_cst_52 main_v203 (broadcastInDim S50000x64 ![] bcast_S_S50000x64 : (⟨S_, .f32⟩ : BufTy).Contents (Elt F) → (⟨S50000x64, .f32⟩ : BufTy).Contents (Elt F)),
    StableHlo.binary main_v203 main_v21 main_v204 (mulf : (⟨S50000x64, .f32⟩ : BufTy).Contents (Elt F) → (⟨S50000x64, .f32⟩ : BufTy).Contents (Elt F) → (⟨S50000x64, .f32⟩ : BufTy).Contents (Elt F)),
    StableHlo.binary main_v202 main_v204 main_v205 (addf : (⟨S50000x64, .f32⟩ : BufTy).Contents (Elt F) → (⟨S50000x64, .f32⟩ : BufTy).Contents (Elt F) → (⟨S50000x64, .f32⟩ : BufTy).Contents (Elt F)),
    StableHlo.TRef.nullary (StableHlo.TRef.of (T := ⟨S_, .f32⟩) main_call1_cst) (constant S_ .f32 0xFF800000#32),
    StableHlo.TRef.binary (StableHlo.TRef.of (T := ⟨S50000x64, .f32⟩) main_v205) (StableHlo.TRef.of (T := ⟨S_, .f32⟩) main_call1_cst) (StableHlo.TRef.of (T := ⟨S50000, .f32⟩) main_call1_v0) (fun x v => Host.reduce FloatOps.maximumf x v reducesTo_S50000x64_S50000_d1 h_S_),
    StableHlo.TRef.nullary (StableHlo.TRef.of (T := ⟨S_, .f32⟩) main_call1_cst_0) (constant S_ .f32 0xFF800000#32),
    StableHlo.TRef.unary (StableHlo.TRef.of (T := ⟨S_, .f32⟩) main_call1_cst_0) (StableHlo.TRef.of (T := ⟨S50000, .f32⟩) main_call1_v1) (broadcastInDim S50000 ![] bcast_S_S50000),
    StableHlo.TRef.binary (StableHlo.TRef.of (T := ⟨S50000, .f32⟩) main_call1_v1) (StableHlo.TRef.of (T := ⟨S50000, .f32⟩) main_call1_v0) (StableHlo.TRef.of (T := ⟨S50000, .f32⟩) main_call1_v2) maximumf,
    StableHlo.TRef.unary (StableHlo.TRef.of (T := ⟨S50000, .f32⟩) main_call1_v2) (StableHlo.TRef.of (T := ⟨S50000x1, .f32⟩) main_call1_v3) (broadcastInDim S50000x1 ![0] bcast_S50000_S50000x1_0),
    StableHlo.TRef.unary (StableHlo.TRef.of (T := ⟨S50000x1, .f32⟩) main_call1_v3) (StableHlo.TRef.of (T := ⟨S50000x64, .f32⟩) main_call1_v4) (broadcastInDim S50000x64 ![0, 1] bcast_S50000x1_S50000x64_0_1),
    StableHlo.TRef.binary (StableHlo.TRef.of (T := ⟨S50000x64, .f32⟩) main_v205) (StableHlo.TRef.of (T := ⟨S50000x64, .f32⟩) main_call1_v4) (StableHlo.TRef.of (T := ⟨S50000x64, .f32⟩) main_call1_v5) subf,
    StableHlo.TRef.unary (StableHlo.TRef.of (T := ⟨S50000x64, .f32⟩) main_call1_v5) (StableHlo.TRef.of (T := ⟨S50000x64, .f32⟩) main_call1_v6) Host.exp,
    StableHlo.TRef.nullary (StableHlo.TRef.of (T := ⟨S_, .f32⟩) main_call1_cst_1) (constant S_ .f32 0x00000000#32),
    StableHlo.TRef.binary (StableHlo.TRef.of (T := ⟨S50000x64, .f32⟩) main_call1_v6) (StableHlo.TRef.of (T := ⟨S_, .f32⟩) main_call1_cst_1) (StableHlo.TRef.of (T := ⟨S50000, .f32⟩) main_call1_v7) (fun x v => Host.reduceAdd x v reducesTo_S50000x64_S50000_d1 h_S_),
    StableHlo.TRef.unary (StableHlo.TRef.of (T := ⟨S50000, .f32⟩) main_call1_v7) (StableHlo.TRef.of (T := ⟨S50000x1, .f32⟩) main_call1_v8) (broadcastInDim S50000x1 ![0] bcast_S50000_S50000x1_0),
    StableHlo.TRef.unary (StableHlo.TRef.of (T := ⟨S50000x1, .f32⟩) main_call1_v8) (StableHlo.TRef.of (T := ⟨S50000x1, .f32⟩) main_call1_v9) Host.log,
    StableHlo.TRef.unary (StableHlo.TRef.of (T := ⟨S50000x1, .f32⟩) main_call1_v9) (StableHlo.TRef.of (T := ⟨S50000x64, .f32⟩) main_call1_v10) (broadcastInDim S50000x64 ![0, 1] bcast_S50000x1_S50000x64_0_1),
    StableHlo.TRef.binary (StableHlo.TRef.of (T := ⟨S50000x64, .f32⟩) main_call1_v5) (StableHlo.TRef.of (T := ⟨S50000x64, .f32⟩) main_call1_v10) (StableHlo.TRef.of (T := ⟨S50000x64, .f32⟩) main_v206) subf ]

theorem ops_split : (ops : List (HloOp τ sig (Elt F))) = opsFeat ++ (opsDense ++ (opsProp ++ opsLsm)) := rfl

/-- The fold over a concatenation is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Each stretch folded from any contents -/

/-- Contents carried to a buffer's own type and back are the contents (a called function's operations name their buffers at
    the value's type; the two transports cancel). -/
theorem ofBuf_toBuf {Val : EltTy → Type} {T : BufTy} (x : TRef sig T) (v : T.Contents Val) : x.ofBuf (x.toBuf v) = v := by
  unfold TRef.ofBuf TRef.toBuf
  rw [cast_cast, cast_eq]

set_option maxRecDepth 65536 in
/-- The first stretch leaves the feature matrix of the two first arguments. -/
theorem feat_stretch (V : Valuation τ sig (Elt F)) :
    after (opsFeat (F := F)) V (Proc.devRef .tc main_v18)
      = Cert.Appnp.feat (F := F) (V (Proc.devRef .tc main_arg0)) (V (Proc.devRef .tc main_arg1)) := by
  after_results_simp
  rfl

/-- The first stretch writes no later-read argument. -/
theorem feat_keeps_arg2 (V : Valuation τ sig (Elt F)) :
    after (opsFeat (F := F)) V (Proc.devRef .tc main_arg2) = V (Proc.devRef .tc main_arg2) := by
  after_results_simp <;> rfl
/-- The first stretch writes no later-read argument. -/
theorem feat_keeps_arg3 (V : Valuation τ sig (Elt F)) :
    after (opsFeat (F := F)) V (Proc.devRef .tc main_arg3) = V (Proc.devRef .tc main_arg3) := by
  after_results_simp <;> rfl
/-- The first stretch writes no later-read argument. -/
theorem feat_keeps_arg4 (V : Valuation τ sig (Elt F)) :
    after (opsFeat (F := F)) V (Proc.devRef .tc main_arg4) = V (Proc.devRef .tc main_arg4) := by
  after_results_simp <;> rfl
/-- The first stretch writes no later-read argument. -/
theorem feat_keeps_arg5 (V : Valuation τ sig (Elt F)) :
    after (opsFeat (F := F)) V (Proc.devRef .tc main_arg5) = V (Proc.devRef .tc main_arg5) := by
  after_results_simp <;> rfl

set_option maxRecDepth 65536 in
/-- The second stretch leaves the two rectified layers of its input matrix. -/
theorem dense_stretch (V : Valuation τ sig (Elt F)) :
    after (opsDense (F := F)) V (Proc.devRef .tc main_v21)
      = Cert.Appnp.denseHost (F := F) (V (Proc.devRef .tc main_v18)) (V (Proc.devRef .tc main_arg4)) (V (Proc.devRef .tc main_arg5)) := by
  after_results_simp
  simp only [ofBuf_toBuf]
  rfl

/-- The second stretch writes neither the edge list nor the weights. -/
theorem dense_keeps_arg2 (V : Valuation τ sig (Elt F)) :
    after (opsDense (F := F)) V (Proc.devRef .tc main_arg2) = V (Proc.devRef .tc main_arg2) := by
  after_results_simp <;> rfl
/-- The second stretch writes neither the edge list nor the weights. -/
theorem dense_keeps_arg3 (V : Valuation τ sig (Elt F)) :
    after (opsDense (F := F)) V (Proc.devRef .tc main_arg3) = V (Proc.devRef .tc main_arg3) := by
  after_results_simp <;> rfl

set_option maxRecDepth 65536 in
set_option maxHeartbeats 4000000 in
/-- The third stretch leaves ten propagation steps of its input. -/
theorem prop_stretch (V : Valuation τ sig (Elt F)) :
    after (opsProp (F := F)) V (Proc.devRef .tc main_v205)
      = Cert.Appnp.propagate (F := F) (V (Proc.devRef .tc main_v21)) (V (Proc.devRef .tc main_arg2)) (V (Proc.devRef .tc main_arg3)) := by
  after_results_simp
  rfl

set_option maxRecDepth 65536 in
/-- The fourth stretch leaves the row-wise log-softmax of its input. -/
theorem lsm_stretch (V : Valuation τ sig (Elt F)) :
    after (opsLsm (F := F)) V (Proc.devRef .tc main_v206)
      = Cert.Appnp.logSoftmaxHost (F := F) (V (Proc.devRef .tc main_v205)) := by
  after_results_simp
  simp only [ofBuf_toBuf]
  rfl

/-- The whole line folded at the result buffer: the four stages composed. -/
theorem result_eq (V : Valuation τ sig (Elt F)) :
    after (ops (F := F)) V (Proc.devRef .tc main_v206)
      = Cert.Appnp.logSoftmaxHost (F := F) (Cert.Appnp.propagate
          (Cert.Appnp.denseHost (Cert.Appnp.feat (V (Proc.devRef .tc main_arg0)) (V (Proc.devRef .tc main_arg1)))
            (V (Proc.devRef .tc main_arg4)) (V (Proc.devRef .tc main_arg5)))
          (V (Proc.devRef .tc main_arg2)) (V (Proc.devRef .tc main_arg3))) := by
  rw [ops_split, after_append, after_append, after_append, lsm_stretch, prop_stretch, dense_stretch, feat_stretch,
    dense_keeps_arg2, dense_keeps_arg3, feat_keeps_arg2, feat_keeps_arg3, feat_keeps_arg4, feat_keeps_arg5]

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., nullary_bufs_sub .., unary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 65536 in
set_option maxHeartbeats 100000000 in
/-- Every weakly fair execution of the reference terminates with its result at the composed stages of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206)
        = Cert.Appnp.logSoftmaxHost (F := F) (Cert.Appnp.propagate
            (Cert.Appnp.denseHost (Cert.Appnp.feat (m ((c.tc : Thread nD τ).loc main_arg0)) (m ((c.tc : Thread nD τ).loc main_arg1))) (m ((c.tc : Thread nD τ).loc main_arg4)) (m ((c.tc : Thread nD τ).loc main_arg5))) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v206).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.LibIndexReads.lean ====
/-
  Layout operations and host sums read at an index, over arrays of literal rank written with `ix1`, `ix2`, `ix3`.

  A slice at `(a, b, c)` is the operand at the offsets plus `(a, b, c)`; a reshape `[a, b, c] → [a, b·c]` at `(i, j)` is the
  operand at `(i, p, q)` with `p·c + q = j`; dropping or adding a trailing unit axis changes nothing; a broadcast that adds
  a trailing unit axis reads the operand at the leading coordinates; a host sum over the last axis is the initial value
  plus the sum over that axis's coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section
namespace Cert.Lib.IndexReads
open Idealize.ShloMosaic Idealize.ShloMosaic.ValueIdx

variable {α : Type}

/-- A slice of a rank-3 array at `(a, b, c)`: the operand at `(k0, k1, k2)`, each the offset plus the coordinate. -/
theorem slice3_apply {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (k0 : Fin n0) (k1 : Fin n1) (k2 : Fin n2)
    (e0 : k0.val = o0 + a.val) (e1 : k1.val = o1 + b.val) (e2 : k2.val = o2 + c.val) :
    extractStridedSlice ⟨3, ![m0, m1, m2]⟩ ![o0, o1, o2] X h (ix3 a b c) = X (ix3 k0 k1 k2) :=
  extractStridedSlice_apply _ X h _ _ (fun x => match x with | ⟨0, _⟩ => e0 | ⟨1, _⟩ => e1 | ⟨2, _⟩ => e2)

/-- A slice of a rank-2 array at `(a, b)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩)
    (a : Fin m0) (b : Fin m1) (k0 : Fin n0) (k1 : Fin n1)
    (e0 : k0.val = o0 + a.val) (e1 : k1.val = o1 + b.val) :
    extractStridedSlice ⟨2, ![m0, m1]⟩ ![o0, o1] X h (ix2 a b) = X (ix2 k0 k1) :=
  extractStridedSlice_apply _ X h _ _ (fun x => match x with | ⟨0, _⟩ => e0 | ⟨1, _⟩ => e1)

/-- A slice of a vector at `a`. -/
theorem slice1_apply {n0 m0 : Nat} (o0 : Nat) (X : (⟨1, ![n0]⟩ : Shape).Idx → α)
    (h : (⟨1, ![n0]⟩ : Shape).Slices ![o0] ⟨1, ![m0]⟩) (a : Fin m0) (k0 : Fin n0) (e0 : k0.val = o0 + a.val) :
    extractStridedSlice ⟨1, ![m0]⟩ ![o0] X h (ix1 a) = X (ix1 k0) :=
  extractStridedSlice_apply _ X h _ _ (fun x => match x with | ⟨0, _⟩ => e0)

/-- Merging the last two axes: `[a, b, c] → [a, m]` with `m = b·c`, at `(i, j)`, is the operand at `(i, p, q)` when
    `p·c + q = j`. -/
theorem reshape32_apply {a b c m : Nat} (X : (⟨3, ![a, b, c]⟩ : Shape).Idx → α)
    (h : (⟨3, ![a, b, c]⟩ : Shape).ShapeCasts ⟨2, ![a, m]⟩) (hm : m = b * c)
    (i : Fin a) (j : Fin m) (p : Fin b) (q : Fin c) (e : p.val * c + q.val = j.val) :
    shapeCast ⟨2, ![a, m]⟩ X h (ix2 i j) = X (ix3 i p q) := by
  refine shapeCast_apply X h _ _ ?_
  rw [Shape.rowMajor_val_three, Shape.rowMajor_val_two]
  show (i.val * b + p.val) * c + q.val = i.val * m + j.val
  subst hm; rw [← e]; ring

/-- Dropping a trailing unit axis: `[a, b, 1] → [a, b]` at `(i, j)` is the operand at `(i, j, 0)`. -/
theorem reshape_ab1_ab_apply {a b : Nat} (X : (⟨3, ![a, b, 1]⟩ : Shape).Idx → α)
    (h : (⟨3, ![a, b, 1]⟩ : Shape).ShapeCasts ⟨2, ![a, b]⟩) (i : Fin a) (j : Fin b) :
    shapeCast ⟨2, ![a, b]⟩ X h (ix2 i j) = X (ix3 i j 0) := by
  refine shapeCast_apply X h _ _ ?_
  rw [Shape.rowMajor_val_three, Shape.rowMajor_val_two]
  show (i.val * b + j.val) * 1 + 0 = i.val * b + j.val
  omega

/-- The one entry of a `[1, 1]` array as a rank-0 array. -/
theorem reshape_11_scalar_apply (X : (⟨2, ![1, 1]⟩ : Shape).Idx → α)
    (h : (⟨2, ![1, 1]⟩ : Shape).ShapeCasts ⟨0, ![]⟩) (j : (⟨0, ![]⟩ : Shape).Idx) :
    shapeCast ⟨0, ![]⟩ X h j = X (ix2 0 0) := by
  refine shapeCast_apply X h _ _ ?_
  rw [Shape.rowMajor_val_two]
  have h1 := ((⟨0, ![]⟩ : Shape).rowMajor j).isLt
  have h2 : (⟨0, ![]⟩ : Shape).numel = 1 := by decide
  show 0 * 1 + 0 = _
  omega

/-- A broadcast adding a trailing unit axis, `[a, b] → [a, b, 1]` on dimensions `[0, 1]`, at `(i, j, u)`: the operand at `(i, j)`. -/
theorem bcast_ab_ab1_apply {a b : Nat} (X : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h X (ix3 i j u) = X (ix2 i j) :=
  broadcastInDim_apply _ h X _ _ (fun x => match x with
    | ⟨0, _⟩ => by show i.val = if a = 1 then 0 else i.val; split <;> omega
    | ⟨1, _⟩ => by show j.val = if b = 1 then 0 else j.val; split <;> omega)

/-- A broadcast of a vector to a column, `[a] → [a, 1]` on dimension `[0]`, at `(i, u)`: the operand at `i`. -/
theorem bcast_a_a1_apply {a : Nat} (X : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h X (ix2 i u) = X (ix1 i) :=
  broadcastInDim_apply _ h X _ _ (fun x => match x with
    | ⟨0, _⟩ => by show i.val = if a = 1 then 0 else i.val; split <;> omega)

/-- The host's sum over the LAST axis of a rank-3 array at `(i, j)`: the initial value plus the sum over that axis. -/
theorem hostReduceAdd_last3 {a b c : Nat} {φ : FTy} (X : FVec Ideal ⟨3, ![a, b, c]⟩ φ) (init : FVec Ideal ⟨0, ![]⟩ φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduceAdd X init h' hu (ix2 i j) = init ix0 + ∑ k : Fin c, X (ix3 i j k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

/-- The host's sum over the last axis of a matrix at row `i`. -/
theorem hostReduceAdd_last2 {a b : Nat} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd X init h' hu (ix1 i) = init ix0 + ∑ k : Fin b, X (ix2 i k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

end Cert.Lib.IndexReads
-- ==== Proof.HostMaps.lean ====
/-
  The reference's host operations for the dense layers and for the log-softmax, read at an entry.

  On the extended reals the host's dot_general is the plain contraction sum, its rectifier `max · 0`, its row reduction
  with maximum from -∞ the row's supremum (taking the maximum with -∞ once more changes nothing: -∞ is the least
  element), its row sum from 0 the sum over the row, and a keepdims column spread over a row reads the column.  So the
  host's two stages are `denseRows` and `logSoftmaxRows`.
-/
import proofs.«153112_j89696097009666_1_alg».proof.Proof.Stretches
import proofs.«153112_j89696097009666_1_alg».proof.Proof.RowMaps
import proofs.«153112_j89696097009666_1_alg».proof.Proof.LibPlainDot
import proofs.«153112_j89696097009666_1_alg».proof.Proof.LibFoldExtrema
import proofs.«153112_j89696097009666_1_alg».proof.Proof.LibOneAxisExtrema
import proofs.«153112_j89696097009666_1_alg».proof.Proof.LibIndexReads
import Idealize.ShloMosaic.Lib.IdealHost

noncomputable section

namespace Cert.Appnp

open Idealize.ShloMosaic Idealize.ShloMosaic.ValueIdx Cert.ReferenceIdeal Cert.ReferenceIdeal.Gen
open scoped BigOperators

/-- An [a, 1] column spread over [a, b] by the host reads, at (p, c), the column at row p. -/
theorem bcast_a1_ab_apply {α : Type} {a b : ℕ} (X : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h X (ix2 p c) = X (ix2 p (0 : Fin 1)) :=
  broadcastInDim_apply _ h X _ _ (fun x => match x with
    | ⟨0, _⟩ => by show p.val = if a = 1 then 0 else p.val; split <;> omega
    | ⟨1, _⟩ => rfl)

/-- The host's exponential at an index is the exponential of the entry. -/
theorem hostExp_apply {s : Shape} (A : FVec Ideal s .f32) (i : s.Idx) : Host.exp A i = Ideal.exp (A i) := rfl
/-- The host's logarithm at an index is the logarithm of the entry. -/
theorem hostLog_apply {s : Shape} (A : FVec Ideal s .f32) (i : s.Idx) : Host.log A i = Ideal.log (A i) := rfl

/-! ## The dense layers -/

theorem denseHost_eq (X : FVec Ideal S50000x1024 .f32) (w1 : FVec Ideal S1024x256 .f32) (w2 : FVec Ideal S256x64 .f32) :
    denseHost (F := Ideal) X w1 w2 = denseRows X w1 w2 := by
  funext i
  obtain ⟨r, q, rfl⟩ : ∃ (r : Fin 50000) (q : Fin 64), i = ix2 r q := ⟨i 0, i 1, eq_ix2 i⟩
  unfold denseHost
  refine (Cert.PlainDot.dotGeneral_apply dot_S50000x256_S256x64_S50000x64_1_0_0_1_n_n rfl rfl rfl rfl rfl rfl none .single _ _ r q).trans ?_
  refine Eq.trans ?_ (show denseAt X w1 w2 r q = denseRows X w1 w2 (ix2 r q) from rfl)
  unfold denseAt
  refine Finset.sum_congr rfl fun k _ => ?_
  rw [maximumf_apply, broadcastInDim_scalar_apply, constant_apply, Ideal.ofBits_zero_f32]
  exact congrArg (fun s => max s 0 * w2 (ix2 k q))
    (Cert.PlainDot.dotGeneral_apply dot_S50000x1024_S1024x256_S50000x256_1_0_0_1_n_n rfl rfl rfl rfl rfl rfl none .single X w1 r k)

/-! ## The log-softmax -/

/-- The row-to-scalar reduction's shape fact in its vector form. -/
theorem reduces_rows : S50000x64.Reduces [1] S50000 := by decide

/-- The host's row maximum is the row's supremum. -/
theorem rowMaxHost_apply (P : FVec Ideal S50000x64 .f32) (r : Fin 50000) :
    rowMaxHost (F := Ideal) P (ix1 r) = rowSup P r := by
  unfold rowMaxHost
  rw [maximumf_apply, broadcastInDim_scalar_apply, constant_apply, Cert.FoldExtrema.ofBits_neg_inf, max_bot_left]
  refine (Cert.FoldExtrema.hostReduce_max_eq_sup P reducesTo_S50000x64_S50000_d1 h_S_ (ix1 r)).trans ?_
  refine (Cert.OneAxisExtrema.sup_filter_dropTo_single reducesTo_S50000x64_S50000_d1 reduces_rows P (ix1 r)).trans ?_
  unfold rowSup
  exact congrArg _ (funext fun k => congrArg P (lift_row _ r k))

/-- An entry less its row's supremum. -/
theorem shiftedHost_apply (P : FVec Ideal S50000x64 .f32) (r : Fin 50000) (k : Fin 64) :
    shiftedHost (F := Ideal) P (ix2 r k) = P (ix2 r k) - rowSup P r := by
  unfold shiftedHost
  rw [subf_apply, bcast_a1_ab_apply, Cert.Lib.IndexReads.bcast_a_a1_apply, rowMaxHost_apply]

theorem logSoftmaxHost_eq (P : FVec Ideal S50000x64 .f32) : logSoftmaxHost (F := Ideal) P = logSoftmaxRows P := by
  funext i
  obtain ⟨r, q, rfl⟩ : ∃ (r : Fin 50000) (q : Fin 64), i = ix2 r q := ⟨i 0, i 1, eq_ix2 i⟩
  refine Eq.trans ?_ (show logSoftmaxAt P r q = logSoftmaxRows P (ix2 r q) from rfl)
  unfold logSoftmaxHost logSoftmaxAt
  rw [subf_apply, shiftedHost_apply, bcast_a1_ab_apply, hostLog_apply, Cert.Lib.IndexReads.bcast_a_a1_apply,
    Cert.Lib.IndexReads.hostReduceAdd_last2 _ _ reducesTo_S50000x64_S50000_d1 reduces_rows h_S_ r, constant_apply,
    Ideal.ofBits_zero_f32, zero_add]
  refine congrArg (fun s => P (ix2 r q) - rowSup P r - Ideal.log s) (Finset.sum_congr rfl fun k _ => ?_)
  rw [hostExp_apply, shiftedHost_apply]

end Cert.Appnp

end
-- ==== Proof.lean ====
/-
  A ten-step personalized propagation network: kernel program against its array reference, on the extended reals.

  Both programs assemble a node-by-feature matrix X from a coordinate list, form local predictions
      h = (max (X · W₁) 0) · W₂,
  propagate them ten times along weighted edges,
      p  ↦  c₁ · (edge-weighted sum of p over the edges into each node) + c₂ · h,      p₀ = h,
  and return the row-wise log-softmax of the last p.  The reference does every stage on whole arrays with host
  operations.  The kernel program does the two host stages (assembling X, propagating) with the very same host
  operations, and the other two in tiles of 1000 rows: one region for h (two matrix-unit products into zero
  accumulators around a rectifier, operands narrowed to bf16 — the identity on the extended reals), one for the
  log-softmax (row maximum from -∞, subtraction, exponentials, row sum, logarithm).

  Why they agree: an entry of h depends only on its own row of X, and an entry of the log-softmax only on its own row
  of p, so what each tile writes back is the corresponding block of ONE whole-array function, and the fifty tiles
  cover the array (`Blocks`).  Read at an entry, the tile computation and the host computation are the same sums,
  suprema, exponentials and logarithm (`KernelPayloads`, `HostMaps`); the host's one extra maximum against -∞ is
  absorbed because -∞ is the least extended real.  No step needs the inputs to be finite: the joining laws are
  reindexings of sums and suprema, so the precondition is never opened.  The shared host stages are named once
  (`Stretches`) and only ever compared with themselves.

  The claims: the two kernel programs' frames are the generated ones; the reference's frame is its run
  (`RefRun`) with the result forgotten; the idealization rewrote nothing, so preservation is trivial; and the
  algebraic claim states both runs (`KernelRun` with `KernelValue`, `RefRun`) with the same function of the arguments.
-/
import proofs.«153112_j89696097009666_1_alg».proof.Defs
import proofs.«153112_j89696097009666_1_alg».proof.Proof.Gen.Kernel
import proofs.«153112_j89696097009666_1_alg».proof.Proof.Gen.Kernel.Skeleton
import proofs.«153112_j89696097009666_1_alg».proof.Proof.Gen.Kernel.Launch
import proofs.«153112_j89696097009666_1_alg».proof.Proof.Gen.Kernel.Points
import proofs.«153112_j89696097009666_1_alg».proof.Proof.Gen.Kernel.Frame
import proofs.«153112_j89696097009666_1_alg».proof.Proof.Gen.KernelIdeal
import proofs.«153112_j89696097009666_1_alg».proof.Proof.Gen.KernelIdeal.Skeleton
import proofs.«153112_j89696097009666_1_alg».proof.Proof.Gen.KernelIdeal.Launch
import proofs.«153112_j89696097009666_1_alg».proof.Proof.Gen.KernelIdeal.Points
import proofs.«153112_j89696097009666_1_alg».proof.Proof.Gen.KernelIdeal.Frame
import proofs.«153112_j89696097009666_1_alg».proof.Proof.Gen.ReferenceIdeal
import proofs.«153112_j89696097009666_1_alg».proof.Proof.Gen.Pre_finite_inputs
import proofs.«153112_j89696097009666_1_alg».proof.Proof.KernelRun
import proofs.«153112_j89696097009666_1_alg».proof.Proof.KernelValue
import proofs.«153112_j89696097009666_1_alg».proof.Proof.RefRun
import proofs.«153112_j89696097009666_1_alg».proof.Proof.HostMaps
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Both programs end with the log-softmax of the propagated dense layers of the feature matrix. -/
theorem algebraic : Cert.algebraic_KernelIdeal_ReferenceIdeal := by
  intro m ρ m' ρ' _ hagree
  refine ⟨fun c => Cert.Appnp.logSoftmaxRows (Cert.Appnp.propagate (F := Ideal)
      (Cert.Appnp.denseRows (Cert.Appnp.feat (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg2)) (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.Result.result_eq m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.HostRun.run (F := Ideal) m' ρ')
    rw [(hagree c).1, (hagree c).2.1, (hagree c).2.2.1, (hagree c).2.2.2.1, (hagree c).2.2.2.2.1, (hagree c).2.2.2.2.2,
      Cert.Appnp.logSoftmaxHost_eq, Cert.Appnp.denseHost_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
